-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x1 .f32) (main_arg11 : FVec F S1 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S4x64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S4x64x64 .f32) (main_arg5 : FVec F S4x64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S10000x64 : Shape := ⟨2, ![10000, 64]⟩
abbrev S1x64x64 : Shape := ⟨3, ![1, 64, 64]⟩
abbrev S1700000x64 : Shape := ⟨2, ![1700000, 64]⟩
abbrev S1x32 : Shape := ⟨2, ![1, 32]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩
abbrev S10000x32 : Shape := ⟨2, ![10000, 32]⟩
abbrev S10000x16 : Shape := ⟨2, ![10000, 16]⟩

abbrev nBuf : Space → Nat
  | .hbm => 153
  | .vmem => 64
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S4x64x64, .f32⟩
  | 5 => ⟨S4x64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1x64, .f32⟩
  | 56 => ⟨S100000x64, .f32⟩
  | 57 => ⟨S1x64x64, .f32⟩
  | 58 => ⟨S64x64, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x1, .f32⟩
  | 70 => ⟨S1700000x64, .f32⟩
  | 71 => ⟨S1700000x64, .f32⟩
  | 72 => ⟨S_, .f32⟩
  | 73 => ⟨S100000x64, .f32⟩
  | 74 => ⟨S1700000x1, .i32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S1x64x64, .f32⟩
  | 81 => ⟨S64x64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S1x64, .f32⟩
  | 100 => ⟨S64, .f32⟩
  | 101 => ⟨S1x64, .f32⟩
  | 102 => ⟨S100000x64, .f32⟩
  | 103 => ⟨S1x64x64, .f32⟩
  | 104 => ⟨S64x64, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x64, .f32⟩
  | 10 => ⟨S1700000x1, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S1x32, .f32⟩
  | 22 => ⟨S1x16, .f32⟩
  | 23 => ⟨S1x1, .f32⟩
  | 24 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x32, .f32⟩
  | .local _ .vmem, ⟨57, _⟩ => ⟨S1x32, .f32⟩
  | .local _ .vmem, ⟨58, _⟩ => ⟨S32x16, .f32⟩
  | .local _ .vmem, ⟨59, _⟩ => ⟨S1x16, .f32⟩
  | .local _ .vmem, ⟨60, _⟩ => ⟨S16x1, .f32⟩
  | .local _ .vmem, ⟨61, _⟩ => ⟨S1x1, .f32⟩
  | .local _ .vmem, ⟨62, _⟩ => ⟨S10000x1, .f32⟩
  | .local _ .vmem, ⟨63, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_16 : Ref sig .tc := ⟨.hbm, 129, rfl⟩
abbrev main_v97 : Ref sig .tc := ⟨.hbm, 130, rfl⟩
abbrev main_v98 : Ref sig .tc := ⟨.hbm, 131, rfl⟩
abbrev main_c_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_18 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg2_1 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg4_0 : Ref sig .tc := ⟨.vmem, 59, rfl⟩
abbrev cc9_stg5_0 : Ref sig .tc := ⟨.vmem, 60, rfl⟩
abbrev cc9_stg6_0 : Ref sig .tc := ⟨.vmem, 61, rfl⟩
abbrev cc9_stg7_0 : Ref sig .tc := ⟨.vmem, 62, rfl⟩
abbrev cc9_stg7_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem2_1 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem4_0 : DmaSem sig := 59
abbrev cc9_sem5_0 : DmaSem sig := 60
abbrev cc9_sem6_0 : DmaSem sig := 61
abbrev cc9_sem7_0 : DmaSem sig := 62
abbrev cc9_sem7_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S16x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S10000x1 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S4x64x64_S1x64x64_0_0_0 : S4x64x64.Slices ![0, 0, 0] S1x64x64
  shapeCasts_S1x64x64_S64x64 : S1x64x64.ShapeCasts S64x64
  shapeCasts_S10000x64_S10000x64 : S10000x64.ShapeCasts S10000x64
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S32_S1x32 : S32.ShapeCasts S1x32
  shapeCasts_S16_S1x16 : S16.ShapeCasts S1x16
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x16.size a ≤ S32x16.size a
  hwx9_3 : ∀ i : grid9.Coords, EltTy.bits .f32 = 32 ∨ (Rect.block (s := S32x16) S32x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x16.size a ≤ S1x16.size a
  hwx9_4 : ∀ i : grid9.Coords, EltTy.bits .f32 = 32 ∨ (Rect.block (s := S1x16) S1x16.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S16x1.size a ≤ S16x1.size a
  hwx9_5 : ∀ i : grid9.Coords, EltTy.bits .f32 = 32 ∨ (Rect.block (s := S16x1) S16x1.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x1.size a ≤ S1x1.size a
  hwx9_6 : ∀ i : grid9.Coords, EltTy.bits .f32 = 32 ∨ (Rect.block (s := S1x1) S1x1.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S10000x1.size a ≤ S100000x1.size a
  hwx9_7 : ∀ i : grid9.Coords, EltTy.bits .f32 = 32 ∨ (Rect.block (s := S100000x1) S10000x1.size (cc9_transform_7 i) (hinb9_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S10000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v93) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v93) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S10000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v113) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v113) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg8) S32x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v115) S1x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg10) S16x1.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v116) S1x1.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v117) S10000x1.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S1x64x64 : Shape := ⟨3, ![1, 64, 64]⟩
abbrev S1700000x64 : Shape := ⟨2, ![1700000, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S4x64x64, .f32⟩
  | 5 => ⟨S4x64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S1x64, .f32⟩
  | 57 => ⟨S100000x64, .f32⟩
  | 58 => ⟨S100000x64, .f32⟩
  | 59 => ⟨S1x64x64, .f32⟩
  | 60 => ⟨S64x64, .f32⟩
  | 61 => ⟨S100000x64, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x1, .f32⟩
  | 72 => ⟨S1700000x64, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x1, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x64, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x1, .f32⟩
  | 28 => ⟨S1700000x64, .f32⟩
  | 29 => ⟨S1700000x64, .f32⟩
  | 30 => ⟨S_, .f32⟩
  | 31 => ⟨S100000x64, .f32⟩
  | 32 => ⟨S1700000x1, .i32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S100000x64, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S100000x16, .f32⟩
  | 48 => ⟨S1x16, .f32⟩
  | 49 => ⟨S100000x16, .f32⟩
  | 50 => ⟨S100000x16, .f32⟩
  | 51 => ⟨S_, .f32⟩
  | 52 => ⟨S100000x16, .f32⟩
  | 53 => ⟨S100000x16, .f32⟩
  | 54 => ⟨S100000x1, .f32⟩
  | 55 => ⟨S1x1, .f32⟩
  | 56 => ⟨S100000x1, .f32⟩
  | 57 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_cst : Ref sig .tc := ⟨.hbm, 84, rfl⟩
abbrev main_call1_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call2_cst : Ref sig .tc := ⟨.hbm, 112, rfl⟩
abbrev main_call2_v0 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_13 : Ref sig .tc := ⟨.hbm, 118, rfl⟩
abbrev main_v85 : Ref sig .tc := ⟨.hbm, 119, rfl⟩
abbrev main_v86 : Ref sig .tc := ⟨.hbm, 120, rfl⟩
abbrev main_c_14 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_15 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call3_cst : Ref sig .tc := ⟨.hbm, 140, rfl⟩
abbrev main_call3_v0 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_16 : Ref sig .tc := ⟨.hbm, 146, rfl⟩
abbrev main_v108 : Ref sig .tc := ⟨.hbm, 147, rfl⟩
abbrev main_v109 : Ref sig .tc := ⟨.hbm, 148, rfl⟩
abbrev main_c_17 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_18 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_call4_cst : Ref sig .tc := ⟨.hbm, 172, rfl⟩
abbrev main_call4_v0 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_call5_cst : Ref sig .tc := ⟨.hbm, 179, rfl⟩
abbrev main_call5_v0 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KRun.lean ====
/-
  The idealized kernel program's run with its result named.

  The program is ten tiled regions among stretches of host operations. Its launch over those segments ends, on every
  core, with every unscoped buffer at the last segment's contents (the fold of the segments' effects from the launch
  memory); read at the arguments this is the frame claim, and read ALSO at the result buffer it says what the program
  returns: the last region's output array after its write-backs. The launch is the one the frame certificate makes;
  only the buffers read off the final state differ.
-/
import proofs.«122742_j46179488367199_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    region's exit contents and the argument arrays as launched. -/
theorem run_result : θ_run defs (onTc (τ := τ) (main (F := F))) ⟨m, fun _ => 0, ρ⟩ (fun r => ∀ c : Dev nD,
      r.2.mem ((c.tc : Thread nD τ).loc main_v117) = W22 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v117 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c)⟩)

end Cert.KernelIdeal.ValueRun

end
-- ==== Proof.Keeps.lean ====
/-
  Buffers that keep their contents across segments of the kernel program.

  The program's buffer contents at the boundaries of its segments are a fold from the launch memory: a stretch of host
  operations changes only the buffers its operations write, and a tiled region only its output arrays (an array it
  stages as an INPUT ends as it was entered). Each theorem below says that one buffer holds at a later boundary what
  it held at an earlier one, by walking the fold back one segment at a time; the three reasons are the three forms
  of step (a stretch that does not write the buffer, a region that does not stage it, a region that stages it as an input).
-/
import proofs.«122742_j46179488367199_1_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A stretch of host operations leaves a buffer none of its operations writes as it was: the writes of each
    operation are its one result buffer, which is another buffer. -/
macro "stretch_keeps" : tactic => `(tactic|
  exact StableHlo.after_of_forall_not_mem _ _ (List.forall_iff_forall_mem.mp (by
    simp only [hostOps0, hostOps0_1, hostOps0_2, hostOps1, hostOps2, hostOps3, hostOps4, hostOps5, hostOps6, hostOps7, hostOps8,
      hostOps9, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_v3_6_3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by stretch_keeps
    _ = W3 m ρ c (Proc.devRef .tc main_v3) := W4_of_ne m ρ c main_v3 (by decide)

theorem keep_v3_10_6 : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by stretch_keeps
    _ = W7 m ρ c (Proc.devRef .tc main_v3) := W8_of_ne m ρ c main_v3 (by decide)
    _ = W6 m ρ c (Proc.devRef .tc main_v3) := by stretch_keeps

theorem keep_v3_14_10 : W14 m ρ c (Proc.devRef .tc main_v3) = W10 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by stretch_keeps
    _ = W11 m ρ c (Proc.devRef .tc main_v3) := W12_of_ne m ρ c main_v3 (by decide)
    _ = W10 m ρ c (Proc.devRef .tc main_v3) := by stretch_keeps

theorem keep_v3_18_14 : W18 m ρ c (Proc.devRef .tc main_v3) = W14 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := by stretch_keeps
    _ = W15 m ρ c (Proc.devRef .tc main_v3) := W16_of_ne m ρ c main_v3 (by decide)
    _ = W14 m ρ c (Proc.devRef .tc main_v3) := by stretch_keeps

theorem keep_v6_6_3 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by stretch_keeps
    _ = W3 m ρ c (Proc.devRef .tc main_v6) := W4_of_ne m ρ c main_v6 (by decide)

theorem keep_v6_10_6 : W10 m ρ c (Proc.devRef .tc main_v6) = W6 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by stretch_keeps
    _ = W7 m ρ c (Proc.devRef .tc main_v6) := W8_of_ne m ρ c main_v6 (by decide)
    _ = W6 m ρ c (Proc.devRef .tc main_v6) := by stretch_keeps

theorem keep_v6_14_10 : W14 m ρ c (Proc.devRef .tc main_v6) = W10 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by stretch_keeps
    _ = W11 m ρ c (Proc.devRef .tc main_v6) := W12_of_ne m ρ c main_v6 (by decide)
    _ = W10 m ρ c (Proc.devRef .tc main_v6) := by stretch_keeps

theorem keep_v6_18_14 : W18 m ρ c (Proc.devRef .tc main_v6) = W14 m ρ c (Proc.devRef .tc main_v6) :=
  calc W18 m ρ c (Proc.devRef .tc main_v6)
    _ = W17 m ρ c (Proc.devRef .tc main_v6) := W18_of_ne m ρ c main_v6 (by decide)
    _ = W16 m ρ c (Proc.devRef .tc main_v6) := by stretch_keeps
    _ = W15 m ρ c (Proc.devRef .tc main_v6) := W16_of_ne m ρ c main_v6 (by decide)
    _ = W14 m ρ c (Proc.devRef .tc main_v6) := by stretch_keeps

theorem keep_v31_6_3 : W6 m ρ c (Proc.devRef .tc main_v31) = W3 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := by stretch_keeps
    _ = W3 m ρ c (Proc.devRef .tc main_v31) := W4_of_ne m ρ c main_v31 (by decide)

theorem keep_v31_10_6 : W10 m ρ c (Proc.devRef .tc main_v31) = W6 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := by stretch_keeps
    _ = W7 m ρ c (Proc.devRef .tc main_v31) := W8_of_ne m ρ c main_v31 (by decide)
    _ = W6 m ρ c (Proc.devRef .tc main_v31) := by stretch_keeps

theorem keep_v31_14_10 : W14 m ρ c (Proc.devRef .tc main_v31) = W10 m ρ c (Proc.devRef .tc main_v31) :=
  calc W14 m ρ c (Proc.devRef .tc main_v31)
    _ = W13 m ρ c (Proc.devRef .tc main_v31) := W14_of_ne m ρ c main_v31 (by decide)
    _ = W12 m ρ c (Proc.devRef .tc main_v31) := by stretch_keeps
    _ = W11 m ρ c (Proc.devRef .tc main_v31) := W12_of_ne m ρ c main_v31 (by decide)
    _ = W10 m ρ c (Proc.devRef .tc main_v31) := by stretch_keeps

theorem keep_v31_18_14 : W18 m ρ c (Proc.devRef .tc main_v31) = W14 m ρ c (Proc.devRef .tc main_v31) :=
  calc W18 m ρ c (Proc.devRef .tc main_v31)
    _ = W17 m ρ c (Proc.devRef .tc main_v31) := W18_of_ne m ρ c main_v31 (by decide)
    _ = W16 m ρ c (Proc.devRef .tc main_v31) := by stretch_keeps
    _ = W15 m ρ c (Proc.devRef .tc main_v31) := W16_of_ne m ρ c main_v31 (by decide)
    _ = W14 m ρ c (Proc.devRef .tc main_v31) := by stretch_keeps

theorem keep_arg4_4_0 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps
    _ = W1 m ρ c (Proc.devRef .tc main_arg4) := by stretch_keeps
    _ = W0 m ρ c (Proc.devRef .tc main_arg4) := by stretch_keeps

theorem keep_arg4_8_4 : W8 m ρ c (Proc.devRef .tc main_arg4) = W4 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by stretch_keeps
    _ = W5 m ρ c (Proc.devRef .tc main_arg4) := W6_of_ne m ρ c main_arg4 (by decide)
    _ = W4 m ρ c (Proc.devRef .tc main_arg4) := by stretch_keeps

theorem keep_arg4_12_8 : W12 m ρ c (Proc.devRef .tc main_arg4) = W8 m ρ c (Proc.devRef .tc main_arg4) :=
  calc W12 m ρ c (Proc.devRef .tc main_arg4)
    _ = W11 m ρ c (Proc.devRef .tc main_arg4) := W12_of_ne m ρ c main_arg4 (by decide)
    _ = W10 m ρ c (Proc.devRef .tc main_arg4) := by stretch_keeps
    _ = W9 m ρ c (Proc.devRef .tc main_arg4) := W10_of_ne m ρ c main_arg4 (by decide)
    _ = W8 m ρ c (Proc.devRef .tc main_arg4) := by stretch_keeps

theorem keep_arg4_16_12 : W16 m ρ c (Proc.devRef .tc main_arg4) = W12 m ρ c (Proc.devRef .tc main_arg4) :=
  calc W16 m ρ c (Proc.devRef .tc main_arg4)
    _ = W15 m ρ c (Proc.devRef .tc main_arg4) := W16_of_ne m ρ c main_arg4 (by decide)
    _ = W14 m ρ c (Proc.devRef .tc main_arg4) := by stretch_keeps
    _ = W13 m ρ c (Proc.devRef .tc main_arg4) := W14_of_ne m ρ c main_arg4 (by decide)
    _ = W12 m ρ c (Proc.devRef .tc main_arg4) := by stretch_keeps

theorem keep_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by stretch_keeps
    _ = W3 m ρ c (Proc.devRef .tc main_arg5) := W4_of_ne m ρ c main_arg5 (by decide)
    _ = W2 m ρ c (Proc.devRef .tc main_arg5) := by stretch_keeps
    _ = W1 m ρ c (Proc.devRef .tc main_arg5) := by stretch_keeps
    _ = W0 m ρ c (Proc.devRef .tc main_arg5) := by stretch_keeps

theorem keep_arg5_10_6 : W10 m ρ c (Proc.devRef .tc main_arg5) = W6 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := by stretch_keeps
    _ = W7 m ρ c (Proc.devRef .tc main_arg5) := W8_of_ne m ρ c main_arg5 (by decide)
    _ = W6 m ρ c (Proc.devRef .tc main_arg5) := by stretch_keeps

theorem keep_arg5_14_10 : W14 m ρ c (Proc.devRef .tc main_arg5) = W10 m ρ c (Proc.devRef .tc main_arg5) :=
  calc W14 m ρ c (Proc.devRef .tc main_arg5)
    _ = W13 m ρ c (Proc.devRef .tc main_arg5) := W14_of_ne m ρ c main_arg5 (by decide)
    _ = W12 m ρ c (Proc.devRef .tc main_arg5) := by stretch_keeps
    _ = W11 m ρ c (Proc.devRef .tc main_arg5) := W12_of_ne m ρ c main_arg5 (by decide)
    _ = W10 m ρ c (Proc.devRef .tc main_arg5) := by stretch_keeps

theorem keep_arg5_18_14 : W18 m ρ c (Proc.devRef .tc main_arg5) = W14 m ρ c (Proc.devRef .tc main_arg5) :=
  calc W18 m ρ c (Proc.devRef .tc main_arg5)
    _ = W17 m ρ c (Proc.devRef .tc main_arg5) := W18_of_ne m ρ c main_arg5 (by decide)
    _ = W16 m ρ c (Proc.devRef .tc main_arg5) := by stretch_keeps
    _ = W15 m ρ c (Proc.devRef .tc main_arg5) := W16_of_ne m ρ c main_arg5 (by decide)
    _ = W14 m ρ c (Proc.devRef .tc main_arg5) := by stretch_keeps

theorem keep_v33_5_4 : W5 m ρ c (Proc.devRef .tc main_v33) = W4 m ρ c (Proc.devRef .tc main_v33) :=
  calc W5 m ρ c (Proc.devRef .tc main_v33)
    _ = W4 m ρ c (Proc.devRef .tc main_v33) := by stretch_keeps

theorem keep_v33_7_4 : W7 m ρ c (Proc.devRef .tc main_v33) = W4 m ρ c (Proc.devRef .tc main_v33) :=
  calc W7 m ρ c (Proc.devRef .tc main_v33)
    _ = W6 m ρ c (Proc.devRef .tc main_v33) := by stretch_keeps
    _ = W5 m ρ c (Proc.devRef .tc main_v33) := (W6_arr m ρ c 0).trans (((dat1 (V5 m ρ) c).arrAt_in 0 rfl _).trans (A_eq1 (V5 m ρ) c 0))
    _ = W4 m ρ c (Proc.devRef .tc main_v33) := by stretch_keeps

theorem keep_v53_9_8 : W9 m ρ c (Proc.devRef .tc main_v53) = W8 m ρ c (Proc.devRef .tc main_v53) :=
  calc W9 m ρ c (Proc.devRef .tc main_v53)
    _ = W8 m ρ c (Proc.devRef .tc main_v53) := by stretch_keeps

theorem keep_v53_11_8 : W11 m ρ c (Proc.devRef .tc main_v53) = W8 m ρ c (Proc.devRef .tc main_v53) :=
  calc W11 m ρ c (Proc.devRef .tc main_v53)
    _ = W10 m ρ c (Proc.devRef .tc main_v53) := by stretch_keeps
    _ = W9 m ρ c (Proc.devRef .tc main_v53) := (W10_arr m ρ c 0).trans (((dat3 (V9 m ρ) c).arrAt_in 0 rfl _).trans (A_eq3 (V9 m ρ) c 0))
    _ = W8 m ρ c (Proc.devRef .tc main_v53) := by stretch_keeps

theorem keep_v73_13_12 : W13 m ρ c (Proc.devRef .tc main_v73) = W12 m ρ c (Proc.devRef .tc main_v73) :=
  calc W13 m ρ c (Proc.devRef .tc main_v73)
    _ = W12 m ρ c (Proc.devRef .tc main_v73) := by stretch_keeps

theorem keep_v73_15_12 : W15 m ρ c (Proc.devRef .tc main_v73) = W12 m ρ c (Proc.devRef .tc main_v73) :=
  calc W15 m ρ c (Proc.devRef .tc main_v73)
    _ = W14 m ρ c (Proc.devRef .tc main_v73) := by stretch_keeps
    _ = W13 m ρ c (Proc.devRef .tc main_v73) := (W14_arr m ρ c 0).trans (((dat5 (V13 m ρ) c).arrAt_in 0 rfl _).trans (A_eq5 (V13 m ρ) c 0))
    _ = W12 m ρ c (Proc.devRef .tc main_v73) := by stretch_keeps

theorem keep_v93_17_16 : W17 m ρ c (Proc.devRef .tc main_v93) = W16 m ρ c (Proc.devRef .tc main_v93) :=
  calc W17 m ρ c (Proc.devRef .tc main_v93)
    _ = W16 m ρ c (Proc.devRef .tc main_v93) := by stretch_keeps

theorem keep_v93_19_16 : W19 m ρ c (Proc.devRef .tc main_v93) = W16 m ρ c (Proc.devRef .tc main_v93) :=
  calc W19 m ρ c (Proc.devRef .tc main_v93)
    _ = W18 m ρ c (Proc.devRef .tc main_v93) := by stretch_keeps
    _ = W17 m ρ c (Proc.devRef .tc main_v93) := (W18_arr m ρ c 0).trans (((dat7 (V17 m ρ) c).arrAt_in 0 rfl _).trans (A_eq7 (V17 m ρ) c 0))
    _ = W16 m ρ c (Proc.devRef .tc main_v93) := by stretch_keeps

theorem keep_v113_21_20 : W21 m ρ c (Proc.devRef .tc main_v113) = W20 m ρ c (Proc.devRef .tc main_v113) :=
  calc W21 m ρ c (Proc.devRef .tc main_v113)
    _ = W20 m ρ c (Proc.devRef .tc main_v113) := by stretch_keeps

theorem keep_arg6_22_21 : W22 m ρ c (Proc.devRef .tc main_arg6) = W21 m ρ c (Proc.devRef .tc main_arg6) :=
  calc W22 m ρ c (Proc.devRef .tc main_arg6)
    _ = W21 m ρ c (Proc.devRef .tc main_arg6) := (W22_arr m ρ c 1).trans (((dat9 (V21 m ρ) c).arrAt_in 1 rfl _).trans (A_eq9 (V21 m ρ) c 1))

theorem keep_arg8_22_21 : W22 m ρ c (Proc.devRef .tc main_arg8) = W21 m ρ c (Proc.devRef .tc main_arg8) :=
  calc W22 m ρ c (Proc.devRef .tc main_arg8)
    _ = W21 m ρ c (Proc.devRef .tc main_arg8) := (W22_arr m ρ c 3).trans (((dat9 (V21 m ρ) c).arrAt_in 3 rfl _).trans (A_eq9 (V21 m ρ) c 3))

theorem keep_arg10_22_21 : W22 m ρ c (Proc.devRef .tc main_arg10) = W21 m ρ c (Proc.devRef .tc main_arg10) :=
  calc W22 m ρ c (Proc.devRef .tc main_arg10)
    _ = W21 m ρ c (Proc.devRef .tc main_arg10) := (W22_arr m ρ c 5).trans (((dat9 (V21 m ρ) c).arrAt_in 5 rfl _).trans (A_eq9 (V21 m ρ) c 5))

theorem keep_arg7_22_20 : W22 m ρ c (Proc.devRef .tc main_arg7) = W20 m ρ c (Proc.devRef .tc main_arg7) :=
  calc W22 m ρ c (Proc.devRef .tc main_arg7)
    _ = W21 m ρ c (Proc.devRef .tc main_arg7) := W22_of_ne m ρ c main_arg7 (by decide)
    _ = W20 m ρ c (Proc.devRef .tc main_arg7) := by stretch_keeps

theorem keep_arg9_22_20 : W22 m ρ c (Proc.devRef .tc main_arg9) = W20 m ρ c (Proc.devRef .tc main_arg9) :=
  calc W22 m ρ c (Proc.devRef .tc main_arg9)
    _ = W21 m ρ c (Proc.devRef .tc main_arg9) := W22_of_ne m ρ c main_arg9 (by decide)
    _ = W20 m ρ c (Proc.devRef .tc main_arg9) := by stretch_keeps

theorem keep_arg11_22_20 : W22 m ρ c (Proc.devRef .tc main_arg11) = W20 m ρ c (Proc.devRef .tc main_arg11) :=
  calc W22 m ρ c (Proc.devRef .tc main_arg11)
    _ = W21 m ρ c (Proc.devRef .tc main_arg11) := W22_of_ne m ρ c main_arg11 (by decide)
    _ = W20 m ρ c (Proc.devRef .tc main_arg11) := by stretch_keeps

end Cert.KernelIdeal.Keeps

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«122742_j46179488367199_1_alg».proof.Proof.LibPlainContract
import proofs.«122742_j46179488367199_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.GcnSpec.lean ====
/-
  The stages of a residual graph-convolution network, as whole-array functions of extended reals.

  Beside the dense stages (matrix product, bias along every row, rectifier) a layer adds the aggregated
  messages, a one-row bias and the layer's input (the residual), and rectifies the sum in every layer but the last:

    resAct A b R   entry (p, k) = max((A[p, k] + b[0, k]) + R[p, k], 0)
    resAdd A b R   entry (p, k) =     (A[p, k] + b[0, k]) + R[p, k]

  and the readout is three dense layers, the first two rectified:

    readout H W0 b0 W1 b1 W2 b2 = ((max(max(H·W0 + b0, 0)·W1 + b1, 0))·W2) + b2.

  Every entry of a result depends on one row of the row-indexed operands only, which is why a block of rows of the
  result is the same function of the corresponding block of rows.
-/
import Idealize.ShloMosaic.PureOps.Ideal.Laws
import Idealize.ShloMosaic.Lib.ValueIdx
import proofs.«122742_j46179488367199_1_alg».proof.Proof.LibDenseRows

noncomputable section

namespace Cert.Gcn

open Idealize.ShloMosaic Idealize.ShloMosaic.ValueIdx Cert.Dense

variable {N K : Nat}

/-- Aggregated messages plus a one-row bias plus the residual, rectified. -/
def resAct (A : Mat N K) (b : Mat 1 K) (R : Mat N K) : Mat N K :=
  fun i => max (A i + b (ix2 (0 : Fin 1) (colOf i)) + R i) 0
/-- Aggregated messages plus a one-row bias plus the residual. -/
def resAdd (A : Mat N K) (b : Mat 1 K) (R : Mat N K) : Mat N K :=
  fun i => A i + b (ix2 (0 : Fin 1) (colOf i)) + R i

theorem resAct_apply (A : Mat N K) (b : Mat 1 K) (R : Mat N K) (p : Fin N) (k : Fin K) :
    resAct A b R (ix2 p k) = max (A (ix2 p k) + b (ix2 (0 : Fin 1) k) + R (ix2 p k)) 0 := rfl
theorem resAdd_apply (A : Mat N K) (b : Mat 1 K) (R : Mat N K) (p : Fin N) (k : Fin K) :
    resAdd A b R (ix2 p k) = A (ix2 p k) + b (ix2 (0 : Fin 1) k) + R (ix2 p k) := rfl

/-- The encoder: a dense layer with a one-row bias, not rectified. -/
def encode (X : Mat N K) {C : Nat} (W : Mat K C) (b : Mat 1 C) : Mat N C := addRowRow (mm X W) b

/-- The readout: three dense layers with one-row biases, the first two rectified. -/
def readout (H : Mat N 64) (W0 : Mat 64 32) (b0 : Mat 1 32) (W1 : Mat 32 16) (b1 : Mat 1 16) (W2 : Mat 16 1)
    (b2 : Mat 1 1) : Mat N 1 :=
  addRowRow (mm (actRow (mm (actRow (mm H W0) b0) W1) b1) W2) b2

end Cert.Gcn

end
-- ==== Proof.HostChains.lean ====
/-
  The host-side chains of a graph-convolution network, each named as one function of its operands.

  Both programs compute, on the host and by the same operations, the edge lists with self-loops appended
  (sources and destinations), the symmetric normalisation coefficient of every edge (the product of the inverse
  square roots of the in-degrees of its two ends, zero where a degree is zero), and in every layer the aggregation:
  gather the rows of the transformed features at the edges' sources, scale each by the edge's coefficient, and
  scatter-add them at the edges' destinations into zeros. Naming each chain once lets a proof about either program
  carry it unopened: equal operands give equal results.
-/
import proofs.«122742_j46179488367199_1_alg».proof.KernelIdeal
import proofs.«122742_j46179488367199_1_alg».proof.Proof.Gen.KernelIdeal

noncomputable section

namespace Cert.Gcn.Chains

open Cert.KernelIdeal Cert.KernelIdeal.Facts₀ Cert.KernelIdeal.Facts Idealize.ShloMosaic

variable {F : FTy → Type} [FloatOps F]

/-- Row r of the edge-index array followed by the self-loops 0 … n-1: the sources (row 0). -/
def srcOf (E : (⟨S2x1600000, .i32⟩ : BufTy).Contents (Elt F)) : (⟨S1700000, .i32⟩ : BufTy).Contents (Elt F) :=
  concatenate S1700000 0 [⟨S1600000, shapeCast _ (extractStridedSlice S1x1600000 ![0, 0] E slices_S2x1600000_S1x1600000_0_0) shapeCasts_S1x1600000_S1600000⟩, ⟨S100000, iotaInDim S100000 32 0⟩] concatenates_S1600000_S100000_S1700000_d0
/-- The destinations (row 1) followed by the self-loops. -/
def dstOf (E : (⟨S2x1600000, .i32⟩ : BufTy).Contents (Elt F)) : (⟨S1700000, .i32⟩ : BufTy).Contents (Elt F) :=
  concatenate S1700000 0 [⟨S1600000, shapeCast _ (extractStridedSlice S1x1600000 ![1, 0] E slices_S2x1600000_S1x1600000_1_0) shapeCasts_S1x1600000_S1600000⟩, ⟨S100000, iotaInDim S100000 32 0⟩] concatenates_S1600000_S100000_S1700000_d0

/-- A negative index counted from the end, as a column of start indices. -/
def startsOf (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node: ones scatter-added at the destinations into zeros. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of a degree where it is positive, zero elsewhere. -/
def dinvOf (g : (⟨S100000, .f32⟩ : BufTy).Contents (Elt F)) : (⟨S100000, .f32⟩ : BufTy).Contents (Elt F) :=
  select (cmpf .ogt g (broadcastInDim S100000 ![] bcast_S_S100000 (constant S_ .f32 0x00000000#32)))
    (Host.divf (broadcastInDim S100000 ![] bcast_S_S100000 (constant S_ .f32 0x3F800000#32)) (Host.sqrt g))
    (broadcastInDim S100000 ![] bcast_S_S100000 (id (constant S_ .f32 0x00000000#32)))

/-- Every edge's coefficient: the two ends' inverse square roots multiplied. -/
def coefOf (v : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 v (startsOf s))
    (Host.gather gather_S100000_S1700000x1_S1700000_n_0_n_n_0_1_1 v (startsOf d))

/-- The aggregation of one layer: rows gathered at the sources, scaled by the coefficients, scatter-added at the
    destinations into zeros. -/
def aggOf (hw : (⟨S100000x64, .f32⟩ : BufTy).Contents (Elt F)) (s d : (⟨S1700000, .i32⟩ : BufTy).Contents (Elt F))
    (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 hw (startsOf s))
      (broadcastInDim S1700000x64 ![0, 1] bcast_S1700000x1_S1700000x64_0_1
        (broadcastInDim S1700000x1 ![0] bcast_S1700000_S1700000x1_0 w)))

end Cert.Gcn.Chains

end
-- ==== Proof.Net.lean ====
/-
  The whole network as one function of its twelve arrays, at exact (extended real) values.

  features x, edge list E, encoder (Wenc, benc), four layers' weights Wg and biases bg, readout (W0, b0, W1, b1, W2, b2):

    h0      = x · Wenc + benc
    h(l+1)  = act_l( aggregate(h_l · Wg[l]) + bg[l] + h_l ),   act_l the rectifier for l < 3, nothing for l = 3
    y       = readout(h4)

  where aggregate gathers rows at the edges' sources, scales them by the edges' normalisation coefficients and
  scatter-adds them at the destinations (self-loops appended to the edge list). A bias vector enters every dense stage
  as a one-row matrix; here it is spelt as the vector shape-cast to one row.
-/
import proofs.«122742_j46179488367199_1_alg».proof.Proof.GcnSpec
import proofs.«122742_j46179488367199_1_alg».proof.Proof.HostChains

noncomputable section

namespace Cert.Gcn

open Cert.KernelIdeal Cert.KernelIdeal.Facts₀ Cert.KernelIdeal.Facts Idealize.ShloMosaic Cert.Dense Cert.Gcn.Chains

/-- Layer l's weight matrix: slice l of the stacked weights. -/
def wg0 (Wg : (⟨S4x64x64, .f32⟩ : BufTy).Contents (Elt Ideal)) : (⟨S64x64, .f32⟩ : BufTy).Contents (Elt Ideal) :=
  shapeCast _ (extractStridedSlice S1x64x64 ![0, 0, 0] Wg slices_S4x64x64_S1x64x64_0_0_0) shapeCasts_S1x64x64_S64x64
def wg1 (Wg : (⟨S4x64x64, .f32⟩ : BufTy).Contents (Elt Ideal)) : (⟨S64x64, .f32⟩ : BufTy).Contents (Elt Ideal) :=
  shapeCast _ (extractStridedSlice S1x64x64 ![1, 0, 0] Wg slices_S4x64x64_S1x64x64_1_0_0) shapeCasts_S1x64x64_S64x64
def wg2 (Wg : (⟨S4x64x64, .f32⟩ : BufTy).Contents (Elt Ideal)) : (⟨S64x64, .f32⟩ : BufTy).Contents (Elt Ideal) :=
  shapeCast _ (extractStridedSlice S1x64x64 ![2, 0, 0] Wg slices_S4x64x64_S1x64x64_2_0_0) shapeCasts_S1x64x64_S64x64
def wg3 (Wg : (⟨S4x64x64, .f32⟩ : BufTy).Contents (Elt Ideal)) : (⟨S64x64, .f32⟩ : BufTy).Contents (Elt Ideal) :=
  shapeCast _ (extractStridedSlice S1x64x64 ![3, 0, 0] Wg slices_S4x64x64_S1x64x64_3_0_0) shapeCasts_S1x64x64_S64x64

/-- Layer l's bias vector: row l of the stacked biases. -/
def bg0 (bg : (⟨S4x64, .f32⟩ : BufTy).Contents (Elt Ideal)) : (⟨S64, .f32⟩ : BufTy).Contents (Elt Ideal) :=
  shapeCast _ (extractStridedSlice S1x64 ![0, 0] bg slices_S4x64_S1x64_0_0) shapeCasts_S1x64_S64
def bg1 (bg : (⟨S4x64, .f32⟩ : BufTy).Contents (Elt Ideal)) : (⟨S64, .f32⟩ : BufTy).Contents (Elt Ideal) :=
  shapeCast _ (extractStridedSlice S1x64 ![1, 0] bg slices_S4x64_S1x64_1_0) shapeCasts_S1x64_S64
def bg2 (bg : (⟨S4x64, .f32⟩ : BufTy).Contents (Elt Ideal)) : (⟨S64, .f32⟩ : BufTy).Contents (Elt Ideal) :=
  shapeCast _ (extractStridedSlice S1x64 ![2, 0] bg slices_S4x64_S1x64_2_0) shapeCasts_S1x64_S64
def bg3 (bg : (⟨S4x64, .f32⟩ : BufTy).Contents (Elt Ideal)) : (⟨S64, .f32⟩ : BufTy).Contents (Elt Ideal) :=
  shapeCast _ (extractStridedSlice S1x64 ![3, 0] bg slices_S4x64_S1x64_3_0) shapeCasts_S1x64_S64

/-- A vector of 64 as a one-row matrix. -/
def row64 (v : (⟨S64, .f32⟩ : BufTy).Contents (Elt Ideal)) : (⟨S1x64, .f32⟩ : BufTy).Contents (Elt Ideal) :=
  shapeCast _ v shapeCasts_S64_S1x64

/-- The edges' normalisation coefficients. -/
def coef (E : (⟨S2x1600000, .i32⟩ : BufTy).Contents (Elt Ideal)) : (⟨S1700000, .f32⟩ : BufTy).Contents (Elt Ideal) :=
  coefOf (dinvOf (degOf (dstOf E))) (srcOf E) (dstOf E)

/-- The encoder's output. -/
def h0 (x : (⟨S100000x64, .f32⟩ : BufTy).Contents (Elt Ideal)) (Wenc : (⟨S64x64, .f32⟩ : BufTy).Contents (Elt Ideal))
    (benc : (⟨S64, .f32⟩ : BufTy).Contents (Elt Ideal)) : (⟨S100000x64, .f32⟩ : BufTy).Contents (Elt Ideal) :=
  encode x Wenc (row64 benc)

/-- One layer's aggregated messages from its input and its weight matrix. -/
def conv (E : (⟨S2x1600000, .i32⟩ : BufTy).Contents (Elt Ideal)) (h : (⟨S100000x64, .f32⟩ : BufTy).Contents (Elt Ideal))
    (W : (⟨S64x64, .f32⟩ : BufTy).Contents (Elt Ideal)) : (⟨S100000x64, .f32⟩ : BufTy).Contents (Elt Ideal) :=
  aggOf (mm h W) (srcOf E) (dstOf E) (coef E)

/-- A rectified layer. -/
def layer (E : (⟨S2x1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  resAct (conv E h W) (row64 b) h
/-- The last layer: not rectified. -/
def lastLayer (E : (⟨S2x1600000, .i32⟩ : BufTy).Contents (Elt Ideal)) (h : (⟨S100000x64, .f32⟩ : BufTy).Contents (Elt Ideal))
    (W : (⟨S64x64, .f32⟩ : BufTy).Contents (Elt Ideal)) (b : (⟨S64, .f32⟩ : BufTy).Contents (Elt Ideal)) :
    (⟨S100000x64, .f32⟩ : BufTy).Contents (Elt Ideal) :=
  resAdd (conv E h W) (row64 b) h

/-- The features after the four layers. -/
def h4 (x : (⟨S100000x64, .f32⟩ : BufTy).Contents (Elt Ideal)) (E : (⟨S2x1600000, .i32⟩ : BufTy).Contents (Elt Ideal))
    (Wenc : (⟨S64x64, .f32⟩ : BufTy).Contents (Elt Ideal)) (benc : (⟨S64, .f32⟩ : BufTy).Contents (Elt Ideal))
    (Wg : (⟨S4x64x64, .f32⟩ : BufTy).Contents (Elt Ideal)) (bg : (⟨S4x64, .f32⟩ : BufTy).Contents (Elt Ideal)) :
    (⟨S100000x64, .f32⟩ : BufTy).Contents (Elt Ideal) :=
  lastLayer E (layer E (layer E (layer E (h0 x Wenc benc) (wg0 Wg) (bg0 bg)) (wg1 Wg) (bg1 bg)) (wg2 Wg) (bg2 bg)) (wg3 Wg) (bg3 bg)

/-- The network's output. -/
def net (x : (⟨S100000x64, .f32⟩ : BufTy).Contents (Elt Ideal)) (E : (⟨S2x1600000, .i32⟩ : BufTy).Contents (Elt Ideal))
    (Wenc : (⟨S64x64, .f32⟩ : BufTy).Contents (Elt Ideal)) (benc : (⟨S64, .f32⟩ : BufTy).Contents (Elt Ideal))
    (Wg : (⟨S4x64x64, .f32⟩ : BufTy).Contents (Elt Ideal)) (bg : (⟨S4x64, .f32⟩ : BufTy).Contents (Elt Ideal))
    (W0 : (⟨S64x32, .f32⟩ : BufTy).Contents (Elt Ideal)) (b0 : (⟨S32, .f32⟩ : BufTy).Contents (Elt Ideal))
    (W1 : (⟨S32x16, .f32⟩ : BufTy).Contents (Elt Ideal)) (b1 : (⟨S16, .f32⟩ : BufTy).Contents (Elt Ideal))
    (W2 : (⟨S16x1, .f32⟩ : BufTy).Contents (Elt Ideal)) (b2 : (⟨S1, .f32⟩ : BufTy).Contents (Elt Ideal)) :
    (⟨S100000x1, .f32⟩ : BufTy).Contents (Elt Ideal) :=
  readout (h4 x E Wenc benc Wg bg) W0 (shapeCast _ b0 shapeCasts_S32_S1x32) W1 (shapeCast _ b1 shapeCasts_S16_S1x16)
    W2 (shapeCast _ b2 shapeCasts_S1_S1x1)

end Cert.Gcn

end
-- ==== Proof.Stretch.lean ====
/-
  What each stretch of host operations of the kernel program leaves in the buffers the next tiled region reads,
  as a function of what the stretch found — for ANY contents W of the buffers at the stretch's start.

  Before the first region: the edge lists with self-loops (sources, destinations), the edges' normalisation
  coefficients, and the encoder's bias as a one-row matrix. Before every layer's product: the layer's slice of the
  stacked weights. Between a layer's product and its residual stage: the aggregation of the product's rows along the
  edges, and the layer's bias as a one-row matrix. Before the readout: its three biases as one-row matrices.
-/
import proofs.«122742_j46179488367199_1_alg».proof.Proof.Gen.KernelIdeal.Launch
import proofs.«122742_j46179488367199_1_alg».proof.Proof.Net
import Idealize.ShloMosaic.Lib.StableHlo.Run

set_option maxRecDepth 16384

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.ShloMosaic.StableHlo Idealize.SL.Sem
open Cert.Gcn Cert.Gcn.Chains

variable (W : Valuation τ sig (Elt Ideal))

/-! ## Before the first region -/

/-- The sources: row 0 of the edge list, then the self-loops. -/
theorem pre_src : StableHlo.after hostOps0_2 (StableHlo.after hostOps0_1 (StableHlo.after hostOps0 W)) (Proc.devRef .tc main_v3)
    = srcOf (W (Proc.devRef .tc main_arg1)) := by
  dsimp only [hostOps0_2, hostOps0_1, hostOps0]; after_results_simp; rfl
/-- The destinations: row 1 of the edge list, then the self-loops. -/
theorem pre_dst : StableHlo.after hostOps0_2 (StableHlo.after hostOps0_1 (StableHlo.after hostOps0 W)) (Proc.devRef .tc main_v6)
    = dstOf (W (Proc.devRef .tc main_arg1)) := by
  dsimp only [hostOps0_2, hostOps0_1, hostOps0]; after_results_simp; rfl
/-! The coefficients take all three stretches: the degrees, their positivity test and inverse square roots in the
    first, the selection between the inverse square root and zero in the second (an outlined function's three
    operations), the two gathers at the edges' ends and their product in the third. Each stretch is read by itself. -/

/-- First stretch: is the degree positive. -/
theorem deg_pos : StableHlo.after hostOps0 W (Proc.devRef .tc main_v12)
    = cmpf .ogt (degOf (dstOf (W (Proc.devRef .tc main_arg1))))
        (broadcastInDim S100000 ![] Facts₀.bcast_S_S100000 (constant (F := Ideal) S_ .f32 0x00000000#32)) := by
  dsimp only [hostOps0]; after_results_simp; rfl
/-- First stretch: one over the degree's square root. -/
theorem deg_rsqrt : StableHlo.after hostOps0 W (Proc.devRef .tc main_v15)
    = Host.divf (broadcastInDim S100000 ![] Facts₀.bcast_S_S100000 (constant (F := Ideal) S_ .f32 0x3F800000#32))
        (Host.sqrt (degOf (dstOf (W (Proc.devRef .tc main_arg1))))) := by
  dsimp only [hostOps0]; after_results_simp; rfl
/-- First stretch: the zero the selection falls back to. -/
theorem deg_zero : StableHlo.after hostOps0 W (Proc.devRef .tc main_cst_3) = constant (F := Ideal) S_ .f32 0x00000000#32 := by
  dsimp only [hostOps0]; after_results_simp
theorem first_src : StableHlo.after hostOps0 W (Proc.devRef .tc main_v3) = srcOf (W (Proc.devRef .tc main_arg1)) := by
  dsimp only [hostOps0]; after_results_simp; rfl
theorem first_dst : StableHlo.after hostOps0 W (Proc.devRef .tc main_v6) = dstOf (W (Proc.devRef .tc main_arg1)) := by
  dsimp only [hostOps0]; after_results_simp; rfl
/-- Second stretch: the selection, and the edge lists untouched. -/
theorem sel_dinv : StableHlo.after hostOps0_1 W (Proc.devRef .tc main_v16)
    = select (W (Proc.devRef .tc main_v12)) (W (Proc.devRef .tc main_v15))
        (broadcastInDim S100000 ![] Facts₀.bcast_S_S100000 (id (W (Proc.devRef .tc main_cst_3)))) := by
  dsimp only [hostOps0_1]; after_results_simp; rfl
theorem sel_src : StableHlo.after hostOps0_1 W (Proc.devRef .tc main_v3) = W (Proc.devRef .tc main_v3) := by
  dsimp only [hostOps0_1]; after_results_simp
theorem sel_dst : StableHlo.after hostOps0_1 W (Proc.devRef .tc main_v6) = W (Proc.devRef .tc main_v6) := by
  dsimp only [hostOps0_1]; after_results_simp
/-- Third stretch: the product of the two ends' values. -/
theorem ends_coef : StableHlo.after hostOps0_2 W (Proc.devRef .tc main_v31)
    = coefOf (W (Proc.devRef .tc main_v16)) (W (Proc.devRef .tc main_v3)) (W (Proc.devRef .tc main_v6)) := by
  dsimp only [hostOps0_2]; after_results_simp; rfl

/-- The edges' coefficients. -/
theorem pre_coef : StableHlo.after hostOps0_2 (StableHlo.after hostOps0_1 (StableHlo.after hostOps0 W)) (Proc.devRef .tc main_v31)
    = coef (W (Proc.devRef .tc main_arg1)) := by
  refine (ends_coef _).trans ?_
  rw [sel_dinv, sel_src, sel_dst, deg_pos, deg_rsqrt, deg_zero, first_src, first_dst]
  rfl
/-- The encoder's bias as one row. -/
theorem pre_bias : StableHlo.after hostOps0_2 (StableHlo.after hostOps0_1 (StableHlo.after hostOps0 W)) (Proc.devRef .tc main_v32)
    = row64 (W (Proc.devRef .tc main_arg3)) := by
  dsimp only [hostOps0_2, hostOps0_1, hostOps0]; after_results_simp; rfl
/-- The features and the encoder's weights are not written. -/
theorem pre_x : StableHlo.after hostOps0_2 (StableHlo.after hostOps0_1 (StableHlo.after hostOps0 W)) (Proc.devRef .tc main_arg0)
    = W (Proc.devRef .tc main_arg0) := by
  dsimp only [hostOps0_2, hostOps0_1, hostOps0]; after_results_simp
theorem pre_wenc : StableHlo.after hostOps0_2 (StableHlo.after hostOps0_1 (StableHlo.after hostOps0 W)) (Proc.devRef .tc main_arg2)
    = W (Proc.devRef .tc main_arg2) := by
  dsimp only [hostOps0_2, hostOps0_1, hostOps0]; after_results_simp

/-! ## Layer 0 -/

/-- The layer's weight matrix: slice 0 of the stacked weights. -/
theorem weights0 : StableHlo.after hostOps1 W (Proc.devRef .tc main_v35) = wg0 (W (Proc.devRef .tc main_arg4)) := by
  dsimp only [hostOps1]; after_results; rfl
/-- The aggregation of the layer's transformed features along the edges. -/
theorem agg0 : StableHlo.after hostOps2 W (Proc.devRef .tc main_v49)
    = aggOf (W (Proc.devRef .tc main_v36)) (W (Proc.devRef .tc main_v3)) (W (Proc.devRef .tc main_v6)) (W (Proc.devRef .tc main_v31)) := by
  dsimp only [hostOps2]; after_results_simp; rfl
/-- The layer's bias as one row. -/
theorem bias0 : StableHlo.after hostOps2 W (Proc.devRef .tc main_v52) = row64 (bg0 (W (Proc.devRef .tc main_arg5))) := by
  dsimp only [hostOps2]; after_results_simp; rfl

/-! ## Layer 1 -/

/-- The layer's weight matrix: slice 1 of the stacked weights. -/
theorem weights1 : StableHlo.after hostOps3 W (Proc.devRef .tc main_v55) = wg1 (W (Proc.devRef .tc main_arg4)) := by
  dsimp only [hostOps3]; after_results; rfl
/-- The aggregation of the layer's transformed features along the edges. -/
theorem agg1 : StableHlo.after hostOps4 W (Proc.devRef .tc main_v69)
    = aggOf (W (Proc.devRef .tc main_v56)) (W (Proc.devRef .tc main_v3)) (W (Proc.devRef .tc main_v6)) (W (Proc.devRef .tc main_v31)) := by
  dsimp only [hostOps4]; after_results_simp; rfl
/-- The layer's bias as one row. -/
theorem bias1 : StableHlo.after hostOps4 W (Proc.devRef .tc main_v72) = row64 (bg1 (W (Proc.devRef .tc main_arg5))) := by
  dsimp only [hostOps4]; after_results_simp; rfl

/-! ## Layer 2 -/

/-- The layer's weight matrix: slice 2 of the stacked weights. -/
theorem weights2 : StableHlo.after hostOps5 W (Proc.devRef .tc main_v75) = wg2 (W (Proc.devRef .tc main_arg4)) := by
  dsimp only [hostOps5]; after_results; rfl
/-- The aggregation of the layer's transformed features along the edges. -/
theorem agg2 : StableHlo.after hostOps6 W (Proc.devRef .tc main_v89)
    = aggOf (W (Proc.devRef .tc main_v76)) (W (Proc.devRef .tc main_v3)) (W (Proc.devRef .tc main_v6)) (W (Proc.devRef .tc main_v31)) := by
  dsimp only [hostOps6]; after_results_simp; rfl
/-- The layer's bias as one row. -/
theorem bias2 : StableHlo.after hostOps6 W (Proc.devRef .tc main_v92) = row64 (bg2 (W (Proc.devRef .tc main_arg5))) := by
  dsimp only [hostOps6]; after_results_simp; rfl

/-! ## Layer 3 -/

/-- The layer's weight matrix: slice 3 of the stacked weights. -/
theorem weights3 : StableHlo.after hostOps7 W (Proc.devRef .tc main_v95) = wg3 (W (Proc.devRef .tc main_arg4)) := by
  dsimp only [hostOps7]; after_results; rfl
/-- The aggregation of the layer's transformed features along the edges. -/
theorem agg3 : StableHlo.after hostOps8 W (Proc.devRef .tc main_v109)
    = aggOf (W (Proc.devRef .tc main_v96)) (W (Proc.devRef .tc main_v3)) (W (Proc.devRef .tc main_v6)) (W (Proc.devRef .tc main_v31)) := by
  dsimp only [hostOps8]; after_results_simp; rfl
/-- The layer's bias as one row. -/
theorem bias3 : StableHlo.after hostOps8 W (Proc.devRef .tc main_v112) = row64 (bg3 (W (Proc.devRef .tc main_arg5))) := by
  dsimp only [hostOps8]; after_results_simp; rfl

/-! ## Before the readout -/

theorem readoutBias0 : StableHlo.after hostOps9 W (Proc.devRef .tc main_v114) = shapeCast _ (W (Proc.devRef .tc main_arg7)) Facts₀.shapeCasts_S32_S1x32 := by
  dsimp only [hostOps9]; after_results; rfl
theorem readoutBias1 : StableHlo.after hostOps9 W (Proc.devRef .tc main_v115) = shapeCast _ (W (Proc.devRef .tc main_arg9)) Facts₀.shapeCasts_S16_S1x16 := by
  dsimp only [hostOps9]; after_results; rfl
theorem readoutBias2 : StableHlo.after hostOps9 W (Proc.devRef .tc main_v116) = shapeCast _ (W (Proc.devRef .tc main_arg11)) Facts₀.shapeCasts_S1_S1x1 := by
  dsimp only [hostOps9]; after_results; rfl

end Cert.KernelIdeal.Stretch

end
-- ==== Proof.Region0.lean ====
/-
  Region 0: ten blocks of 10000 rows, each multiplied by one whole 64-by-64 weight matrix and shifted by a one-row
  bias laid along every row, fill an array of 100000 rows. Read entry by entry, a block's result is the plain sum over
  the contracted index of the block's row against the weight's column, plus the bias entry of that column; the block
  at grid point t holds rows 10000·t … 10000·t + 9999 of the row-indexed operand, the weight and bias windows hold
  their whole arrays at every point, and the ten output blocks tile the array. So the array ends holding the dense
  layer (product plus bias, no rectifier) of the three arrays the region found.
-/
import proofs.«122742_j46179488367199_1_alg».proof.Proof.Gen.KernelIdeal.Frame
import proofs.«122742_j46179488367199_1_alg».proof.Proof.GcnSpec
import proofs.«122742_j46179488367199_1_alg».proof.Proof.LibDenseRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem origin0 : (![0, 0] : Fin 2 → Nat) = fun _ => 0 := funext fun a => by fin_cases a <;> rfl

/-- Two functions on a block of 10000 rows and 64 columns agree when they agree at every (row, column). -/
theorem blockExt0 {α : Type} (f g : S10000x64.Idx → α)
    (h : ∀ (p : Fin 10000) (q : Fin 64), f (ix2 p q) = g (ix2 p q)) : f = g :=
  funext fun j => by rw [eq_ix2 j]; exact h _ _

/-- The body's result at entry (p, q): the sum over k of the block's (p, k) times the weight's (k, q), plus the
    bias's (0, q). The narrowing changes nothing at exact values. -/
theorem dense0_apply (x0 : Vec Ideal S10000x64 .f32) (x1 : Vec Ideal S64x64 .f32) (x2 : Vec Ideal S1x64 .f32)
    (p : Fin 10000) (q : Fin 64) :
    k0_pay1 x0 x1 x2 (ix2 p q) = (∑ k : Fin 64, x0 (ix2 p k) * x1 (ix2 k q)) + x2 (ix2 (0 : Fin 1) q) := by
  unfold k0_pay1
  refine (Cert.Dense.tileAddRow_apply 10000 64 shapeCasts_S1x64_S1x64 broadcasts_S1x64_S10000x64 _ x2 p q).trans ?_
  exact congrArg (fun z => z + x2 (ix2 (0 : Fin 1) q))
    (Cert.Dense.tileProduct_apply 10000 64 64 none bitsLt_bf16_f32 bitsLt_bf16_f32 x0 x1 p q)

/-- The body's result at entry (p, q), when row p of the block is row r of a matrix A0, column q of the weight
    block is column q of a matrix A1 and the bias block's entry (0, q) is that of a one-row matrix A2, is the (r, q)
    entry of the dense layer of A0, A1, A2. -/
theorem dense0_entry (x0 : Vec Ideal S10000x64 .f32) (x1 : Vec Ideal S64x64 .f32) (x2 : Vec Ideal S1x64 .f32)
    (A0 : Cert.Dense.Mat 100000 64) (A1 : Cert.Dense.Mat 64 64) (A2 : Cert.Dense.Mat 1 64)
    (p : Fin 10000) (q : Fin 64) (r : Fin 100000)
    (h0 : ∀ k : Fin 64, x0 (ix2 p k) = A0 (ix2 r k)) (h1 : ∀ k : Fin 64, x1 (ix2 k q) = A1 (ix2 k q))
    (h2 : x2 (ix2 (0 : Fin 1) q) = A2 (ix2 (0 : Fin 1) q)) :
    k0_pay1 x0 x1 x2 (ix2 p q) = Cert.Gcn.encode A0 A1 A2 (ix2 r q) := by
  show _ = Cert.Dense.addRowRow (Cert.Dense.mm A0 A1) A2 (ix2 r q)
  rw [Cert.Dense.addRowRow_apply, Cert.Dense.mm_apply]
  refine (dense0_apply x0 x1 x2 p q).trans ?_
  rw [h2]
  exact congrArg (fun z => z + A2 (ix2 (0 : Fin 1) q)) (Finset.sum_congr rfl fun k _ => by rw [h0 k, h1 k])

/-- The index maps over the ten grid points: the row-blocked windows sit at block (t, 0), the weight and bias
    windows at block (0, 0). -/
theorem indexMaps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row-indexed operand's block at point t: its row p is row 10000·t + p of the array. -/
theorem rows0_read (c : Dev nD) (t : Fin cfg0.N) (p : Fin 10000) (k : Fin 64) (r : Fin 100000)
    (hr : r.val = t.val * 10000 + p.val) :
    (Gen.iblk0 (F := Ideal) V c 0 t : S10000x64.Idx → EReal) (ix2 p k)
      = (V c (Pipeline.arrRef spec0 0) : S100000x64.Idx → EReal) (ix2 r k) := by
  obtain ⟨e0, e1, -⟩ := indexMaps0 t
  unfold Gen.iblk0
  show (V c (Pipeline.arrRef spec0 0) : S100000x64.Idx → EReal) (((cfg0.win 0).blk t).view.emb (ix2 p k)) = _
  refine congrArg _ ?_
  funext a; apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight's block at every point is the whole weight matrix. -/
theorem weights0_read (c : Dev nD) (t : Fin cfg0.N) (k : Fin 64) (q : Fin 64) :
    (Gen.iblk0 (F := Ideal) V c 1 t : S64x64.Idx → EReal) (ix2 k q)
      = (V c (Pipeline.arrRef spec0 1) : S64x64.Idx → EReal) (ix2 k q) := by
  obtain ⟨-, -, e2, e3, -⟩ := indexMaps0 t
  unfold Gen.iblk0
  show (V c (Pipeline.arrRef spec0 1) : S64x64.Idx → EReal) (((cfg0.win 1).blk t).view.emb (ix2 k q)) = _
  refine congrArg _ ?_
  funext a; apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- The bias's block at every point is the whole one-row bias. -/
theorem bias0_read (c : Dev nD) (t : Fin cfg0.N) (z : Fin 1) (q : Fin 64) :
    (Gen.iblk0 (F := Ideal) V c 2 t : S1x64.Idx → EReal) (ix2 z q)
      = (V c (Pipeline.arrRef spec0 2) : S1x64.Idx → EReal) (ix2 z q) := by
  obtain ⟨-, -, -, -, e4, e5, -⟩ := indexMaps0 t
  unfold Gen.iblk0
  show (V c (Pipeline.arrRef spec0 2) : S1x64.Idx → EReal) (((cfg0.win 2).blk t).view.emb (ix2 z q)) = _
  refine congrArg _ ?_
  funext a; apply Fin.ext
  match a with
  | ⟨0, _⟩ => show win0_2.index t (0 : Fin 2) * 1 + 1 * z.val = z.val; rw [e4]; omega
  | ⟨1, _⟩ => show win0_2.index t (1 : Fin 2) * 64 + 1 * q.val = q.val; rw [e5]; omega

/-- What point t writes back is block t of the dense layer of the three arrays. -/
theorem flushed0_eq (c : Dev nD) (t : Fin cfg0.N) :
    (Gen.dat0 (F := Ideal) V c).flushed 3 t
      = ((cfg0.win 3).blk t).view.read (Elt Ideal)
          (Cert.Gcn.encode (V c (Pipeline.arrRef spec0 0) : S100000x64.Idx → EReal)
            (V c (Pipeline.arrRef spec0 1) : S64x64.Idx → EReal)
            (V c (Pipeline.arrRef spec0 2) : S1x64.Idx → EReal)) := by
  show (cfg0.win 3).cut (grid0.coords t) ((Gen.dat0 V c).after 3 t) = _
  rw [Gen.after0_3]
  unfold Gen.out0_3
  rw [View.canon_unit_zero origin0]
  simp only [View.ld_unit_zero (S := S10000x64) origin0, View.ld_unit_zero (S := S64x64) origin0,
    View.ld_unit_zero (S := S1x64) origin0]
  obtain ⟨-, -, -, -, -, -, e6, e7⟩ := indexMaps0 t
  have hN : grid0.N = 10 := Gen.N_0
  have ht : t.val < 10 := hN ▸ t.isLt
  refine blockExt0 _ _ fun p q => ?_
  have hp : p.val < 10000 := p.isLt
  show k0_pay1 (Gen.iblk0 V c 0 t) (Gen.iblk0 V c 1 t) (Gen.iblk0 V c 2 t) (ix2 p q)
    = Cert.Gcn.encode (V c (Pipeline.arrRef spec0 0) : S100000x64.Idx → EReal)
        (V c (Pipeline.arrRef spec0 1) : S64x64.Idx → EReal)
        (V c (Pipeline.arrRef spec0 2) : S1x64.Idx → EReal) (((cfg0.win 3).blk t).view.emb (ix2 p q))
  have hi : ((cfg0.win 3).blk t).view.emb (ix2 p q)
      = (ix2 (⟨t.val * 10000 + p.val, by omega⟩ : Fin 100000) q : S100000x64.Idx) := by
    funext a; apply Fin.ext
    match a with
    | ⟨0, _⟩ => show win0_3.index t (0 : Fin 2) * 10000 + 1 * p.val = t.val * 10000 + p.val; rw [e6]; omega
    | ⟨1, _⟩ => show win0_3.index t (1 : Fin 2) * 64 + 1 * q.val = q.val; rw [e7]; omega
  refine Eq.trans ?_ (congrArg _ hi).symm
  exact dense0_entry _ _ _ _ _ _ p q _ (fun k => rows0_read V c t p k _ rfl) (fun k => weights0_read V c t k q)
    (bias0_read V c t 0 q)

/-- An index of the array is in point t's output block iff each coordinate is in the block's range on its axis. -/
theorem mem_rows0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v33).slice (win0_3.rect t)).set ↔ _
  rw [View.set_slice_whole, Rect.mem_set_unit]
  exact Iff.rfl

/-- Row r of the array is in the output block of point r / 10000, and every point writes its block back. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := Gen.N_0
  have hlt : (i 0).val / 10000 < grid0.N := by rw [hN]; omega
  obtain ⟨-, -, -, -, -, -, e6, e7⟩ := indexMaps0 ⟨(i 0).val / 10000, hlt⟩
  refine ⟨⟨(i 0).val / 10000, hlt⟩, Gen.flush0_3 _, ?_⟩
  rw [mem_rows0]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    rw [e7]; omega

/-- The region's output array after all its write-backs: the dense layer of the three arrays it found. -/
theorem arr0 (V : (c : Dev nD) → (b : Ref sig .tc) → Buf (Elt Ideal) ((c : Thread nD τ).loc b)) (c : Dev nD) :
    (Gen.dat0 (F := Ideal) V c).arrAt 3 cfg0.N
      = Cert.Gcn.encode (V c (Pipeline.arrRef spec0 0) : S100000x64.Idx → EReal)
          (V c (Pipeline.arrRef spec0 1) : S64x64.Idx → EReal)
          (V c (Pipeline.arrRef spec0 2) : S1x64.Idx → EReal) :=
  (Gen.dat0 (F := Ideal) V c).arrAt_eq_of_cover 3 _ (fun t _ => flushed0_eq V c t) cover0

end Cert.KernelIdeal.RegionValue

end
-- ==== Proof.Region1.lean ====
/-
  Region 1: ten blocks of 10000 rows, each multiplied by one whole 64-by-64 weight matrix, fill an array of
  100000 rows. Read entry by entry, a block's product is the plain sum over the contracted index of the block's row
  against the weight's column; the block at grid point t holds rows 10000·t … 10000·t + 9999 of the row-indexed
  operand, the weight window holds the whole weight matrix at every point, and the ten output blocks tile the
  array. So the array ends holding the matrix product of the two arrays the region found.
-/
import proofs.«122742_j46179488367199_1_alg».proof.Proof.Gen.KernelIdeal.Frame
import proofs.«122742_j46179488367199_1_alg».proof.Proof.GcnSpec
import proofs.«122742_j46179488367199_1_alg».proof.Proof.LibDenseRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem origin1 : (![0, 0] : Fin 2 → Nat) = fun _ => 0 := funext fun a => by fin_cases a <;> rfl

/-- Two functions on a block of 10000 rows and 64 columns agree when they agree at every (row, column). -/
theorem blockExt1 {α : Type} (f g : S10000x64.Idx → α)
    (h : ∀ (p : Fin 10000) (q : Fin 64), f (ix2 p q) = g (ix2 p q)) : f = g :=
  funext fun j => by rw [eq_ix2 j]; exact h _ _

/-- The body's product at entry (p, q): the sum over k of the block's (p, k) times the weight's (k, q). The casts of
    an operand to its own shape and the narrowing change nothing at exact values. -/
theorem product1_apply (x0 : Vec Ideal S10000x64 .f32) (x1 : Vec Ideal S64x64 .f32) (p : Fin 10000) (q : Fin 64) :
    k1_pay1 x0 x1 (ix2 p q) = ∑ k : Fin 64, x0 (ix2 p k) * x1 (ix2 k q) := by
  unfold k1_pay1
  refine (Cert.Dense.tileProduct_apply 10000 64 64 none bitsLt_bf16_f32 bitsLt_bf16_f32
    (shapeCast S10000x64 x0 shapeCasts_S10000x64_S10000x64) (shapeCast S64x64 x1 shapeCasts_S64x64_S64x64) p q).trans ?_
  simp only [shapeCast_self]

/-- The body's product at entry (p, q), when row p of the block is row r of a matrix A0 and column q of the weight
    block is column q of a matrix A1, is the (r, q) entry of the product A0 · A1. -/
theorem product1_entry (x0 : Vec Ideal S10000x64 .f32) (x1 : Vec Ideal S64x64 .f32)
    (A0 : Cert.Dense.Mat 100000 64) (A1 : Cert.Dense.Mat 64 64) (p : Fin 10000) (q : Fin 64) (r : Fin 100000)
    (h0 : ∀ k : Fin 64, x0 (ix2 p k) = A0 (ix2 r k)) (h1 : ∀ k : Fin 64, x1 (ix2 k q) = A1 (ix2 k q)) :
    k1_pay1 x0 x1 (ix2 p q) = Cert.Dense.mm A0 A1 (ix2 r q) := by
  rw [Cert.Dense.mm_apply]
  refine (product1_apply x0 x1 p q).trans ?_
  exact Finset.sum_congr rfl fun k _ => by rw [h0 k, h1 k]

/-- The index maps over the ten grid points: the row-blocked windows sit at block (t, 0), the weight window at
    block (0, 0). -/
theorem indexMaps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row-indexed operand's block at point t: its row p is row 10000·t + p of the array. -/
theorem rows1_read (c : Dev nD) (t : Fin cfg1.N) (p : Fin 10000) (k : Fin 64) (r : Fin 100000)
    (hr : r.val = t.val * 10000 + p.val) :
    (Gen.iblk1 (F := Ideal) V c 0 t : S10000x64.Idx → EReal) (ix2 p k)
      = (V c (Pipeline.arrRef spec1 0) : S100000x64.Idx → EReal) (ix2 r k) := by
  obtain ⟨e0, e1, -⟩ := indexMaps1 t
  unfold Gen.iblk1
  show (V c (Pipeline.arrRef spec1 0) : S100000x64.Idx → EReal) (((cfg1.win 0).blk t).view.emb (ix2 p k)) = _
  refine congrArg _ ?_
  funext a; apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The weight's block at every point is the whole weight matrix. -/
theorem weights1_read (c : Dev nD) (t : Fin cfg1.N) (k : Fin 64) (q : Fin 64) :
    (Gen.iblk1 (F := Ideal) V c 1 t : S64x64.Idx → EReal) (ix2 k q)
      = (V c (Pipeline.arrRef spec1 1) : S64x64.Idx → EReal) (ix2 k q) := by
  obtain ⟨-, -, e2, e3, -⟩ := indexMaps1 t
  unfold Gen.iblk1
  show (V c (Pipeline.arrRef spec1 1) : S64x64.Idx → EReal) (((cfg1.win 1).blk t).view.emb (ix2 k q)) = _
  refine congrArg _ ?_
  funext a; apply Fin.ext
  match a with
  | ⟨0, _⟩ => show win1_1.index t (0 : Fin 2) * 64 + 1 * k.val = k.val; rw [e2]; omega
  | ⟨1, _⟩ => show win1_1.index t (1 : Fin 2) * 64 + 1 * q.val = q.val; rw [e3]; omega

/-- What point t writes back is block t of the product of the two arrays. -/
theorem flushed1_eq (c : Dev nD) (t : Fin cfg1.N) :
    (Gen.dat1 (F := Ideal) V c).flushed 2 t
      = ((cfg1.win 2).blk t).view.read (Elt Ideal)
          (Cert.Dense.mm (V c (Pipeline.arrRef spec1 0) : S100000x64.Idx → EReal)
            (V c (Pipeline.arrRef spec1 1) : S64x64.Idx → EReal)) := by
  show (cfg1.win 2).cut (grid1.coords t) ((Gen.dat1 V c).after 2 t) = _
  rw [Gen.after1_2]
  unfold Gen.out1_2
  rw [View.canon_unit_zero origin1]
  simp only [View.ld_unit_zero (S := S10000x64) origin1, View.ld_unit_zero (S := S64x64) origin1]
  obtain ⟨-, -, -, -, e4, e5⟩ := indexMaps1 t
  have hN : grid1.N = 10 := Gen.N_1
  have ht : t.val < 10 := hN ▸ t.isLt
  refine blockExt1 _ _ fun p q => ?_
  have hp : p.val < 10000 := p.isLt
  show k1_pay1 (Gen.iblk1 V c 0 t) (Gen.iblk1 V c 1 t) (ix2 p q)
    = Cert.Dense.mm (V c (Pipeline.arrRef spec1 0) : S100000x64.Idx → EReal)
        (V c (Pipeline.arrRef spec1 1) : S64x64.Idx → EReal) (((cfg1.win 2).blk t).view.emb (ix2 p q))
  have hi : ((cfg1.win 2).blk t).view.emb (ix2 p q)
      = (ix2 (⟨t.val * 10000 + p.val, by omega⟩ : Fin 100000) q : S100000x64.Idx) := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * q.val = q.val; rw [e5]; omega
  refine Eq.trans ?_ (congrArg _ hi).symm
  exact product1_entry _ _ _ _ p q _ (fun k => rows1_read V c t p k _ rfl) (fun k => weights1_read V c t k q)

/-- An index of the array is in point t's output block iff each coordinate is in the block's range on its axis. -/
theorem mem_rows1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v36).slice (win1_2.rect t)).set ↔ _
  rw [View.set_slice_whole, Rect.mem_set_unit]
  exact Iff.rfl

/-- Row r of the array is in the output block of point r / 10000, and every point writes its block back. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := Gen.N_1
  have hlt : (i 0).val / 10000 < grid1.N := by rw [hN]; omega
  obtain ⟨-, -, -, -, e4, e5⟩ := indexMaps1 ⟨(i 0).val / 10000, hlt⟩
  refine ⟨⟨(i 0).val / 10000, hlt⟩, Gen.flush1_2 _, ?_⟩
  rw [mem_rows1]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e5]; omega

/-- The region's output array after all its write-backs: the matrix product of the two arrays it found. -/
theorem arr1 (V : (c : Dev nD) → (b : Ref sig .tc) → Buf (Elt Ideal) ((c : Thread nD τ).loc b)) (c : Dev nD) :
    (Gen.dat1 (F := Ideal) V c).arrAt 2 cfg1.N
      = Cert.Dense.mm (V c (Pipeline.arrRef spec1 0) : S100000x64.Idx → EReal)
          (V c (Pipeline.arrRef spec1 1) : S64x64.Idx → EReal) :=
  (Gen.dat1 (F := Ideal) V c).arrAt_eq_of_cover 2 _ (fun t _ => flushed1_eq V c t) cover1

end Cert.KernelIdeal.RegionValue

end
-- ==== Proof.Region2.lean ====
/-
  Region 2 of the tiled program: what its output array holds after every point of the grid has written its block back.

  Each of the ten points adds, on its block of 10000 rows, the aggregated messages, a one-row bias laid down the rows and
  the residual, and rectifies the sum. Every entry of the result depends on the same entry of the two row-indexed
  operands and on one entry of the bias, so the block of point t is rows 10000·t … 10000·t + 9999 of ONE whole-array
  function of the arrays the region finds, and the ten blocks tile the 100000 rows: the array ends holding that function.
-/
import proofs.«122742_j46179488367199_1_alg».proof.Proof.Gen.KernelIdeal.Frame
import proofs.«122742_j46179488367199_1_alg».proof.Proof.GcnSpec
import proofs.«122742_j46179488367199_1_alg».proof.Proof.LibDenseRows
import proofs.«122742_j46179488367199_1_alg».proof.Proof.LibLreluRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as the constant function. -/
theorem zeroOffsets2 : (![0, 0] : Fin 2 → Nat) = fun _ => 0 := funext fun a => by fin_cases a <;> rfl

/-- The body's payload at entry (p, q) of a block: messages plus the bias row's entry q plus the residual, rectified. -/
theorem payload2_apply (x0 : Vec Ideal S10000x64 .f32) (x1 : Vec Ideal S1x64 .f32) (x2 : Vec Ideal S10000x64 .f32)
    (p : Fin 10000) (q : Fin 64) :
    k2_pay1 x0 x1 x2 (ix2 p q) = max (x0 (ix2 p q) + x1 (ix2 (0 : Fin 1) q) + x2 (ix2 p q)) 0 := by
  unfold k2_pay1
  refine (Cert.Dense.tileRelu_apply 10000 64 _ (ix2 p q)).trans ?_
  refine congrArg (fun z => max z 0) ?_
  show (addf (shapeCast S10000x64 x0 shapeCasts_S10000x64_S10000x64)
        (broadcastTo S10000x64 (shapeCast S1x64 x1 shapeCasts_S1x64_S1x64) broadcasts_S1x64_S10000x64)
          : FVec Ideal S10000x64 .f32) (ix2 p q)
      + (shapeCast S10000x64 x2 shapeCasts_S10000x64_S10000x64 : FVec Ideal S10000x64 .f32) (ix2 p q) = _
  rw [shapeCast_self x0, shapeCast_self x2]
  exact congrArg (fun z => z + x2 (ix2 p q))
    (Cert.Dense.tileAddRow_apply 10000 64 shapeCasts_S1x64_S1x64 broadcasts_S1x64_S10000x64 x0 x1 p q)

/-- The index maps over the ten points: the row-blocked windows (messages, residual, output) sit at block t of the rows
    and block 0 of the columns; the bias window is the whole one-row array. -/
theorem indexMaps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Entry (p, q) of the messages' block at point t is entry (10000·t + p, q) of the messages' array. -/
theorem messagesBlock2_apply (c : Dev nD) (t : Fin cfg2.N) (p : Fin 10000) (q : Fin 64)
    (h : t.val * 10000 + p.val < 100000) :
    (iblk2 (F := Ideal) V c 0 t : S10000x64.Idx → EReal) (ix2 p q)
      = (V c (Pipeline.arrRef spec2 0) : S100000x64.Idx → EReal) (ix2 ⟨t.val * 10000 + p.val, h⟩ q) := by
  obtain ⟨e0, e1, -⟩ := indexMaps2 t
  unfold iblk2
  show (V c (Pipeline.arrRef spec2 0) : S100000x64.Idx → EReal) (((cfg2.win 0).blk t).view.emb (ix2 p q)) = _
  refine congrArg _ ?_
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * q.val = q.val; rw [e1]; omega

/-- Entry (0, q) of the bias block at any point is entry (0, q) of the one-row bias array. -/
theorem biasBlock2_apply (c : Dev nD) (t : Fin cfg2.N) (q : Fin 64) :
    (iblk2 (F := Ideal) V c 1 t : S1x64.Idx → EReal) (ix2 (0 : Fin 1) q)
      = (V c (Pipeline.arrRef spec2 1) : S1x64.Idx → EReal) (ix2 (0 : Fin 1) q) := by
  obtain ⟨-, -, e0, e1, -⟩ := indexMaps2 t
  unfold iblk2
  show (V c (Pipeline.arrRef spec2 1) : S1x64.Idx → EReal) (((cfg2.win 1).blk t).view.emb (ix2 (0 : Fin 1) q)) = _
  refine congrArg _ ?_
  funext a; apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega

/-- Entry (p, q) of the residual's block at point t is entry (10000·t + p, q) of the residual's array. -/
theorem residualBlock2_apply (c : Dev nD) (t : Fin cfg2.N) (p : Fin 10000) (q : Fin 64)
    (h : t.val * 10000 + p.val < 100000) :
    (iblk2 (F := Ideal) V c 2 t : S10000x64.Idx → EReal) (ix2 p q)
      = (V c (Pipeline.arrRef spec2 2) : S100000x64.Idx → EReal) (ix2 ⟨t.val * 10000 + p.val, h⟩ q) := by
  obtain ⟨-, -, -, -, e0, e1, -⟩ := indexMaps2 t
  unfold iblk2
  show (V c (Pipeline.arrRef spec2 2) : S100000x64.Idx → EReal) (((cfg2.win 2).blk t).view.emb (ix2 p q)) = _
  refine congrArg _ ?_
  funext a; apply Fin.ext
  match a with
  | ⟨0, _⟩ => show win2_2.index t (0 : Fin 2) * 10000 + 1 * p.val = t.val * 10000 + p.val; rw [e0]; omega
  | ⟨1, _⟩ => show win2_2.index t (1 : Fin 2) * 64 + 1 * q.val = q.val; rw [e1]; omega

/-- Entry (p, q) of the output's block at point t sits at entry (10000·t + p, q) of the output array. -/
theorem outputBlock2_emb (t : Fin cfg2.N) (p : Fin 10000) (q : Fin 64) (h : t.val * 10000 + p.val < 100000) :
    (((cfg2.win 3).blk t).view.emb (ix2 p q) : S100000x64.Idx) = ix2 ⟨t.val * 10000 + p.val, h⟩ q := by
  obtain ⟨-, -, -, -, -, -, e0, e1⟩ := indexMaps2 t
  funext a; apply Fin.ext
  match a with
  | ⟨0, _⟩ => show win2_3.index t (0 : Fin 2) * 10000 + 1 * p.val = t.val * 10000 + p.val; rw [e0]; omega
  | ⟨1, _⟩ => show win2_3.index t (1 : Fin 2) * 64 + 1 * q.val = q.val; rw [e1]; omega

/-- What point t writes back is its block of rows of the whole-array function. -/
theorem flushed2_block (c : Dev nD) (t : Fin cfg2.N) :
    (dat2 (F := Ideal) V c).flushed 3 t
      = ((cfg2.win 3).blk t).view.read (Elt Ideal)
          (Cert.Gcn.resAct (N := 100000) (K := 64) (V c (Pipeline.arrRef spec2 0)) (V c (Pipeline.arrRef spec2 1))
            (V c (Pipeline.arrRef spec2 2))) := by
  show (cfg2.win 3).cut (grid2.coords t) ((dat2 V c).after 3 t) = _
  rw [after2_3]
  unfold out2_3
  rw [View.canon_unit_zero zeroOffsets2]
  simp only [View.ld_unit_zero (S := S10000x64) zeroOffsets2, View.ld_unit_zero (S := S1x64) zeroOffsets2]
  refine funext fun (j : S10000x64.Idx) => ?_
  obtain ⟨p, q, rfl⟩ : ∃ (p : Fin 10000) (q : Fin 64), j = ix2 p q := ⟨j 0, j 1, eq_ix2 j⟩
  have h : t.val * 10000 + p.val < 100000 := by
    have ht : t.val < 10 := lt_of_lt_of_eq t.isLt N_2
    have hp : p.val < 10000 := p.isLt
    omega
  show k2_pay1 (iblk2 V c 0 t) (iblk2 V c 1 t) (iblk2 V c 2 t) (ix2 p q)
    = Cert.Gcn.resAct (N := 100000) (K := 64) (V c (Pipeline.arrRef spec2 0)) (V c (Pipeline.arrRef spec2 1))
        (V c (Pipeline.arrRef spec2 2)) (((cfg2.win 3).blk t).view.emb (ix2 p q))
  rw [outputBlock2_emb t p q h, Cert.Gcn.resAct_apply, payload2_apply, messagesBlock2_apply V c t p q h,
    biasBlock2_apply V c t q, residualBlock2_apply V c t p q h]

/-- An entry of the output array is in point t's block iff its row is among the block's 10000 rows (and its column
    among the 64 columns). -/
theorem mem_outputBlock2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v53).slice (win2_3.rect t)).set ↔ _
  rw [View.set_slice_whole, Rect.mem_set_unit]
  exact Iff.rfl

/-- Every entry of the output array is in the block of the point its row divided by 10000 names, and every point
    writes its block back. -/
theorem outputCover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega) N_2.symm⟩, rfl⟩
  obtain ⟨-, -, -, -, -, -, e0, e1⟩ := indexMaps2 t
  refine ⟨t, flush2_3 t, ?_⟩
  rw [mem_outputBlock2]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 64 ≤ (i 1).val ∧ (i 1).val < win2_3.index t (1 : Fin 2) * 64 + 64
    rw [e1]; omega

/-- The output array after all ten write-backs: messages plus bias plus residual, rectified, as one function of the arrays
    the region finds. -/
theorem arr2 (c : Dev nD) :
    (Gen.dat2 (F := Ideal) V c).arrAt 3 cfg2.N
      = Cert.Gcn.resAct (N := 100000) (K := 64) (V c (Pipeline.arrRef spec2 0)) (V c (Pipeline.arrRef spec2 1))
          (V c (Pipeline.arrRef spec2 2)) :=
  (Gen.dat2 (F := Ideal) V c).arrAt_eq_of_cover 3 _ (fun t _ => flushed2_block V c t) outputCover2

end Cert.KernelIdeal.RegionValue

end
-- ==== Proof.Region3.lean ====
/-
  Region 3: ten blocks of 10000 rows, each multiplied by one whole 64-by-64 weight matrix, fill an array of
  100000 rows. Read entry by entry, a block's product is the plain sum over the contracted index of the block's row
  against the weight's column; the block at grid point t holds rows 10000·t … 10000·t + 9999 of the row-indexed
  operand, the weight window holds the whole weight matrix at every point, and the ten output blocks tile the
  array. So the array ends holding the matrix product of the two arrays the region found.
-/
import proofs.«122742_j46179488367199_1_alg».proof.Proof.Gen.KernelIdeal.Frame
import proofs.«122742_j46179488367199_1_alg».proof.Proof.GcnSpec
import proofs.«122742_j46179488367199_1_alg».proof.Proof.LibDenseRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem origin3 : (![0, 0] : Fin 2 → Nat) = fun _ => 0 := funext fun a => by fin_cases a <;> rfl

/-- Two functions on a block of 10000 rows and 64 columns agree when they agree at every (row, column). -/
theorem blockExt3 {α : Type} (f g : S10000x64.Idx → α)
    (h : ∀ (p : Fin 10000) (q : Fin 64), f (ix2 p q) = g (ix2 p q)) : f = g :=
  funext fun j => by rw [eq_ix2 j]; exact h _ _

/-- The body's product at entry (p, q): the sum over k of the block's (p, k) times the weight's (k, q). The casts of
    an operand to its own shape and the narrowing change nothing at exact values. -/
theorem product3_apply (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  refine (Cert.Dense.tileProduct_apply 10000 64 64 none bitsLt_bf16_f32 bitsLt_bf16_f32
    (shapeCast S10000x64 x0 shapeCasts_S10000x64_S10000x64) (shapeCast S64x64 x1 shapeCasts_S64x64_S64x64) p q).trans ?_
  simp only [shapeCast_self]

/-- The body's product at entry (p, q), when row p of the block is row r of a matrix A0 and column q of the weight
    block is column q of a matrix A1, is the (r, q) entry of the product A0 · A1. -/
theorem product3_entry (x0 : Vec Ideal S10000x64 .f32) (x1 : Vec Ideal S64x64 .f32)
    (A0 : Cert.Dense.Mat 100000 64) (A1 : Cert.Dense.Mat 64 64) (p : Fin 10000) (q : Fin 64) (r : Fin 100000)
    (h0 : ∀ k : Fin 64, x0 (ix2 p k) = A0 (ix2 r k)) (h1 : ∀ k : Fin 64, x1 (ix2 k q) = A1 (ix2 k q)) :
    k3_pay1 x0 x1 (ix2 p q) = Cert.Dense.mm A0 A1 (ix2 r q) := by
  rw [Cert.Dense.mm_apply]
  refine (product3_apply x0 x1 p q).trans ?_
  exact Finset.sum_congr rfl fun k _ => by rw [h0 k, h1 k]

/-- The index maps over the ten grid points: the row-blocked windows sit at block (t, 0), the weight window at
    block (0, 0). -/
theorem indexMaps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row-indexed operand's block at point t: its row p is row 10000·t + p of the array. -/
theorem rows3_read (c : Dev nD) (t : Fin cfg3.N) (p : Fin 10000) (k : Fin 64) (r : Fin 100000)
    (hr : r.val = t.val * 10000 + p.val) :
    (Gen.iblk3 (F := Ideal) V c 0 t : S10000x64.Idx → EReal) (ix2 p k)
      = (V c (Pipeline.arrRef spec3 0) : S100000x64.Idx → EReal) (ix2 r k) := by
  obtain ⟨e0, e1, -⟩ := indexMaps3 t
  unfold Gen.iblk3
  show (V c (Pipeline.arrRef spec3 0) : S100000x64.Idx → EReal) (((cfg3.win 0).blk t).view.emb (ix2 p k)) = _
  refine congrArg _ ?_
  funext a; apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- The weight's block at every point is the whole weight matrix. -/
theorem weights3_read (c : Dev nD) (t : Fin cfg3.N) (k : Fin 64) (q : Fin 64) :
    (Gen.iblk3 (F := Ideal) V c 1 t : S64x64.Idx → EReal) (ix2 k q)
      = (V c (Pipeline.arrRef spec3 1) : S64x64.Idx → EReal) (ix2 k q) := by
  obtain ⟨-, -, e2, e3, -⟩ := indexMaps3 t
  unfold Gen.iblk3
  show (V c (Pipeline.arrRef spec3 1) : S64x64.Idx → EReal) (((cfg3.win 1).blk t).view.emb (ix2 k q)) = _
  refine congrArg _ ?_
  funext a; apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- What point t writes back is block t of the product of the two arrays. -/
theorem flushed3_eq (c : Dev nD) (t : Fin cfg3.N) :
    (Gen.dat3 (F := Ideal) V c).flushed 2 t
      = ((cfg3.win 2).blk t).view.read (Elt Ideal)
          (Cert.Dense.mm (V c (Pipeline.arrRef spec3 0) : S100000x64.Idx → EReal)
            (V c (Pipeline.arrRef spec3 1) : S64x64.Idx → EReal)) := by
  show (cfg3.win 2).cut (grid3.coords t) ((Gen.dat3 V c).after 2 t) = _
  rw [Gen.after3_2]
  unfold Gen.out3_2
  rw [View.canon_unit_zero origin3]
  simp only [View.ld_unit_zero (S := S10000x64) origin3, View.ld_unit_zero (S := S64x64) origin3]
  obtain ⟨-, -, -, -, e4, e5⟩ := indexMaps3 t
  have hN : grid3.N = 10 := Gen.N_3
  have ht : t.val < 10 := hN ▸ t.isLt
  refine blockExt3 _ _ fun p q => ?_
  have hp : p.val < 10000 := p.isLt
  show k3_pay1 (Gen.iblk3 V c 0 t) (Gen.iblk3 V c 1 t) (ix2 p q)
    = Cert.Dense.mm (V c (Pipeline.arrRef spec3 0) : S100000x64.Idx → EReal)
        (V c (Pipeline.arrRef spec3 1) : S64x64.Idx → EReal) (((cfg3.win 2).blk t).view.emb (ix2 p q))
  have hi : ((cfg3.win 2).blk t).view.emb (ix2 p q)
      = (ix2 (⟨t.val * 10000 + p.val, by omega⟩ : Fin 100000) q : S100000x64.Idx) := by
    funext a; apply Fin.ext
    match a with
    | ⟨0, _⟩ => show win3_2.index t (0 : Fin 2) * 10000 + 1 * p.val = t.val * 10000 + p.val; rw [e4]; omega
    | ⟨1, _⟩ => show win3_2.index t (1 : Fin 2) * 64 + 1 * q.val = q.val; rw [e5]; omega
  refine Eq.trans ?_ (congrArg _ hi).symm
  exact product3_entry _ _ _ _ p q _ (fun k => rows3_read V c t p k _ rfl) (fun k => weights3_read V c t k q)

/-- An index of the array is in point t's output block iff each coordinate is in the block's range on its axis. -/
theorem mem_rows3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v56).slice (win3_2.rect t)).set ↔ _
  rw [View.set_slice_whole, Rect.mem_set_unit]
  exact Iff.rfl

/-- Row r of the array is in the output block of point r / 10000, and every point writes its block back. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := Gen.N_3
  have hlt : (i 0).val / 10000 < grid3.N := by rw [hN]; omega
  obtain ⟨-, -, -, -, e4, e5⟩ := indexMaps3 ⟨(i 0).val / 10000, hlt⟩
  refine ⟨⟨(i 0).val / 10000, hlt⟩, Gen.flush3_2 _, ?_⟩
  rw [mem_rows3]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 64 ≤ (i 1).val
      ∧ (i 1).val < win3_2.index ⟨(i 0).val / 10000, hlt⟩ (1 : Fin 2) * 64 + 64
    rw [e5]; omega

/-- The region's output array after all its write-backs: the matrix product of the two arrays it found. -/
theorem arr3 (V : (c : Dev nD) → (b : Ref sig .tc) → Buf (Elt Ideal) ((c : Thread nD τ).loc b)) (c : Dev nD) :
    (Gen.dat3 (F := Ideal) V c).arrAt 2 cfg3.N
      = Cert.Dense.mm (V c (Pipeline.arrRef spec3 0) : S100000x64.Idx → EReal)
          (V c (Pipeline.arrRef spec3 1) : S64x64.Idx → EReal) :=
  (Gen.dat3 (F := Ideal) V c).arrAt_eq_of_cover 2 _ (fun t _ => flushed3_eq V c t) cover3

end Cert.KernelIdeal.RegionValue

end
-- ==== Proof.Region4.lean ====
/-
  Region 4 of the tiled program: what its output array holds after every point of the grid has written its block back.

  Each of the ten points adds, on its block of 10000 rows, the aggregated messages, a one-row bias laid down the rows and
  the residual, and rectifies the sum. Every entry of the result depends on the same entry of the two row-indexed
  operands and on one entry of the bias, so the block of point t is rows 10000·t … 10000·t + 9999 of ONE whole-array
  function of the arrays the region finds, and the ten blocks tile the 100000 rows: the array ends holding that function.
-/
import proofs.«122742_j46179488367199_1_alg».proof.Proof.Gen.KernelIdeal.Frame
import proofs.«122742_j46179488367199_1_alg».proof.Proof.GcnSpec
import proofs.«122742_j46179488367199_1_alg».proof.Proof.LibDenseRows
import proofs.«122742_j46179488367199_1_alg».proof.Proof.LibLreluRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as the constant function. -/
theorem zeroOffsets4 : (![0, 0] : Fin 2 → Nat) = fun _ => 0 := funext fun a => by fin_cases a <;> rfl

/-- The body's payload at entry (p, q) of a block: messages plus the bias row's entry q plus the residual, rectified. -/
theorem payload4_apply (x0 : Vec Ideal S10000x64 .f32) (x1 : Vec Ideal S1x64 .f32) (x2 : Vec Ideal S10000x64 .f32)
    (p : Fin 10000) (q : Fin 64) :
    k4_pay1 x0 x1 x2 (ix2 p q) = max (x0 (ix2 p q) + x1 (ix2 (0 : Fin 1) q) + x2 (ix2 p q)) 0 := by
  unfold k4_pay1
  refine (Cert.Dense.tileRelu_apply 10000 64 _ (ix2 p q)).trans ?_
  refine congrArg (fun z => max z 0) ?_
  show (addf (shapeCast S10000x64 x0 shapeCasts_S10000x64_S10000x64)
        (broadcastTo S10000x64 (shapeCast S1x64 x1 shapeCasts_S1x64_S1x64) broadcasts_S1x64_S10000x64)
          : FVec Ideal S10000x64 .f32) (ix2 p q)
      + (shapeCast S10000x64 x2 shapeCasts_S10000x64_S10000x64 : FVec Ideal S10000x64 .f32) (ix2 p q) = _
  rw [shapeCast_self x0, shapeCast_self x2]
  exact congrArg (fun z => z + x2 (ix2 p q))
    (Cert.Dense.tileAddRow_apply 10000 64 shapeCasts_S1x64_S1x64 broadcasts_S1x64_S10000x64 x0 x1 p q)

/-- The index maps over the ten points: the row-blocked windows (messages, residual, output) sit at block t of the rows
    and block 0 of the columns; the bias window is the whole one-row array. -/
theorem indexMaps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- Entry (p, q) of the messages' block at point t is entry (10000·t + p, q) of the messages' array. -/
theorem messagesBlock4_apply (c : Dev nD) (t : Fin cfg4.N) (p : Fin 10000) (q : Fin 64)
    (h : t.val * 10000 + p.val < 100000) :
    (iblk4 (F := Ideal) V c 0 t : S10000x64.Idx → EReal) (ix2 p q)
      = (V c (Pipeline.arrRef spec4 0) : S100000x64.Idx → EReal) (ix2 ⟨t.val * 10000 + p.val, h⟩ q) := by
  obtain ⟨e0, e1, -⟩ := indexMaps4 t
  unfold iblk4
  show (V c (Pipeline.arrRef spec4 0) : S100000x64.Idx → EReal) (((cfg4.win 0).blk t).view.emb (ix2 p q)) = _
  refine congrArg _ ?_
  funext a; apply Fin.ext
  match a with
  | ⟨0, _⟩ => show win4_0.index t (0 : Fin 2) * 10000 + 1 * p.val = t.val * 10000 + p.val; rw [e0]; omega
  | ⟨1, _⟩ => show win4_0.index t (1 : Fin 2) * 64 + 1 * q.val = q.val; rw [e1]; omega

/-- Entry (0, q) of the bias block at any point is entry (0, q) of the one-row bias array. -/
theorem biasBlock4_apply (c : Dev nD) (t : Fin cfg4.N) (q : Fin 64) :
    (iblk4 (F := Ideal) V c 1 t : S1x64.Idx → EReal) (ix2 (0 : Fin 1) q)
      = (V c (Pipeline.arrRef spec4 1) : S1x64.Idx → EReal) (ix2 (0 : Fin 1) q) := by
  obtain ⟨-, -, e0, e1, -⟩ := indexMaps4 t
  unfold iblk4
  show (V c (Pipeline.arrRef spec4 1) : S1x64.Idx → EReal) (((cfg4.win 1).blk t).view.emb (ix2 (0 : Fin 1) q)) = _
  refine congrArg _ ?_
  funext a; apply Fin.ext
  match a with
  | ⟨0, _⟩ => show win4_1.index t (0 : Fin 2) * 1 + 1 * 0 = 0; rw [e0]
  | ⟨1, _⟩ => show win4_1.index t (1 : Fin 2) * 64 + 1 * q.val = q.val; rw [e1]; omega

/-- Entry (p, q) of the residual's block at point t is entry (10000·t + p, q) of the residual's array. -/
theorem residualBlock4_apply (c : Dev nD) (t : Fin cfg4.N) (p : Fin 10000) (q : Fin 64)
    (h : t.val * 10000 + p.val < 100000) :
    (iblk4 (F := Ideal) V c 2 t : S10000x64.Idx → EReal) (ix2 p q)
      = (V c (Pipeline.arrRef spec4 2) : S100000x64.Idx → EReal) (ix2 ⟨t.val * 10000 + p.val, h⟩ q) := by
  obtain ⟨-, -, -, -, e0, e1, -⟩ := indexMaps4 t
  unfold iblk4
  show (V c (Pipeline.arrRef spec4 2) : S100000x64.Idx → EReal) (((cfg4.win 2).blk t).view.emb (ix2 p q)) = _
  refine congrArg _ ?_
  funext a; apply Fin.ext
  match a with
  | ⟨0, _⟩ => show win4_2.index t (0 : Fin 2) * 10000 + 1 * p.val = t.val * 10000 + p.val; rw [e0]; omega
  | ⟨1, _⟩ => show win4_2.index t (1 : Fin 2) * 64 + 1 * q.val = q.val; rw [e1]; omega

/-- Entry (p, q) of the output's block at point t sits at entry (10000·t + p, q) of the output array. -/
theorem outputBlock4_emb (t : Fin cfg4.N) (p : Fin 10000) (q : Fin 64) (h : t.val * 10000 + p.val < 100000) :
    (((cfg4.win 3).blk t).view.emb (ix2 p q) : S100000x64.Idx) = ix2 ⟨t.val * 10000 + p.val, h⟩ q := by
  obtain ⟨-, -, -, -, -, -, e0, e1⟩ := indexMaps4 t
  funext a; apply Fin.ext
  match a with
  | ⟨0, _⟩ => show win4_3.index t (0 : Fin 2) * 10000 + 1 * p.val = t.val * 10000 + p.val; rw [e0]; omega
  | ⟨1, _⟩ => show win4_3.index t (1 : Fin 2) * 64 + 1 * q.val = q.val; rw [e1]; omega

set_option maxHeartbeats 1000000 in
/-- What point t writes back is its block of rows of the whole-array function. -/
theorem flushed4_block (c : Dev nD) (t : Fin cfg4.N) :
    (dat4 (F := Ideal) V c).flushed 3 t
      = ((cfg4.win 3).blk t).view.read (Elt Ideal)
          (Cert.Gcn.resAct (N := 100000) (K := 64) (V c (Pipeline.arrRef spec4 0)) (V c (Pipeline.arrRef spec4 1))
            (V c (Pipeline.arrRef spec4 2))) := by
  show (cfg4.win 3).cut (grid4.coords t) ((dat4 V c).after 3 t) = _
  rw [after4_3]
  unfold out4_3
  rw [View.canon_unit_zero zeroOffsets4]
  simp only [View.ld_unit_zero (S := S10000x64) zeroOffsets4, View.ld_unit_zero (S := S1x64) zeroOffsets4]
  refine funext fun (j : S10000x64.Idx) => ?_
  obtain ⟨p, q, rfl⟩ : ∃ (p : Fin 10000) (q : Fin 64), j = ix2 p q := ⟨j 0, j 1, eq_ix2 j⟩
  have h : t.val * 10000 + p.val < 100000 := by
    have ht : t.val < 10 := lt_of_lt_of_eq t.isLt N_4
    have hp : p.val < 10000 := p.isLt
    omega
  show k4_pay1 (iblk4 V c 0 t) (iblk4 V c 1 t) (iblk4 V c 2 t) (ix2 p q)
    = Cert.Gcn.resAct (N := 100000) (K := 64) (V c (Pipeline.arrRef spec4 0)) (V c (Pipeline.arrRef spec4 1))
        (V c (Pipeline.arrRef spec4 2)) (((cfg4.win 3).blk t).view.emb (ix2 p q))
  rw [outputBlock4_emb t p q h, Cert.Gcn.resAct_apply, payload4_apply, messagesBlock4_apply V c t p q h,
    biasBlock4_apply V c t q, residualBlock4_apply V c t p q h]

/-- An entry of the output array is in point t's block iff its row is among the block's 10000 rows (and its column
    among the 64 columns). -/
theorem mem_outputBlock4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v73).slice (win4_3.rect t)).set ↔ _
  rw [View.set_slice_whole, Rect.mem_set_unit]
  exact Iff.rfl

/-- Every entry of the output array is in the block of the point its row divided by 10000 names, and every point
    writes its block back. -/
theorem outputCover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, lt_of_lt_of_eq (by omega) N_4.symm⟩, rfl⟩
  obtain ⟨-, -, -, -, -, -, e0, e1⟩ := indexMaps4 t
  refine ⟨t, flush4_3 t, ?_⟩
  rw [mem_outputBlock4]
  intro a
  match a with
  | ⟨0, _⟩ =>
    show win4_3.index t (0 : Fin 2) * 10000 ≤ (i 0).val ∧ (i 0).val < win4_3.index t (0 : Fin 2) * 10000 + 10000
    rw [e0, ht]; omega
  | ⟨1, _⟩ =>
    show win4_3.index t (1 : Fin 2) * 64 ≤ (i 1).val ∧ (i 1).val < win4_3.index t (1 : Fin 2) * 64 + 64
    rw [e1]; omega

/-- The output array after all ten write-backs: messages plus bias plus residual, rectified, as one function of the arrays
    the region finds. -/
theorem arr4 (c : Dev nD) :
    (Gen.dat4 (F := Ideal) V c).arrAt 3 cfg4.N
      = Cert.Gcn.resAct (N := 100000) (K := 64) (V c (Pipeline.arrRef spec4 0)) (V c (Pipeline.arrRef spec4 1))
          (V c (Pipeline.arrRef spec4 2)) :=
  (Gen.dat4 (F := Ideal) V c).arrAt_eq_of_cover 3 _ (fun t _ => flushed4_block V c t) outputCover4

end Cert.KernelIdeal.RegionValue

end
-- ==== Proof.Region5.lean ====
/-
  Region 5: ten blocks of 10000 rows, each multiplied by one whole 64-by-64 weight matrix, fill an array of
  100000 rows. Read entry by entry, a block's product is the plain sum over the contracted index of the block's row
  against the weight's column; the block at grid point t holds rows 10000·t … 10000·t + 9999 of the row-indexed
  operand, the weight window holds the whole weight matrix at every point, and the ten output blocks tile the
  array. So the array ends holding the matrix product of the two arrays the region found.
-/
import proofs.«122742_j46179488367199_1_alg».proof.Proof.Gen.KernelIdeal.Frame
import proofs.«122742_j46179488367199_1_alg».proof.Proof.GcnSpec
import proofs.«122742_j46179488367199_1_alg».proof.Proof.LibDenseRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem origin5 : (![0, 0] : Fin 2 → Nat) = fun _ => 0 := funext fun a => by fin_cases a <;> rfl

/-- Two functions on a block of 10000 rows and 64 columns agree when they agree at every (row, column). -/
theorem blockExt5 {α : Type} (f g : S10000x64.Idx → α)
    (h : ∀ (p : Fin 10000) (q : Fin 64), f (ix2 p q) = g (ix2 p q)) : f = g :=
  funext fun j => by rw [eq_ix2 j]; exact h _ _

/-- The body's product at entry (p, q): the sum over k of the block's (p, k) times the weight's (k, q). The casts of
    an operand to its own shape and the narrowing change nothing at exact values. -/
theorem product5_apply (x0 : Vec Ideal S10000x64 .f32) (x1 : Vec Ideal S64x64 .f32) (p : Fin 10000) (q : Fin 64) :
    k5_pay1 x0 x1 (ix2 p q) = ∑ k : Fin 64, x0 (ix2 p k) * x1 (ix2 k q) := by
  unfold k5_pay1
  refine (Cert.Dense.tileProduct_apply 10000 64 64 none bitsLt_bf16_f32 bitsLt_bf16_f32
    (shapeCast S10000x64 x0 shapeCasts_S10000x64_S10000x64) (shapeCast S64x64 x1 shapeCasts_S64x64_S64x64) p q).trans ?_
  simp only [shapeCast_self]

/-- The body's product at entry (p, q), when row p of the block is row r of a matrix A0 and column q of the weight
    block is column q of a matrix A1, is the (r, q) entry of the product A0 · A1. -/
theorem product5_entry (x0 : Vec Ideal S10000x64 .f32) (x1 : Vec Ideal S64x64 .f32)
    (A0 : Cert.Dense.Mat 100000 64) (A1 : Cert.Dense.Mat 64 64) (p : Fin 10000) (q : Fin 64) (r : Fin 100000)
    (h0 : ∀ k : Fin 64, x0 (ix2 p k) = A0 (ix2 r k)) (h1 : ∀ k : Fin 64, x1 (ix2 k q) = A1 (ix2 k q)) :
    k5_pay1 x0 x1 (ix2 p q) = Cert.Dense.mm A0 A1 (ix2 r q) := by
  rw [Cert.Dense.mm_apply]
  refine (product5_apply x0 x1 p q).trans ?_
  exact Finset.sum_congr rfl fun k _ => by rw [h0 k, h1 k]

/-- The index maps over the ten grid points: the row-blocked windows sit at block (t, 0), the weight window at
    block (0, 0). -/
theorem indexMaps5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The row-indexed operand's block at point t: its row p is row 10000·t + p of the array. -/
theorem rows5_read (c : Dev nD) (t : Fin cfg5.N) (p : Fin 10000) (k : Fin 64) (r : Fin 100000)
    (hr : r.val = t.val * 10000 + p.val) :
    (Gen.iblk5 (F := Ideal) V c 0 t : S10000x64.Idx → EReal) (ix2 p k)
      = (V c (Pipeline.arrRef spec5 0) : S100000x64.Idx → EReal) (ix2 r k) := by
  obtain ⟨e0, e1, -⟩ := indexMaps5 t
  unfold Gen.iblk5
  show (V c (Pipeline.arrRef spec5 0) : S100000x64.Idx → EReal) (((cfg5.win 0).blk t).view.emb (ix2 p k)) = _
  refine congrArg _ ?_
  funext a; apply Fin.ext
  match a with
  | ⟨0, _⟩ => show win5_0.index t (0 : Fin 2) * 10000 + 1 * p.val = r.val; rw [e0, hr]; omega
  | ⟨1, _⟩ => show win5_0.index t (1 : Fin 2) * 64 + 1 * k.val = k.val; rw [e1]; omega

/-- The weight's block at every point is the whole weight matrix. -/
theorem weights5_read (c : Dev nD) (t : Fin cfg5.N) (k : Fin 64) (q : Fin 64) :
    (Gen.iblk5 (F := Ideal) V c 1 t : S64x64.Idx → EReal) (ix2 k q)
      = (V c (Pipeline.arrRef spec5 1) : S64x64.Idx → EReal) (ix2 k q) := by
  obtain ⟨-, -, e2, e3, -⟩ := indexMaps5 t
  unfold Gen.iblk5
  show (V c (Pipeline.arrRef spec5 1) : S64x64.Idx → EReal) (((cfg5.win 1).blk t).view.emb (ix2 k q)) = _
  refine congrArg _ ?_
  funext a; apply Fin.ext
  match a with
  | ⟨0, _⟩ => show win5_1.index t (0 : Fin 2) * 64 + 1 * k.val = k.val; rw [e2]; omega
  | ⟨1, _⟩ => show win5_1.index t (1 : Fin 2) * 64 + 1 * q.val = q.val; rw [e3]; omega

/-- What point t writes back is block t of the product of the two arrays. -/
theorem flushed5_eq (c : Dev nD) (t : Fin cfg5.N) :
    (Gen.dat5 (F := Ideal) V c).flushed 2 t
      = ((cfg5.win 2).blk t).view.read (Elt Ideal)
          (Cert.Dense.mm (V c (Pipeline.arrRef spec5 0) : S100000x64.Idx → EReal)
            (V c (Pipeline.arrRef spec5 1) : S64x64.Idx → EReal)) := by
  show (cfg5.win 2).cut (grid5.coords t) ((Gen.dat5 V c).after 2 t) = _
  rw [Gen.after5_2]
  unfold Gen.out5_2
  rw [View.canon_unit_zero origin5]
  simp only [View.ld_unit_zero (S := S10000x64) origin5, View.ld_unit_zero (S := S64x64) origin5]
  obtain ⟨-, -, -, -, e4, e5⟩ := indexMaps5 t
  have hN : grid5.N = 10 := Gen.N_5
  have ht : t.val < 10 := hN ▸ t.isLt
  refine blockExt5 _ _ fun p q => ?_
  have hp : p.val < 10000 := p.isLt
  show k5_pay1 (Gen.iblk5 V c 0 t) (Gen.iblk5 V c 1 t) (ix2 p q)
    = Cert.Dense.mm (V c (Pipeline.arrRef spec5 0) : S100000x64.Idx → EReal)
        (V c (Pipeline.arrRef spec5 1) : S64x64.Idx → EReal) (((cfg5.win 2).blk t).view.emb (ix2 p q))
  have hi : ((cfg5.win 2).blk t).view.emb (ix2 p q)
      = (ix2 (⟨t.val * 10000 + p.val, by omega⟩ : Fin 100000) q : S100000x64.Idx) := by
    funext a; apply Fin.ext
    match a with
    | ⟨0, _⟩ => show win5_2.index t (0 : Fin 2) * 10000 + 1 * p.val = t.val * 10000 + p.val; rw [e4]; omega
    | ⟨1, _⟩ => show win5_2.index t (1 : Fin 2) * 64 + 1 * q.val = q.val; rw [e5]; omega
  refine Eq.trans ?_ (congrArg _ hi).symm
  exact product5_entry _ _ _ _ p q _ (fun k => rows5_read V c t p k _ rfl) (fun k => weights5_read V c t k q)

/-- An index of the array is in point t's output block iff each coordinate is in the block's range on its axis. -/
theorem mem_rows5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v76).slice (win5_2.rect t)).set ↔ _
  rw [View.set_slice_whole, Rect.mem_set_unit]
  exact Iff.rfl

/-- Row r of the array is in the output block of point r / 10000, and every point writes its block back. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := Gen.N_5
  have hlt : (i 0).val / 10000 < grid5.N := by rw [hN]; omega
  obtain ⟨-, -, -, -, e4, e5⟩ := indexMaps5 ⟨(i 0).val / 10000, hlt⟩
  refine ⟨⟨(i 0).val / 10000, hlt⟩, Gen.flush5_2 _, ?_⟩
  rw [mem_rows5]
  intro a
  match a with
  | ⟨0, _⟩ =>
    show win5_2.index ⟨(i 0).val / 10000, hlt⟩ (0 : Fin 2) * 10000 ≤ (i 0).val
      ∧ (i 0).val < win5_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hlt⟩ (1 : Fin 2) * 64 ≤ (i 1).val
      ∧ (i 1).val < win5_2.index ⟨(i 0).val / 10000, hlt⟩ (1 : Fin 2) * 64 + 64
    rw [e5]; omega

/-- The region's output array after all its write-backs: the matrix product of the two arrays it found. -/
theorem arr5 (V : (c : Dev nD) → (b : Ref sig .tc) → Buf (Elt Ideal) ((c : Thread nD τ).loc b)) (c : Dev nD) :
    (Gen.dat5 (F := Ideal) V c).arrAt 2 cfg5.N
      = Cert.Dense.mm (V c (Pipeline.arrRef spec5 0) : S100000x64.Idx → EReal)
          (V c (Pipeline.arrRef spec5 1) : S64x64.Idx → EReal) :=
  (Gen.dat5 (F := Ideal) V c).arrAt_eq_of_cover 2 _ (fun t _ => flushed5_eq V c t) cover5

end Cert.KernelIdeal.RegionValue

end
-- ==== Proof.Region6.lean ====
/-
  Region 6 of the tiled program: what its output array holds after every point of the grid has written its block back.

  Each of the ten points adds, on its block of 10000 rows, the aggregated messages, a one-row bias laid down the rows and
  the residual, and rectifies the sum. Every entry of the result depends on the same entry of the two row-indexed
  operands and on one entry of the bias, so the block of point t is rows 10000·t … 10000·t + 9999 of ONE whole-array
  function of the arrays the region finds, and the ten blocks tile the 100000 rows: the array ends holding that function.
-/
import proofs.«122742_j46179488367199_1_alg».proof.Proof.Gen.KernelIdeal.Frame
import proofs.«122742_j46179488367199_1_alg».proof.Proof.GcnSpec
import proofs.«122742_j46179488367199_1_alg».proof.Proof.LibDenseRows
import proofs.«122742_j46179488367199_1_alg».proof.Proof.LibLreluRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as the constant function. -/
theorem zeroOffsets6 : (![0, 0] : Fin 2 → Nat) = fun _ => 0 := funext fun a => by fin_cases a <;> rfl

/-- The body's payload at entry (p, q) of a block: messages plus the bias row's entry q plus the residual, rectified. -/
theorem payload6_apply (x0 : Vec Ideal S10000x64 .f32) (x1 : Vec Ideal S1x64 .f32) (x2 : Vec Ideal S10000x64 .f32)
    (p : Fin 10000) (q : Fin 64) :
    k6_pay1 x0 x1 x2 (ix2 p q) = max (x0 (ix2 p q) + x1 (ix2 (0 : Fin 1) q) + x2 (ix2 p q)) 0 := by
  unfold k6_pay1
  refine (Cert.Dense.tileRelu_apply 10000 64 _ (ix2 p q)).trans ?_
  refine congrArg (fun z => max z 0) ?_
  show (addf (shapeCast S10000x64 x0 shapeCasts_S10000x64_S10000x64)
        (broadcastTo S10000x64 (shapeCast S1x64 x1 shapeCasts_S1x64_S1x64) broadcasts_S1x64_S10000x64)
          : FVec Ideal S10000x64 .f32) (ix2 p q)
      + (shapeCast S10000x64 x2 shapeCasts_S10000x64_S10000x64 : FVec Ideal S10000x64 .f32) (ix2 p q) = _
  rw [shapeCast_self x0, shapeCast_self x2]
  exact congrArg (fun z => z + x2 (ix2 p q))
    (Cert.Dense.tileAddRow_apply 10000 64 shapeCasts_S1x64_S1x64 broadcasts_S1x64_S10000x64 x0 x1 p q)

/-- The index maps over the ten points: the row-blocked windows (messages, residual, output) sit at block t of the rows
    and block 0 of the columns; the bias window is the whole one-row array. -/
theorem indexMaps6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- Entry (p, q) of the messages' block at point t is entry (10000·t + p, q) of the messages' array. -/
theorem messagesBlock6_apply (c : Dev nD) (t : Fin cfg6.N) (p : Fin 10000) (q : Fin 64)
    (h : t.val * 10000 + p.val < 100000) :
    (iblk6 (F := Ideal) V c 0 t : S10000x64.Idx → EReal) (ix2 p q)
      = (V c (Pipeline.arrRef spec6 0) : S100000x64.Idx → EReal) (ix2 ⟨t.val * 10000 + p.val, h⟩ q) := by
  obtain ⟨e0, e1, -⟩ := indexMaps6 t
  unfold iblk6
  show (V c (Pipeline.arrRef spec6 0) : S100000x64.Idx → EReal) (((cfg6.win 0).blk t).view.emb (ix2 p q)) = _
  refine congrArg _ ?_
  funext a; apply Fin.ext
  match a with
  | ⟨0, _⟩ => show win6_0.index t (0 : Fin 2) * 10000 + 1 * p.val = t.val * 10000 + p.val; rw [e0]; omega
  | ⟨1, _⟩ => show win6_0.index t (1 : Fin 2) * 64 + 1 * q.val = q.val; rw [e1]; omega

/-- Entry (0, q) of the bias block at any point is entry (0, q) of the one-row bias array. -/
theorem biasBlock6_apply (c : Dev nD) (t : Fin cfg6.N) (q : Fin 64) :
    (iblk6 (F := Ideal) V c 1 t : S1x64.Idx → EReal) (ix2 (0 : Fin 1) q)
      = (V c (Pipeline.arrRef spec6 1) : S1x64.Idx → EReal) (ix2 (0 : Fin 1) q) := by
  obtain ⟨-, -, e0, e1, -⟩ := indexMaps6 t
  unfold iblk6
  show (V c (Pipeline.arrRef spec6 1) : S1x64.Idx → EReal) (((cfg6.win 1).blk t).view.emb (ix2 (0 : Fin 1) q)) = _
  refine congrArg _ ?_
  funext a; apply Fin.ext
  match a with
  | ⟨0, _⟩ => show win6_1.index t (0 : Fin 2) * 1 + 1 * 0 = 0; rw [e0]
  | ⟨1, _⟩ => show win6_1.index t (1 : Fin 2) * 64 + 1 * q.val = q.val; rw [e1]; omega

/-- Entry (p, q) of the residual's block at point t is entry (10000·t + p, q) of the residual's array. -/
theorem residualBlock6_apply (c : Dev nD) (t : Fin cfg6.N) (p : Fin 10000) (q : Fin 64)
    (h : t.val * 10000 + p.val < 100000) :
    (iblk6 (F := Ideal) V c 2 t : S10000x64.Idx → EReal) (ix2 p q)
      = (V c (Pipeline.arrRef spec6 2) : S100000x64.Idx → EReal) (ix2 ⟨t.val * 10000 + p.val, h⟩ q) := by
  obtain ⟨-, -, -, -, e0, e1, -⟩ := indexMaps6 t
  unfold iblk6
  show (V c (Pipeline.arrRef spec6 2) : S100000x64.Idx → EReal) (((cfg6.win 2).blk t).view.emb (ix2 p q)) = _
  refine congrArg _ ?_
  funext a; apply Fin.ext
  match a with
  | ⟨0, _⟩ => show win6_2.index t (0 : Fin 2) * 10000 + 1 * p.val = t.val * 10000 + p.val; rw [e0]; omega
  | ⟨1, _⟩ => show win6_2.index t (1 : Fin 2) * 64 + 1 * q.val = q.val; rw [e1]; omega

/-- Entry (p, q) of the output's block at point t sits at entry (10000·t + p, q) of the output array. -/
theorem outputBlock6_emb (t : Fin cfg6.N) (p : Fin 10000) (q : Fin 64) (h : t.val * 10000 + p.val < 100000) :
    (((cfg6.win 3).blk t).view.emb (ix2 p q) : S100000x64.Idx) = ix2 ⟨t.val * 10000 + p.val, h⟩ q := by
  obtain ⟨-, -, -, -, -, -, e0, e1⟩ := indexMaps6 t
  funext a; apply Fin.ext
  match a with
  | ⟨0, _⟩ => show win6_3.index t (0 : Fin 2) * 10000 + 1 * p.val = t.val * 10000 + p.val; rw [e0]; omega
  | ⟨1, _⟩ => show win6_3.index t (1 : Fin 2) * 64 + 1 * q.val = q.val; rw [e1]; omega

set_option maxHeartbeats 1000000 in
/-- What point t writes back is its block of rows of the whole-array function. -/
theorem flushed6_block (c : Dev nD) (t : Fin cfg6.N) :
    (dat6 (F := Ideal) V c).flushed 3 t
      = ((cfg6.win 3).blk t).view.read (Elt Ideal)
          (Cert.Gcn.resAct (N := 100000) (K := 64) (V c (Pipeline.arrRef spec6 0)) (V c (Pipeline.arrRef spec6 1))
            (V c (Pipeline.arrRef spec6 2))) := by
  show (cfg6.win 3).cut (grid6.coords t) ((dat6 V c).after 3 t) = _
  rw [after6_3]
  unfold out6_3
  rw [View.canon_unit_zero zeroOffsets6]
  simp only [View.ld_unit_zero (S := S10000x64) zeroOffsets6, View.ld_unit_zero (S := S1x64) zeroOffsets6]
  refine funext fun (j : S10000x64.Idx) => ?_
  obtain ⟨p, q, rfl⟩ : ∃ (p : Fin 10000) (q : Fin 64), j = ix2 p q := ⟨j 0, j 1, eq_ix2 j⟩
  have h : t.val * 10000 + p.val < 100000 := by
    have ht : t.val < 10 := lt_of_lt_of_eq t.isLt N_6
    have hp : p.val < 10000 := p.isLt
    omega
  show k6_pay1 (iblk6 V c 0 t) (iblk6 V c 1 t) (iblk6 V c 2 t) (ix2 p q)
    = Cert.Gcn.resAct (N := 100000) (K := 64) (V c (Pipeline.arrRef spec6 0)) (V c (Pipeline.arrRef spec6 1))
        (V c (Pipeline.arrRef spec6 2)) (((cfg6.win 3).blk t).view.emb (ix2 p q))
  rw [outputBlock6_emb t p q h, Cert.Gcn.resAct_apply, payload6_apply, messagesBlock6_apply V c t p q h,
    biasBlock6_apply V c t q, residualBlock6_apply V c t p q h]

/-- An entry of the output array is in point t's block iff its row is among the block's 10000 rows (and its column
    among the 64 columns). -/
theorem mem_outputBlock6 (t : Fin cfg6.N) (i : S100000x64.Idx) :
    i ∈ ((cfg6.win 3).blk t).view.set ↔ ∀ a : Fin 2, win6_3.index t a * S10000x64.size a ≤ (i a).val
      ∧ (i a).val < win6_3.index t a * S10000x64.size a + S10000x64.size a := by
  show i ∈ ((View.whole main_v93).slice (win6_3.rect t)).set ↔ _
  rw [View.set_slice_whole, Rect.mem_set_unit]
  exact Iff.rfl

/-- Every entry of the output array is in the block of the point its row divided by 10000 names, and every point
    writes its block back. -/
theorem outputCover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ : ∃ t : Fin cfg6.N, t.val = (i 0).val / 10000 :=
    ⟨⟨(i 0).val / 10000, lt_of_lt_of_eq (by omega) N_6.symm⟩, rfl⟩
  obtain ⟨-, -, -, -, -, -, e0, e1⟩ := indexMaps6 t
  refine ⟨t, flush6_3 t, ?_⟩
  rw [mem_outputBlock6]
  intro a
  match a with
  | ⟨0, _⟩ =>
    show win6_3.index t (0 : Fin 2) * 10000 ≤ (i 0).val ∧ (i 0).val < win6_3.index t (0 : Fin 2) * 10000 + 10000
    rw [e0, ht]; omega
  | ⟨1, _⟩ =>
    show win6_3.index t (1 : Fin 2) * 64 ≤ (i 1).val ∧ (i 1).val < win6_3.index t (1 : Fin 2) * 64 + 64
    rw [e1]; omega

/-- The output array after all ten write-backs: messages plus bias plus residual, rectified, as one function of the arrays
    the region finds. -/
theorem arr6 (c : Dev nD) :
    (Gen.dat6 (F := Ideal) V c).arrAt 3 cfg6.N
      = Cert.Gcn.resAct (N := 100000) (K := 64) (V c (Pipeline.arrRef spec6 0)) (V c (Pipeline.arrRef spec6 1))
          (V c (Pipeline.arrRef spec6 2)) :=
  (Gen.dat6 (F := Ideal) V c).arrAt_eq_of_cover 3 _ (fun t _ => flushed6_block V c t) outputCover6

end Cert.KernelIdeal.RegionValue

end
-- ==== Proof.Region7.lean ====
/-
  Region 7: ten blocks of 10000 rows, each multiplied by one whole 64-by-64 weight matrix, fill an array of
  100000 rows. Read entry by entry, a block's product is the plain sum over the contracted index of the block's row
  against the weight's column; the block at grid point t holds rows 10000·t … 10000·t + 9999 of the row-indexed
  operand, the weight window holds the whole weight matrix at every point, and the ten output blocks tile the
  array. So the array ends holding the matrix product of the two arrays the region found.
-/
import proofs.«122742_j46179488367199_1_alg».proof.Proof.Gen.KernelIdeal.Frame
import proofs.«122742_j46179488367199_1_alg».proof.Proof.GcnSpec
import proofs.«122742_j46179488367199_1_alg».proof.Proof.LibDenseRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem origin7 : (![0, 0] : Fin 2 → Nat) = fun _ => 0 := funext fun a => by fin_cases a <;> rfl

/-- Two functions on a block of 10000 rows and 64 columns agree when they agree at every (row, column). -/
theorem blockExt7 {α : Type} (f g : S10000x64.Idx → α)
    (h : ∀ (p : Fin 10000) (q : Fin 64), f (ix2 p q) = g (ix2 p q)) : f = g :=
  funext fun j => by rw [eq_ix2 j]; exact h _ _

/-- The body's product at entry (p, q): the sum over k of the block's (p, k) times the weight's (k, q). The casts of
    an operand to its own shape and the narrowing change nothing at exact values. -/
theorem product7_apply (x0 : Vec Ideal S10000x64 .f32) (x1 : Vec Ideal S64x64 .f32) (p : Fin 10000) (q : Fin 64) :
    k7_pay1 x0 x1 (ix2 p q) = ∑ k : Fin 64, x0 (ix2 p k) * x1 (ix2 k q) := by
  unfold k7_pay1
  refine (Cert.Dense.tileProduct_apply 10000 64 64 none bitsLt_bf16_f32 bitsLt_bf16_f32
    (shapeCast S10000x64 x0 shapeCasts_S10000x64_S10000x64) (shapeCast S64x64 x1 shapeCasts_S64x64_S64x64) p q).trans ?_
  simp only [shapeCast_self]

/-- The body's product at entry (p, q), when row p of the block is row r of a matrix A0 and column q of the weight
    block is column q of a matrix A1, is the (r, q) entry of the product A0 · A1. -/
theorem product7_entry (x0 : Vec Ideal S10000x64 .f32) (x1 : Vec Ideal S64x64 .f32)
    (A0 : Cert.Dense.Mat 100000 64) (A1 : Cert.Dense.Mat 64 64) (p : Fin 10000) (q : Fin 64) (r : Fin 100000)
    (h0 : ∀ k : Fin 64, x0 (ix2 p k) = A0 (ix2 r k)) (h1 : ∀ k : Fin 64, x1 (ix2 k q) = A1 (ix2 k q)) :
    k7_pay1 x0 x1 (ix2 p q) = Cert.Dense.mm A0 A1 (ix2 r q) := by
  rw [Cert.Dense.mm_apply]
  refine (product7_apply x0 x1 p q).trans ?_
  exact Finset.sum_congr rfl fun k _ => by rw [h0 k, h1 k]

/-- The index maps over the ten grid points: the row-blocked windows sit at block (t, 0), the weight window at
    block (0, 0). -/
theorem indexMaps7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The row-indexed operand's block at point t: its row p is row 10000·t + p of the array. -/
theorem rows7_read (c : Dev nD) (t : Fin cfg7.N) (p : Fin 10000) (k : Fin 64) (r : Fin 100000)
    (hr : r.val = t.val * 10000 + p.val) :
    (Gen.iblk7 (F := Ideal) V c 0 t : S10000x64.Idx → EReal) (ix2 p k)
      = (V c (Pipeline.arrRef spec7 0) : S100000x64.Idx → EReal) (ix2 r k) := by
  obtain ⟨e0, e1, -⟩ := indexMaps7 t
  unfold Gen.iblk7
  show (V c (Pipeline.arrRef spec7 0) : S100000x64.Idx → EReal) (((cfg7.win 0).blk t).view.emb (ix2 p k)) = _
  refine congrArg _ ?_
  funext a; apply Fin.ext
  match a with
  | ⟨0, _⟩ => show win7_0.index t (0 : Fin 2) * 10000 + 1 * p.val = r.val; rw [e0, hr]; omega
  | ⟨1, _⟩ => show win7_0.index t (1 : Fin 2) * 64 + 1 * k.val = k.val; rw [e1]; omega

/-- The weight's block at every point is the whole weight matrix. -/
theorem weights7_read (c : Dev nD) (t : Fin cfg7.N) (k : Fin 64) (q : Fin 64) :
    (Gen.iblk7 (F := Ideal) V c 1 t : S64x64.Idx → EReal) (ix2 k q)
      = (V c (Pipeline.arrRef spec7 1) : S64x64.Idx → EReal) (ix2 k q) := by
  obtain ⟨-, -, e2, e3, -⟩ := indexMaps7 t
  unfold Gen.iblk7
  show (V c (Pipeline.arrRef spec7 1) : S64x64.Idx → EReal) (((cfg7.win 1).blk t).view.emb (ix2 k q)) = _
  refine congrArg _ ?_
  funext a; apply Fin.ext
  match a with
  | ⟨0, _⟩ => show win7_1.index t (0 : Fin 2) * 64 + 1 * k.val = k.val; rw [e2]; omega
  | ⟨1, _⟩ => show win7_1.index t (1 : Fin 2) * 64 + 1 * q.val = q.val; rw [e3]; omega

/-- What point t writes back is block t of the product of the two arrays. -/
theorem flushed7_eq (c : Dev nD) (t : Fin cfg7.N) :
    (Gen.dat7 (F := Ideal) V c).flushed 2 t
      = ((cfg7.win 2).blk t).view.read (Elt Ideal)
          (Cert.Dense.mm (V c (Pipeline.arrRef spec7 0) : S100000x64.Idx → EReal)
            (V c (Pipeline.arrRef spec7 1) : S64x64.Idx → EReal)) := by
  show (cfg7.win 2).cut (grid7.coords t) ((Gen.dat7 V c).after 2 t) = _
  rw [Gen.after7_2]
  unfold Gen.out7_2
  rw [View.canon_unit_zero origin7]
  simp only [View.ld_unit_zero (S := S10000x64) origin7, View.ld_unit_zero (S := S64x64) origin7]
  obtain ⟨-, -, -, -, e4, e5⟩ := indexMaps7 t
  have hN : grid7.N = 10 := Gen.N_7
  have ht : t.val < 10 := hN ▸ t.isLt
  refine blockExt7 _ _ fun p q => ?_
  have hp : p.val < 10000 := p.isLt
  show k7_pay1 (Gen.iblk7 V c 0 t) (Gen.iblk7 V c 1 t) (ix2 p q)
    = Cert.Dense.mm (V c (Pipeline.arrRef spec7 0) : S100000x64.Idx → EReal)
        (V c (Pipeline.arrRef spec7 1) : S64x64.Idx → EReal) (((cfg7.win 2).blk t).view.emb (ix2 p q))
  have hi : ((cfg7.win 2).blk t).view.emb (ix2 p q)
      = (ix2 (⟨t.val * 10000 + p.val, by omega⟩ : Fin 100000) q : S100000x64.Idx) := by
    funext a; apply Fin.ext
    match a with
    | ⟨0, _⟩ => show win7_2.index t (0 : Fin 2) * 10000 + 1 * p.val = t.val * 10000 + p.val; rw [e4]; omega
    | ⟨1, _⟩ => show win7_2.index t (1 : Fin 2) * 64 + 1 * q.val = q.val; rw [e5]; omega
  refine Eq.trans ?_ (congrArg _ hi).symm
  exact product7_entry _ _ _ _ p q _ (fun k => rows7_read V c t p k _ rfl) (fun k => weights7_read V c t k q)

/-- An index of the array is in point t's output block iff each coordinate is in the block's range on its axis. -/
theorem mem_rows7 (t : Fin cfg7.N) (i : S100000x64.Idx) :
    i ∈ ((cfg7.win 2).blk t).view.set ↔ ∀ a : Fin 2, win7_2.index t a * S10000x64.size a ≤ (i a).val
      ∧ (i a).val < win7_2.index t a * S10000x64.size a + S10000x64.size a := by
  show i ∈ ((View.whole main_v96).slice (win7_2.rect t)).set ↔ _
  rw [View.set_slice_whole, Rect.mem_set_unit]
  exact Iff.rfl

/-- Row r of the array is in the output block of point r / 10000, and every point writes its block back. -/
theorem cover7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : grid7.N = 10 := Gen.N_7
  have hlt : (i 0).val / 10000 < grid7.N := by rw [hN]; omega
  obtain ⟨-, -, -, -, e4, e5⟩ := indexMaps7 ⟨(i 0).val / 10000, hlt⟩
  refine ⟨⟨(i 0).val / 10000, hlt⟩, Gen.flush7_2 _, ?_⟩
  rw [mem_rows7]
  intro a
  match a with
  | ⟨0, _⟩ =>
    show win7_2.index ⟨(i 0).val / 10000, hlt⟩ (0 : Fin 2) * 10000 ≤ (i 0).val
      ∧ (i 0).val < win7_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win7_2.index ⟨(i 0).val / 10000, hlt⟩ (1 : Fin 2) * 64 ≤ (i 1).val
      ∧ (i 1).val < win7_2.index ⟨(i 0).val / 10000, hlt⟩ (1 : Fin 2) * 64 + 64
    rw [e5]; omega

/-- The region's output array after all its write-backs: the matrix product of the two arrays it found. -/
theorem arr7 (V : (c : Dev nD) → (b : Ref sig .tc) → Buf (Elt Ideal) ((c : Thread nD τ).loc b)) (c : Dev nD) :
    (Gen.dat7 (F := Ideal) V c).arrAt 2 cfg7.N
      = Cert.Dense.mm (V c (Pipeline.arrRef spec7 0) : S100000x64.Idx → EReal)
          (V c (Pipeline.arrRef spec7 1) : S64x64.Idx → EReal) :=
  (Gen.dat7 (F := Ideal) V c).arrAt_eq_of_cover 2 _ (fun t _ => flushed7_eq V c t) cover7

end Cert.KernelIdeal.RegionValue

end
-- ==== Proof.Region8.lean ====
/-
  Region 8 of the tiled program: what its output array holds after every point of the grid has written its block back.

  Each of the ten points adds, on its block of 10000 rows, the aggregated messages, a one-row bias laid down the rows and
  the residual. Every entry of the result depends on the same entry of the two row-indexed
  operands and on one entry of the bias, so the block of point t is rows 10000·t … 10000·t + 9999 of ONE whole-array
  function of the arrays the region finds, and the ten blocks tile the 100000 rows: the array ends holding that function.
-/
import proofs.«122742_j46179488367199_1_alg».proof.Proof.Gen.KernelIdeal.Frame
import proofs.«122742_j46179488367199_1_alg».proof.Proof.GcnSpec
import proofs.«122742_j46179488367199_1_alg».proof.Proof.LibDenseRows
import proofs.«122742_j46179488367199_1_alg».proof.Proof.LibLreluRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as the constant function. -/
theorem zeroOffsets8 : (![0, 0] : Fin 2 → Nat) = fun _ => 0 := funext fun a => by fin_cases a <;> rfl

/-- The body's payload at entry (p, q) of a block: messages plus the bias row's entry q plus the residual. -/
theorem payload8_apply (x0 : Vec Ideal S10000x64 .f32) (x1 : Vec Ideal S1x64 .f32) (x2 : Vec Ideal S10000x64 .f32)
    (p : Fin 10000) (q : Fin 64) :
    k8_pay1 x0 x1 x2 (ix2 p q) = x0 (ix2 p q) + x1 (ix2 (0 : Fin 1) q) + x2 (ix2 p q) := by
  unfold k8_pay1
  show (addf (shapeCast S10000x64 x0 shapeCasts_S10000x64_S10000x64)
        (broadcastTo S10000x64 (shapeCast S1x64 x1 shapeCasts_S1x64_S1x64) broadcasts_S1x64_S10000x64)
          : FVec Ideal S10000x64 .f32) (ix2 p q)
      + (shapeCast S10000x64 x2 shapeCasts_S10000x64_S10000x64 : FVec Ideal S10000x64 .f32) (ix2 p q) = _
  rw [shapeCast_self x0, shapeCast_self x2]
  exact congrArg (fun z => z + x2 (ix2 p q))
    (Cert.Dense.tileAddRow_apply 10000 64 shapeCasts_S1x64_S1x64 broadcasts_S1x64_S10000x64 x0 x1 p q)

/-- The index maps over the ten points: the row-blocked windows (messages, residual, output) sit at block t of the rows
    and block 0 of the columns; the bias window is the whole one-row array. -/
theorem indexMaps8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

variable (V : (c : Dev nD) → (b : Ref sig .tc) → Buf (Elt Ideal) ((c : Thread nD τ).loc b))

/-- Entry (p, q) of the messages' block at point t is entry (10000·t + p, q) of the messages' array. -/
theorem messagesBlock8_apply (c : Dev nD) (t : Fin cfg8.N) (p : Fin 10000) (q : Fin 64)
    (h : t.val * 10000 + p.val < 100000) :
    (iblk8 (F := Ideal) V c 0 t : S10000x64.Idx → EReal) (ix2 p q)
      = (V c (Pipeline.arrRef spec8 0) : S100000x64.Idx → EReal) (ix2 ⟨t.val * 10000 + p.val, h⟩ q) := by
  obtain ⟨e0, e1, -⟩ := indexMaps8 t
  unfold iblk8
  show (V c (Pipeline.arrRef spec8 0) : S100000x64.Idx → EReal) (((cfg8.win 0).blk t).view.emb (ix2 p q)) = _
  refine congrArg _ ?_
  funext a; apply Fin.ext
  match a with
  | ⟨0, _⟩ => show win8_0.index t (0 : Fin 2) * 10000 + 1 * p.val = t.val * 10000 + p.val; rw [e0]; omega
  | ⟨1, _⟩ => show win8_0.index t (1 : Fin 2) * 64 + 1 * q.val = q.val; rw [e1]; omega

/-- Entry (0, q) of the bias block at any point is entry (0, q) of the one-row bias array. -/
theorem biasBlock8_apply (c : Dev nD) (t : Fin cfg8.N) (q : Fin 64) :
    (iblk8 (F := Ideal) V c 1 t : S1x64.Idx → EReal) (ix2 (0 : Fin 1) q)
      = (V c (Pipeline.arrRef spec8 1) : S1x64.Idx → EReal) (ix2 (0 : Fin 1) q) := by
  obtain ⟨-, -, e0, e1, -⟩ := indexMaps8 t
  unfold iblk8
  show (V c (Pipeline.arrRef spec8 1) : S1x64.Idx → EReal) (((cfg8.win 1).blk t).view.emb (ix2 (0 : Fin 1) q)) = _
  refine congrArg _ ?_
  funext a; apply Fin.ext
  match a with
  | ⟨0, _⟩ => show win8_1.index t (0 : Fin 2) * 1 + 1 * 0 = 0; rw [e0]
  | ⟨1, _⟩ => show win8_1.index t (1 : Fin 2) * 64 + 1 * q.val = q.val; rw [e1]; omega

/-- Entry (p, q) of the residual's block at point t is entry (10000·t + p, q) of the residual's array. -/
theorem residualBlock8_apply (c : Dev nD) (t : Fin cfg8.N) (p : Fin 10000) (q : Fin 64)
    (h : t.val * 10000 + p.val < 100000) :
    (iblk8 (F := Ideal) V c 2 t : S10000x64.Idx → EReal) (ix2 p q)
      = (V c (Pipeline.arrRef spec8 2) : S100000x64.Idx → EReal) (ix2 ⟨t.val * 10000 + p.val, h⟩ q) := by
  obtain ⟨-, -, -, -, e0, e1, -⟩ := indexMaps8 t
  unfold iblk8
  show (V c (Pipeline.arrRef spec8 2) : S100000x64.Idx → EReal) (((cfg8.win 2).blk t).view.emb (ix2 p q)) = _
  refine congrArg _ ?_
  funext a; apply Fin.ext
  match a with
  | ⟨0, _⟩ => show win8_2.index t (0 : Fin 2) * 10000 + 1 * p.val = t.val * 10000 + p.val; rw [e0]; omega
  | ⟨1, _⟩ => show win8_2.index t (1 : Fin 2) * 64 + 1 * q.val = q.val; rw [e1]; omega

/-- Entry (p, q) of the output's block at point t sits at entry (10000·t + p, q) of the output array. -/
theorem outputBlock8_emb (t : Fin cfg8.N) (p : Fin 10000) (q : Fin 64) (h : t.val * 10000 + p.val < 100000) :
    (((cfg8.win 3).blk t).view.emb (ix2 p q) : S100000x64.Idx) = ix2 ⟨t.val * 10000 + p.val, h⟩ q := by
  obtain ⟨-, -, -, -, -, -, e0, e1⟩ := indexMaps8 t
  funext a; apply Fin.ext
  match a with
  | ⟨0, _⟩ => show win8_3.index t (0 : Fin 2) * 10000 + 1 * p.val = t.val * 10000 + p.val; rw [e0]; omega
  | ⟨1, _⟩ => show win8_3.index t (1 : Fin 2) * 64 + 1 * q.val = q.val; rw [e1]; omega

set_option maxHeartbeats 1000000 in
/-- What point t writes back is its block of rows of the whole-array function. -/
theorem flushed8_block (c : Dev nD) (t : Fin cfg8.N) :
    (dat8 (F := Ideal) V c).flushed 3 t
      = ((cfg8.win 3).blk t).view.read (Elt Ideal)
          (Cert.Gcn.resAdd (N := 100000) (K := 64) (V c (Pipeline.arrRef spec8 0)) (V c (Pipeline.arrRef spec8 1))
            (V c (Pipeline.arrRef spec8 2))) := by
  show (cfg8.win 3).cut (grid8.coords t) ((dat8 V c).after 3 t) = _
  rw [after8_3]
  unfold out8_3
  rw [View.canon_unit_zero zeroOffsets8]
  simp only [View.ld_unit_zero (S := S10000x64) zeroOffsets8, View.ld_unit_zero (S := S1x64) zeroOffsets8]
  refine funext fun (j : S10000x64.Idx) => ?_
  obtain ⟨p, q, rfl⟩ : ∃ (p : Fin 10000) (q : Fin 64), j = ix2 p q := ⟨j 0, j 1, eq_ix2 j⟩
  have h : t.val * 10000 + p.val < 100000 := by
    have ht : t.val < 10 := lt_of_lt_of_eq t.isLt N_8
    have hp : p.val < 10000 := p.isLt
    omega
  show k8_pay1 (iblk8 V c 0 t) (iblk8 V c 1 t) (iblk8 V c 2 t) (ix2 p q)
    = Cert.Gcn.resAdd (N := 100000) (K := 64) (V c (Pipeline.arrRef spec8 0)) (V c (Pipeline.arrRef spec8 1))
        (V c (Pipeline.arrRef spec8 2)) (((cfg8.win 3).blk t).view.emb (ix2 p q))
  rw [outputBlock8_emb t p q h, Cert.Gcn.resAdd_apply, payload8_apply, messagesBlock8_apply V c t p q h,
    biasBlock8_apply V c t q, residualBlock8_apply V c t p q h]

/-- An entry of the output array is in point t's block iff its row is among the block's 10000 rows (and its column
    among the 64 columns). -/
theorem mem_outputBlock8 (t : Fin cfg8.N) (i : S100000x64.Idx) :
    i ∈ ((cfg8.win 3).blk t).view.set ↔ ∀ a : Fin 2, win8_3.index t a * S10000x64.size a ≤ (i a).val
      ∧ (i a).val < win8_3.index t a * S10000x64.size a + S10000x64.size a := by
  show i ∈ ((View.whole main_v113).slice (win8_3.rect t)).set ↔ _
  rw [View.set_slice_whole, Rect.mem_set_unit]
  exact Iff.rfl

/-- Every entry of the output array is in the block of the point its row divided by 10000 names, and every point
    writes its block back. -/
theorem outputCover8 (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  obtain ⟨t, ht⟩ : ∃ t : Fin cfg8.N, t.val = (i 0).val / 10000 :=
    ⟨⟨(i 0).val / 10000, lt_of_lt_of_eq (by omega) N_8.symm⟩, rfl⟩
  obtain ⟨-, -, -, -, -, -, e0, e1⟩ := indexMaps8 t
  refine ⟨t, flush8_3 t, ?_⟩
  rw [mem_outputBlock8]
  intro a
  match a with
  | ⟨0, _⟩ =>
    show win8_3.index t (0 : Fin 2) * 10000 ≤ (i 0).val ∧ (i 0).val < win8_3.index t (0 : Fin 2) * 10000 + 10000
    rw [e0, ht]; omega
  | ⟨1, _⟩ =>
    show win8_3.index t (1 : Fin 2) * 64 ≤ (i 1).val ∧ (i 1).val < win8_3.index t (1 : Fin 2) * 64 + 64
    rw [e1]; omega

/-- The output array after all ten write-backs: messages plus bias plus residual, as one function of the arrays
    the region finds. -/
theorem arr8 (c : Dev nD) :
    (Gen.dat8 (F := Ideal) V c).arrAt 3 cfg8.N
      = Cert.Gcn.resAdd (N := 100000) (K := 64) (V c (Pipeline.arrRef spec8 0)) (V c (Pipeline.arrRef spec8 1))
          (V c (Pipeline.arrRef spec8 2)) :=
  (Gen.dat8 (F := Ideal) V c).arrAt_eq_of_cover 3 _ (fun t _ => flushed8_block V c t) outputCover8

end Cert.KernelIdeal.RegionValue

end
-- ==== Proof.Region9.lean ====
/-
  Region 9 of the tiled program (the readout): what its output array holds after every point has written its block back.

  Each of the ten points passes its block of 10000 rows through three dense layers — a product with a whole weight
  matrix on the matrix unit (operands narrowed first, which changes nothing at exact values; accumulator zero), a one-row
  bias laid down the rows, and a rectifier after the first two. A dense layer reads one row of its row-indexed operand
  per row of its result, so the block of point t is rows 10000·t … 10000·t + 9999 of the readout of the whole array, and
  the ten blocks tile the 100000 rows.
-/
import proofs.«122742_j46179488367199_1_alg».proof.Proof.Gen.KernelIdeal.Frame
import proofs.«122742_j46179488367199_1_alg».proof.Proof.GcnSpec
import proofs.«122742_j46179488367199_1_alg».proof.Proof.LibDenseRows
import proofs.«122742_j46179488367199_1_alg».proof.Proof.LibLreluRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Dense
open Idealize.ShloMosaic.Pipeline (Dat)

/-- The zero offsets of a whole-buffer access, as the constant function. -/
theorem zeroOffsets9 : (![0, 0] : Fin 2 → Nat) = fun _ => 0 := funext fun a => by fin_cases a <;> rfl

/-! ## A dense layer of a tile, as a function of the tile -/

/-- A tile's rectified dense layer: the matrix unit's product of the narrowed tile and weights into a zero accumulator,
    plus a one-row bias laid down the rows, rectified against a splat zero, is the rectified dense stage of the tile. -/
theorem tileDenseAct (M K C : Nat) (d : DotDims ⟨2, ![M, K]⟩ ⟨2, ![K, C]⟩ ⟨2, ![M, C]⟩) (hd : d = DotDims.plain M K C)
    (h0 h1 : FTy.bf16.bits < FTy.f32.bits) (hs : (⟨2, ![1, C]⟩ : Shape).ShapeCasts ⟨2, ![1, C]⟩)
    (hb : (⟨2, ![1, C]⟩ : Shape).Broadcasts ⟨2, ![M, C]⟩)
    (x : FVec Ideal ⟨2, ![M, K]⟩ .f32) (w : FVec Ideal ⟨2, ![K, C]⟩ .f32) (b : FVec Ideal ⟨2, ![1, C]⟩ .f32) :
    maximumf (addf (matmul d none (truncf .bf16 x h0) (truncf .bf16 w h1) (constant ⟨2, ![M, C]⟩ .f32 0x00000000#32))
        (broadcastTo ⟨2, ![M, C]⟩ (shapeCast ⟨2, ![1, C]⟩ b hs) hb))
        (broadcast ⟨2, ![M, C]⟩ (Scalar.ofBits (F := Ideal) .f32 0x00000000#32))
      = actRow (mm x w) b := by
  subst hd
  funext j
  obtain ⟨p, k, rfl⟩ : ∃ (p : Fin M) (k : Fin C), j = ix2 p k := ⟨j 0, j 1, eq_ix2 j⟩
  rw [actRow_apply, mm_apply]
  refine (tileRelu_apply M C _ (ix2 p k)).trans ?_
  refine congrArg (fun z => max z 0) ?_
  refine (tileAddRow_apply M C hs hb _ b p k).trans ?_
  exact congrArg (fun z => z + b (ix2 (0 : Fin 1) k)) (tileProduct_apply M K C none h0 h1 x w p k)

/-- A tile's last dense layer: the same without the rectifier. -/
theorem tileDenseAdd (M K C : Nat) (d : DotDims ⟨2, ![M, K]⟩ ⟨2, ![K, C]⟩ ⟨2, ![M, C]⟩) (hd : d = DotDims.plain M K C)
    (h0 h1 : FTy.bf16.bits < FTy.f32.bits) (hs : (⟨2, ![1, C]⟩ : Shape).ShapeCasts ⟨2, ![1, C]⟩)
    (hb : (⟨2, ![1, C]⟩ : Shape).Broadcasts ⟨2, ![M, C]⟩)
    (x : FVec Ideal ⟨2, ![M, K]⟩ .f32) (w : FVec Ideal ⟨2, ![K, C]⟩ .f32) (b : FVec Ideal ⟨2, ![1, C]⟩ .f32) :
    addf (matmul d none (truncf .bf16 x h0) (truncf .bf16 w h1) (constant ⟨2, ![M, C]⟩ .f32 0x00000000#32))
        (broadcastTo ⟨2, ![M, C]⟩ (shapeCast ⟨2, ![1, C]⟩ b hs) hb)
      = addRowRow (mm x w) b := by
  subst hd
  funext j
  obtain ⟨p, k, rfl⟩ : ∃ (p : Fin M) (k : Fin C), j = ix2 p k := ⟨j 0, j 1, eq_ix2 j⟩
  rw [addRowRow_apply, mm_apply]
  refine (tileAddRow_apply M C hs hb _ b p k).trans ?_
  exact congrArg (fun z => z + b (ix2 (0 : Fin 1) k)) (tileProduct_apply M K C none h0 h1 x w p k)

/-- The body's payload is the readout of its block of rows. -/
theorem payload9_eq (x0 : Vec Ideal S10000x64 .f32) (x1 : Vec Ideal S64x32 .f32) (x2 : Vec Ideal S1x32 .f32)
    (x3 : Vec Ideal S32x16 .f32) (x4 : Vec Ideal S1x16 .f32) (x5 : Vec Ideal S16x1 .f32) (x6 : Vec Ideal S1x1 .f32) :
    k9_pay1 x0 x1 x2 x3 x4 x5 x6 = Cert.Gcn.readout (N := 10000) x0 x1 x2 x3 x4 x5 x6 := by
  unfold k9_pay1 Cert.Gcn.readout
  show addf (matmul dot_S10000x16_S16x1_S10000x1_1_0_0_1_n_n none
      (truncf .bf16 (maximumf (addf (matmul dot_S10000x32_S32x16_S10000x16_1_0_0_1_n_n none
        (truncf .bf16 (maximumf (addf (matmul dot_S10000x64_S64x32_S10000x32_1_0_0_1_n_n none
          (truncf .bf16 (shapeCast S10000x64 x0 shapeCasts_S10000x64_S10000x64) bitsLt_bf16_f32)
          (truncf .bf16 x1 bitsLt_bf16_f32) (constant S10000x32 .f32 0x00000000#32))
          (broadcastTo S10000x32 (shapeCast S1x32 x2 shapeCasts_S1x32_S1x32) broadcasts_S1x32_S10000x32))
          (broadcast S10000x32 (Scalar.ofBits (F := Ideal) .f32 0x00000000#32))) bitsLt_bf16_f32)
        (truncf .bf16 x3 bitsLt_bf16_f32) (constant S10000x16 .f32 0x00000000#32))
        (broadcastTo S10000x16 (shapeCast S1x16 x4 shapeCasts_S1x16_S1x16) broadcasts_S1x16_S10000x16))
        (broadcast S10000x16 (Scalar.ofBits (F := Ideal) .f32 0x00000000#32))) bitsLt_bf16_f32)
      (truncf .bf16 x5 bitsLt_bf16_f32) (constant S10000x1 .f32 0x00000000#32))
      (broadcastTo S10000x1 (shapeCast S1x1 x6 shapeCasts_S1x1_S1x1) broadcasts_S1x1_S10000x1) = _
  rw [shapeCast_self x0,
    tileDenseAct 10000 64 32 dot_S10000x64_S64x32_S10000x32_1_0_0_1_n_n rfl bitsLt_bf16_f32 bitsLt_bf16_f32
      shapeCasts_S1x32_S1x32 broadcasts_S1x32_S10000x32 x0 x1 x2,
    tileDenseAct 10000 32 16 dot_S10000x32_S32x16_S10000x16_1_0_0_1_n_n rfl bitsLt_bf16_f32 bitsLt_bf16_f32
      shapeCasts_S1x16_S1x16 broadcasts_S1x16_S10000x16 _ x3 x4,
    tileDenseAdd 10000 16 1 dot_S10000x16_S16x1_S10000x1_1_0_0_1_n_n rfl bitsLt_bf16_f32 bitsLt_bf16_f32
      shapeCasts_S1x1_S1x1 broadcasts_S1x1_S10000x1 _ x5 x6]

/-! ## A dense stage reads one row of its row-indexed operand per row of its result -/

theorem mm_rows {N N' K C : Nat} (X : Mat N K) (X' : Mat N' K) (W : Mat K C) (r : Fin N) (r' : Fin N')
    (h : ∀ k : Fin K, X (ix2 r k) = X' (ix2 r' k)) (q : Fin C) : mm X W (ix2 r q) = mm X' W (ix2 r' q) := by
  rw [mm_apply, mm_apply]
  exact Finset.sum_congr rfl fun k _ => by rw [h k]

theorem actRow_rows {N N' K : Nat} (A : Mat N K) (A' : Mat N' K) (b : Mat 1 K) (r : Fin N) (r' : Fin N')
    (h : ∀ k : Fin K, A (ix2 r k) = A' (ix2 r' k)) (k : Fin K) : actRow A b (ix2 r k) = actRow A' b (ix2 r' k) := by
  rw [actRow_apply, actRow_apply, h k]

theorem addRowRow_rows {N N' K : Nat} (A : Mat N K) (A' : Mat N' K) (b : Mat 1 K) (r : Fin N) (r' : Fin N')
    (h : ∀ k : Fin K, A (ix2 r k) = A' (ix2 r' k)) (k : Fin K) : addRowRow A b (ix2 r k) = addRowRow A' b (ix2 r' k) := by
  rw [addRowRow_apply, addRowRow_apply, h k]

/-- Row r of the readout of H is row r' of the readout of H' when H's row r is H''s row r'. -/
theorem readout_rows {N N' : Nat} (H : Mat N 64) (H' : Mat N' 64) (W0 : Mat 64 32) (b0 : Mat 1 32) (W1 : Mat 32 16)
    (b1 : Mat 1 16) (W2 : Mat 16 1) (b2 : Mat 1 1) (r : Fin N) (r' : Fin N')
    (h : ∀ k : Fin 64, H (ix2 r k) = H' (ix2 r' k)) (q : Fin 1) :
    Cert.Gcn.readout H W0 b0 W1 b1 W2 b2 (ix2 r q) = Cert.Gcn.readout H' W0 b0 W1 b1 W2 b2 (ix2 r' q) := by
  unfold Cert.Gcn.readout
  exact addRowRow_rows _ _ b2 r r' (fun k2 => mm_rows _ _ W2 r r' (fun k1 => actRow_rows _ _ b1 r r'
    (fun k1' => mm_rows _ _ W1 r r' (fun k0 => actRow_rows _ _ b0 r r' (fun k0' => mm_rows H H' W0 r r' h k0') k0) k1') k1) k2) q

/-! ## The blocks -/

/-- The index maps over the ten points: the rows' window and the output's sit at block t of the rows and block 0 of the
    columns. -/
theorem rowIndexMaps9 : ∀ t : Fin cfg9.N,
    win9_0.index t (0 : Fin 2) = t.val ∧ win9_0.index t (1 : Fin 2) = 0
    ∧ win9_7.index t (0 : Fin 2) = t.val ∧ win9_7.index t (1 : Fin 2) = 0 :=
  (by decide +kernel : ∀ t : Fin grid9.N, _)

/-- The weights' and biases' windows are their whole arrays at every point. -/
theorem wholeIndexMaps9 : ∀ t : Fin cfg9.N,
    (win9_1.index t (0 : Fin 2) = 0 ∧ win9_1.index t (1 : Fin 2) = 0)
    ∧ (win9_2.index t (0 : Fin 2) = 0 ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = 0 ∧ win9_5.index t (1 : Fin 2) = 0)
    ∧ (win9_6.index t (0 : Fin 2) = 0 ∧ win9_6.index t (1 : Fin 2) = 0) :=
  (by decide +kernel : ∀ t : Fin grid9.N, _)

variable (V : (c : Dev nD) → (b : Ref sig .tc) → Buf (Elt Ideal) ((c : Thread nD τ).loc b))

/-- Entry (p, k) of the rows' block at point t is entry (10000·t + p, k) of the rows' array. -/
theorem rowsBlock9_apply (c : Dev nD) (t : Fin cfg9.N) (p : Fin 10000) (k : Fin 64)
    (h : t.val * 10000 + p.val < 100000) :
    (iblk9 (F := Ideal) V c 0 t : S10000x64.Idx → EReal) (ix2 p k)
      = (V c (Pipeline.arrRef spec9 0) : S100000x64.Idx → EReal) (ix2 ⟨t.val * 10000 + p.val, h⟩ k) := by
  obtain ⟨e0, e1, -⟩ := rowIndexMaps9 t
  unfold iblk9
  show (V c (Pipeline.arrRef spec9 0) : S100000x64.Idx → EReal) (((cfg9.win 0).blk t).view.emb (ix2 p k)) = _
  refine congrArg _ ?_
  funext a; apply Fin.ext
  match a with
  | ⟨0, _⟩ => show win9_0.index t (0 : Fin 2) * 10000 + 1 * p.val = t.val * 10000 + p.val; rw [e0]; omega
  | ⟨1, _⟩ => show win9_0.index t (1 : Fin 2) * 64 + 1 * k.val = k.val; rw [e1]; omega

/-- Window 1 is its whole array at every point: its block read is the array. -/
theorem firstWeightsBlock9 (c : Dev nD) (t : Fin cfg9.N) :
    (iblk9 (F := Ideal) V c 1 t : S64x32.Idx → EReal) = (V c (Pipeline.arrRef spec9 1) : S64x32.Idx → EReal) := by
  have e0 : win9_1.index t (0 : Fin 2) = 0 := (wholeIndexMaps9 t).1.1
  have e1 : win9_1.index t (1 : Fin 2) = 0 := (wholeIndexMaps9 t).1.2
  funext j
  obtain ⟨a, b, rfl⟩ : ∃ (a : Fin 64) (b : Fin 32), j = ix2 a b := ⟨j 0, j 1, eq_ix2 j⟩
  unfold iblk9
  show (V c (Pipeline.arrRef spec9 1) : S64x32.Idx → EReal) (((cfg9.win 1).blk t).view.emb (ix2 a b)) = _
  refine congrArg _ ?_
  funext d; apply Fin.ext
  match d with
  | ⟨0, _⟩ => show win9_1.index t (0 : Fin 2) * 64 + 1 * a.val = a.val; rw [e0]; omega
  | ⟨1, _⟩ => show win9_1.index t (1 : Fin 2) * 32 + 1 * b.val = b.val; rw [e1]; omega

/-- Window 2 is its whole array at every point: its block read is the array. -/
theorem firstBiasBlock9 (c : Dev nD) (t : Fin cfg9.N) :
    (iblk9 (F := Ideal) V c 2 t : S1x32.Idx → EReal) = (V c (Pipeline.arrRef spec9 2) : S1x32.Idx → EReal) := by
  have e0 : win9_2.index t (0 : Fin 2) = 0 := (wholeIndexMaps9 t).2.1.1
  have e1 : win9_2.index t (1 : Fin 2) = 0 := (wholeIndexMaps9 t).2.1.2
  funext j
  obtain ⟨a, b, rfl⟩ : ∃ (a : Fin 1) (b : Fin 32), j = ix2 a b := ⟨j 0, j 1, eq_ix2 j⟩
  unfold iblk9
  show (V c (Pipeline.arrRef spec9 2) : S1x32.Idx → EReal) (((cfg9.win 2).blk t).view.emb (ix2 a b)) = _
  refine congrArg _ ?_
  funext d; apply Fin.ext
  match d with
  | ⟨0, _⟩ => show win9_2.index t (0 : Fin 2) * 1 + 1 * a.val = a.val; rw [e0]; omega
  | ⟨1, _⟩ => show win9_2.index t (1 : Fin 2) * 32 + 1 * b.val = b.val; rw [e1]; omega

/-- Window 3 is its whole array at every point: its block read is the array. -/
theorem secondWeightsBlock9 (c : Dev nD) (t : Fin cfg9.N) :
    (iblk9 (F := Ideal) V c 3 t : S32x16.Idx → EReal) = (V c (Pipeline.arrRef spec9 3) : S32x16.Idx → EReal) := by
  have e0 : win9_3.index t (0 : Fin 2) = 0 := (wholeIndexMaps9 t).2.2.1.1
  have e1 : win9_3.index t (1 : Fin 2) = 0 := (wholeIndexMaps9 t).2.2.1.2
  funext j
  obtain ⟨a, b, rfl⟩ : ∃ (a : Fin 32) (b : Fin 16), j = ix2 a b := ⟨j 0, j 1, eq_ix2 j⟩
  unfold iblk9
  show (V c (Pipeline.arrRef spec9 3) : S32x16.Idx → EReal) (((cfg9.win 3).blk t).view.emb (ix2 a b)) = _
  refine congrArg _ ?_
  funext d; apply Fin.ext
  match d with
  | ⟨0, _⟩ => show win9_3.index t (0 : Fin 2) * 32 + 1 * a.val = a.val; rw [e0]; omega
  | ⟨1, _⟩ => show win9_3.index t (1 : Fin 2) * 16 + 1 * b.val = b.val; rw [e1]; omega

/-- Window 4 is its whole array at every point: its block read is the array. -/
theorem secondBiasBlock9 (c : Dev nD) (t : Fin cfg9.N) :
    (iblk9 (F := Ideal) V c 4 t : S1x16.Idx → EReal) = (V c (Pipeline.arrRef spec9 4) : S1x16.Idx → EReal) := by
  have e0 : win9_4.index t (0 : Fin 2) = 0 := (wholeIndexMaps9 t).2.2.2.1.1
  have e1 : win9_4.index t (1 : Fin 2) = 0 := (wholeIndexMaps9 t).2.2.2.1.2
  funext j
  obtain ⟨a, b, rfl⟩ : ∃ (a : Fin 1) (b : Fin 16), j = ix2 a b := ⟨j 0, j 1, eq_ix2 j⟩
  unfold iblk9
  show (V c (Pipeline.arrRef spec9 4) : S1x16.Idx → EReal) (((cfg9.win 4).blk t).view.emb (ix2 a b)) = _
  refine congrArg _ ?_
  funext d; apply Fin.ext
  match d with
  | ⟨0, _⟩ => show win9_4.index t (0 : Fin 2) * 1 + 1 * a.val = a.val; rw [e0]; omega
  | ⟨1, _⟩ => show win9_4.index t (1 : Fin 2) * 16 + 1 * b.val = b.val; rw [e1]; omega

/-- Window 5 is its whole array at every point: its block read is the array. -/
theorem lastWeightsBlock9 (c : Dev nD) (t : Fin cfg9.N) :
    (iblk9 (F := Ideal) V c 5 t : S16x1.Idx → EReal) = (V c (Pipeline.arrRef spec9 5) : S16x1.Idx → EReal) := by
  have e0 : win9_5.index t (0 : Fin 2) = 0 := (wholeIndexMaps9 t).2.2.2.2.1.1
  have e1 : win9_5.index t (1 : Fin 2) = 0 := (wholeIndexMaps9 t).2.2.2.2.1.2
  funext j
  obtain ⟨a, b, rfl⟩ : ∃ (a : Fin 16) (b : Fin 1), j = ix2 a b := ⟨j 0, j 1, eq_ix2 j⟩
  unfold iblk9
  show (V c (Pipeline.arrRef spec9 5) : S16x1.Idx → EReal) (((cfg9.win 5).blk t).view.emb (ix2 a b)) = _
  refine congrArg _ ?_
  funext d; apply Fin.ext
  match d with
  | ⟨0, _⟩ => show win9_5.index t (0 : Fin 2) * 16 + 1 * a.val = a.val; rw [e0]; omega
  | ⟨1, _⟩ => show win9_5.index t (1 : Fin 2) * 1 + 1 * b.val = b.val; rw [e1]; omega

/-- Window 6 is its whole array at every point: its block read is the array. -/
theorem lastBiasBlock9 (c : Dev nD) (t : Fin cfg9.N) :
    (iblk9 (F := Ideal) V c 6 t : S1x1.Idx → EReal) = (V c (Pipeline.arrRef spec9 6) : S1x1.Idx → EReal) := by
  have e0 : win9_6.index t (0 : Fin 2) = 0 := (wholeIndexMaps9 t).2.2.2.2.2.1
  have e1 : win9_6.index t (1 : Fin 2) = 0 := (wholeIndexMaps9 t).2.2.2.2.2.2
  funext j
  obtain ⟨a, b, rfl⟩ : ∃ (a : Fin 1) (b : Fin 1), j = ix2 a b := ⟨j 0, j 1, eq_ix2 j⟩
  unfold iblk9
  show (V c (Pipeline.arrRef spec9 6) : S1x1.Idx → EReal) (((cfg9.win 6).blk t).view.emb (ix2 a b)) = _
  refine congrArg _ ?_
  funext d; apply Fin.ext
  match d with
  | ⟨0, _⟩ => show win9_6.index t (0 : Fin 2) * 1 + 1 * a.val = a.val; rw [e0]; omega
  | ⟨1, _⟩ => show win9_6.index t (1 : Fin 2) * 1 + 1 * b.val = b.val; rw [e1]; omega

/-- Entry (p, q) of the output's block at point t sits at entry (10000·t + p, q) of the output array. -/
theorem outputBlock9_emb (t : Fin cfg9.N) (p : Fin 10000) (q : Fin 1) (h : t.val * 10000 + p.val < 100000) :
    (((cfg9.win 7).blk t).view.emb (ix2 p q) : S100000x1.Idx) = ix2 ⟨t.val * 10000 + p.val, h⟩ q := by
  obtain ⟨-, -, e0, e1⟩ := rowIndexMaps9 t
  funext a; apply Fin.ext
  match a with
  | ⟨0, _⟩ => show win9_7.index t (0 : Fin 2) * 10000 + 1 * p.val = t.val * 10000 + p.val; rw [e0]; omega
  | ⟨1, _⟩ => show win9_7.index t (1 : Fin 2) * 1 + 1 * q.val = q.val; rw [e1]; omega

set_option maxHeartbeats 1000000 in
/-- What point t writes back is its block of rows of the readout of the whole arrays. -/
theorem flushed9_block (c : Dev nD) (t : Fin cfg9.N) :
    (dat9 (F := Ideal) V c).flushed 7 t
      = ((cfg9.win 7).blk t).view.read (Elt Ideal)
          (Cert.Gcn.readout (N := 100000) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) := by
  show (cfg9.win 7).cut (grid9.coords t) ((dat9 V c).after 7 t) = _
  rw [after9_7]
  unfold out9_7
  rw [View.canon_unit_zero zeroOffsets9]
  simp only [View.ld_unit_zero (S := S10000x64) zeroOffsets9, View.ld_unit_zero (S := S64x32) zeroOffsets9,
    View.ld_unit_zero (S := S1x32) zeroOffsets9, View.ld_unit_zero (S := S32x16) zeroOffsets9,
    View.ld_unit_zero (S := S1x16) zeroOffsets9, View.ld_unit_zero (S := S16x1) zeroOffsets9,
    View.ld_unit_zero (S := S1x1) zeroOffsets9]
  refine funext fun (j : S10000x1.Idx) => ?_
  obtain ⟨p, q, rfl⟩ : ∃ (p : Fin 10000) (q : Fin 1), j = ix2 p q := ⟨j 0, j 1, eq_ix2 j⟩
  have h : t.val * 10000 + p.val < 100000 := by
    have ht : t.val < 10 := lt_of_lt_of_eq t.isLt N_9
    have hp : p.val < 10000 := p.isLt
    omega
  show k9_pay1 (iblk9 V c 0 t) (iblk9 V c 1 t) (iblk9 V c 2 t) (iblk9 V c 3 t) (iblk9 V c 4 t) (iblk9 V c 5 t)
      (iblk9 V c 6 t) (ix2 p q)
    = Cert.Gcn.readout (N := 100000) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (((cfg9.win 7).blk t).view.emb (ix2 p q))
  rw [outputBlock9_emb t p q h, payload9_eq, firstWeightsBlock9 V c t, firstBiasBlock9 V c t, secondWeightsBlock9 V c t,
    secondBiasBlock9 V c t, lastWeightsBlock9 V c t, lastBiasBlock9 V c t]
  exact readout_rows _ _ _ _ _ _ _ _ p ⟨t.val * 10000 + p.val, h⟩ (fun k => rowsBlock9_apply V c t p k h) q

/-- An entry of the output array is in point t's block iff its row is among the block's 10000 rows (and its column
    the one column). -/
theorem mem_outputBlock9 (t : Fin cfg9.N) (i : S100000x1.Idx) :
    i ∈ ((cfg9.win 7).blk t).view.set ↔ ∀ a : Fin 2, win9_7.index t a * S10000x1.size a ≤ (i a).val
      ∧ (i a).val < win9_7.index t a * S10000x1.size a + S10000x1.size a := by
  show i ∈ ((View.whole main_v117).slice (win9_7.rect t)).set ↔ _
  rw [View.set_slice_whole, Rect.mem_set_unit]
  exact Iff.rfl

/-- Every entry of the output array is in the block of the point its row divided by 10000 names, and every point
    writes its block back. -/
theorem outputCover9 (i : S100000x1.Idx) :
    ∃ t : Fin cfg9.N, (cfg9.win 7).flush t = true ∧ i ∈ ((cfg9.win 7).blk t).view.set := by
  have hi0 : (i 0).val < 100000 := (i 0).isLt
  have hi1 : (i 1).val < 1 := (i 1).isLt
  obtain ⟨t, ht⟩ : ∃ t : Fin cfg9.N, t.val = (i 0).val / 10000 :=
    ⟨⟨(i 0).val / 10000, lt_of_lt_of_eq (by omega) N_9.symm⟩, rfl⟩
  obtain ⟨-, -, e0, e1⟩ := rowIndexMaps9 t
  refine ⟨t, flush9_7 t, ?_⟩
  rw [mem_outputBlock9]
  intro a
  match a with
  | ⟨0, _⟩ =>
    show win9_7.index t (0 : Fin 2) * 10000 ≤ (i 0).val ∧ (i 0).val < win9_7.index t (0 : Fin 2) * 10000 + 10000
    rw [e0, ht]; omega
  | ⟨1, _⟩ =>
    show win9_7.index t (1 : Fin 2) * 1 ≤ (i 1).val ∧ (i 1).val < win9_7.index t (1 : Fin 2) * 1 + 1
    rw [e1]; omega

/-- The output array after all ten write-backs: the readout of the arrays the region finds. -/
theorem arr9 (c : Dev nD) :
    (Gen.dat9 (F := Ideal) V c).arrAt 7 cfg9.N
      = Cert.Gcn.readout (N := 100000) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (Gen.dat9 (F := Ideal) V c).arrAt_eq_of_cover 7 _ (fun t _ => flushed9_block V c t) outputCover9

end Cert.KernelIdeal.RegionValue

end
-- ==== Proof.Walk.lean ====
/-
  The idealized kernel program's result as the network function of its arguments.

  The program's buffer contents at the boundaries of its segments are a fold from the launch memory. Walking the fold
  forward: the host stretch before the first region leaves the edge lists, the edges' coefficients and the encoder's
  bias row; region 0 leaves the encoded features h0; then for each of the four layers the weight slice, region 2l+1's
  product h_l · Wg[l], the host aggregation of that product along the edges with the layer's bias row, and region
  2l+2's residual stage h_(l+1); finally the three readout bias rows and region 9's readout. Each region's output array
  is the whole-array function of what the region finds (the per-region value theorems); each host stretch is read at
  the buffers the next region needs; every other buffer a segment needs was left there by an earlier segment and kept
  since (the table of kept buffers).
-/
import proofs.«122742_j46179488367199_1_alg».proof.Proof.Gen.KernelIdeal.Frame
import proofs.«122742_j46179488367199_1_alg».proof.Proof.Keeps
import proofs.«122742_j46179488367199_1_alg».proof.Proof.Stretch
import proofs.«122742_j46179488367199_1_alg».proof.Proof.Net
import proofs.«122742_j46179488367199_1_alg».proof.Proof.Region0
import proofs.«122742_j46179488367199_1_alg».proof.Proof.Region1
import proofs.«122742_j46179488367199_1_alg».proof.Proof.Region2
import proofs.«122742_j46179488367199_1_alg».proof.Proof.Region3
import proofs.«122742_j46179488367199_1_alg».proof.Proof.Region4
import proofs.«122742_j46179488367199_1_alg».proof.Proof.Region5
import proofs.«122742_j46179488367199_1_alg».proof.Proof.Region6
import proofs.«122742_j46179488367199_1_alg».proof.Proof.Region7
import proofs.«122742_j46179488367199_1_alg».proof.Proof.Region8
import proofs.«122742_j46179488367199_1_alg».proof.Proof.Region9

set_option maxRecDepth 16384

noncomputable section

namespace Cert.KernelIdeal.Walk

open Cert.KernelIdeal Cert.KernelIdeal.Gen Cert.KernelIdeal.Facts₀ Cert.KernelIdeal.Facts
open Idealize.ShloMosaic Idealize.ShloMosaic.TcCoe Idealize.SL.Sem
open Cert.Gcn Cert.Gcn.Chains Cert.Dense

variable (m : (ℓ : Loc nD τ sig) → Buf (Elt Ideal) ℓ) (ρ : Dev nD → PrngReg) (c : Dev nD)

/-! ## Each region's output from what it finds -/

theorem region0 {X : (⟨S100000x64, .f32⟩ : BufTy).Contents (Elt Ideal)} {Wt : (⟨S64x64, .f32⟩ : BufTy).Contents (Elt Ideal)} {B : (⟨S1x64, .f32⟩ : BufTy).Contents (Elt Ideal)}
    (hx : W3 m ρ c (Proc.devRef .tc main_arg0) = X) (hw : W3 m ρ c (Proc.devRef .tc main_arg2) = Wt) (hb : W3 m ρ c (Proc.devRef .tc main_v32) = B) :
    W4 m ρ c (Proc.devRef .tc main_v33) = encode X Wt B := by
  subst hx hw hb
  exact (W4_arr m ρ c 3).trans (RegionValue.arr0 (V3 m ρ) c)

theorem region1 {H : (⟨S100000x64, .f32⟩ : BufTy).Contents (Elt Ideal)} {Wt : (⟨S64x64, .f32⟩ : BufTy).Contents (Elt Ideal)}
    (hh : W5 m ρ c (Proc.devRef .tc main_v33) = H) (hw : W5 m ρ c (Proc.devRef .tc main_v35) = Wt) :
    W6 m ρ c (Proc.devRef .tc main_v36) = mm H Wt := by
  subst hh hw
  exact (W6_arr m ρ c 2).trans (RegionValue.arr1 (V5 m ρ) c)

theorem region2 {Ag : (⟨S100000x64, .f32⟩ : BufTy).Contents (Elt Ideal)} {B : (⟨S1x64, .f32⟩ : BufTy).Contents (Elt Ideal)} {H : (⟨S100000x64, .f32⟩ : BufTy).Contents (Elt Ideal)}
    (ha : W7 m ρ c (Proc.devRef .tc main_v49) = Ag) (hb : W7 m ρ c (Proc.devRef .tc main_v52) = B) (hh : W7 m ρ c (Proc.devRef .tc main_v33) = H) :
    W8 m ρ c (Proc.devRef .tc main_v53) = resAct Ag B H := by
  subst ha hb hh
  exact (W8_arr m ρ c 3).trans (RegionValue.arr2 (V7 m ρ) c)

theorem region3 {H : (⟨S100000x64, .f32⟩ : BufTy).Contents (Elt Ideal)} {Wt : (⟨S64x64, .f32⟩ : BufTy).Contents (Elt Ideal)}
    (hh : W9 m ρ c (Proc.devRef .tc main_v53) = H) (hw : W9 m ρ c (Proc.devRef .tc main_v55) = Wt) :
    W10 m ρ c (Proc.devRef .tc main_v56) = mm H Wt := by
  subst hh hw
  exact (W10_arr m ρ c 2).trans (RegionValue.arr3 (V9 m ρ) c)

theorem region4 {Ag : (⟨S100000x64, .f32⟩ : BufTy).Contents (Elt Ideal)} {B : (⟨S1x64, .f32⟩ : BufTy).Contents (Elt Ideal)} {H : (⟨S100000x64, .f32⟩ : BufTy).Contents (Elt Ideal)}
    (ha : W11 m ρ c (Proc.devRef .tc main_v69) = Ag) (hb : W11 m ρ c (Proc.devRef .tc main_v72) = B) (hh : W11 m ρ c (Proc.devRef .tc main_v53) = H) :
    W12 m ρ c (Proc.devRef .tc main_v73) = resAct Ag B H := by
  subst ha hb hh
  exact (W12_arr m ρ c 3).trans (RegionValue.arr4 (V11 m ρ) c)

theorem region5 {H : (⟨S100000x64, .f32⟩ : BufTy).Contents (Elt Ideal)} {Wt : (⟨S64x64, .f32⟩ : BufTy).Contents (Elt Ideal)}
    (hh : W13 m ρ c (Proc.devRef .tc main_v73) = H) (hw : W13 m ρ c (Proc.devRef .tc main_v75) = Wt) :
    W14 m ρ c (Proc.devRef .tc main_v76) = mm H Wt := by
  subst hh hw
  exact (W14_arr m ρ c 2).trans (RegionValue.arr5 (V13 m ρ) c)

theorem region6 {Ag : (⟨S100000x64, .f32⟩ : BufTy).Contents (Elt Ideal)} {B : (⟨S1x64, .f32⟩ : BufTy).Contents (Elt Ideal)} {H : (⟨S100000x64, .f32⟩ : BufTy).Contents (Elt Ideal)}
    (ha : W15 m ρ c (Proc.devRef .tc main_v89) = Ag) (hb : W15 m ρ c (Proc.devRef .tc main_v92) = B) (hh : W15 m ρ c (Proc.devRef .tc main_v73) = H) :
    W16 m ρ c (Proc.devRef .tc main_v93) = resAct Ag B H := by
  subst ha hb hh
  exact (W16_arr m ρ c 3).trans (RegionValue.arr6 (V15 m ρ) c)

theorem region7 {H : (⟨S100000x64, .f32⟩ : BufTy).Contents (Elt Ideal)} {Wt : (⟨S64x64, .f32⟩ : BufTy).Contents (Elt Ideal)}
    (hh : W17 m ρ c (Proc.devRef .tc main_v93) = H) (hw : W17 m ρ c (Proc.devRef .tc main_v95) = Wt) :
    W18 m ρ c (Proc.devRef .tc main_v96) = mm H Wt := by
  subst hh hw
  exact (W18_arr m ρ c 2).trans (RegionValue.arr7 (V17 m ρ) c)

theorem region8 {Ag : (⟨S100000x64, .f32⟩ : BufTy).Contents (Elt Ideal)} {B : (⟨S1x64, .f32⟩ : BufTy).Contents (Elt Ideal)} {H : (⟨S100000x64, .f32⟩ : BufTy).Contents (Elt Ideal)}
    (ha : W19 m ρ c (Proc.devRef .tc main_v109) = Ag) (hb : W19 m ρ c (Proc.devRef .tc main_v112) = B) (hh : W19 m ρ c (Proc.devRef .tc main_v93) = H) :
    W20 m ρ c (Proc.devRef .tc main_v113) = resAdd Ag B H := by
  subst ha hb hh
  exact (W20_arr m ρ c 3).trans (RegionValue.arr8 (V19 m ρ) c)

theorem region9 {H : (⟨S100000x64, .f32⟩ : BufTy).Contents (Elt Ideal)} {W0' : (⟨S64x32, .f32⟩ : BufTy).Contents (Elt Ideal)} {B0 : (⟨S1x32, .f32⟩ : BufTy).Contents (Elt Ideal)} {W1' : (⟨S32x16, .f32⟩ : BufTy).Contents (Elt Ideal)}
    {B1 : (⟨S1x16, .f32⟩ : BufTy).Contents (Elt Ideal)} {W2' : (⟨S16x1, .f32⟩ : BufTy).Contents (Elt Ideal)} {B2 : (⟨S1x1, .f32⟩ : BufTy).Contents (Elt Ideal)}
    (hh : W21 m ρ c (Proc.devRef .tc main_v113) = H) (h0' : W21 m ρ c (Proc.devRef .tc main_arg6) = W0') (hb0 : W21 m ρ c (Proc.devRef .tc main_v114) = B0)
    (h1' : W21 m ρ c (Proc.devRef .tc main_arg8) = W1') (hb1 : W21 m ρ c (Proc.devRef .tc main_v115) = B1)
    (h2' : W21 m ρ c (Proc.devRef .tc main_arg10) = W2') (hb2 : W21 m ρ c (Proc.devRef .tc main_v116) = B2) :
    W22 m ρ c (Proc.devRef .tc main_v117) = readout H W0' B0 W1' B1 W2' B2 := by
  subst hh h0' hb0 h1' hb1 h2' hb2
  exact (W22_arr m ρ c 7).trans (RegionValue.arr9 (V21 m ρ) c)

/-- The aggregation respects equal operands. -/
theorem aggOf_congr {a a' : (⟨S100000x64, .f32⟩ : BufTy).Contents (Elt Ideal)} {s s' d d' : (⟨S1700000, .i32⟩ : BufTy).Contents (Elt Ideal)} {w w' : (⟨S1700000, .f32⟩ : BufTy).Contents (Elt Ideal)}
    (ha : a = a') (hs : s = s') (hd : d = d') (hw : w = w') : aggOf a s d w = aggOf a' s' d' w' := by
  subst ha hs hd hw; rfl

/-! ## The contents at the boundaries -/

/-! ### Before and after region 0 -/

theorem src3 : W3 m ρ c (Proc.devRef .tc main_v3) = srcOf (m ((c : Thread nD τ).loc main_arg1)) := Stretch.pre_src (W0 m ρ c)
theorem dst3 : W3 m ρ c (Proc.devRef .tc main_v6) = dstOf (m ((c : Thread nD τ).loc main_arg1)) := Stretch.pre_dst (W0 m ρ c)
theorem coef3 : W3 m ρ c (Proc.devRef .tc main_v31) = coef (m ((c : Thread nD τ).loc main_arg1)) := Stretch.pre_coef (W0 m ρ c)
theorem bias3 : W3 m ρ c (Proc.devRef .tc main_v32) = row64 (m ((c : Thread nD τ).loc main_arg3)) := Stretch.pre_bias (W0 m ρ c)
theorem x3 : W3 m ρ c (Proc.devRef .tc main_arg0) = (m ((c : Thread nD τ).loc main_arg0)) := Stretch.pre_x (W0 m ρ c)
theorem wenc3 : W3 m ρ c (Proc.devRef .tc main_arg2) = (m ((c : Thread nD τ).loc main_arg2)) := Stretch.pre_wenc (W0 m ρ c)

/-- Region 0 leaves the encoded features. -/
theorem enc4 : W4 m ρ c (Proc.devRef .tc main_v33) = (h0 (m ((c : Thread nD τ).loc main_arg0)) (m ((c : Thread nD τ).loc main_arg2)) (m ((c : Thread nD τ).loc main_arg3))) :=
  region0 m ρ c (x3 m ρ c) (wenc3 m ρ c) (bias3 m ρ c)

/-! ### What every layer finds where an earlier segment left it -/

theorem wg4 : W4 m ρ c (Proc.devRef .tc main_arg4) = (m ((c : Thread nD τ).loc main_arg4)) := Keeps.keep_arg4_4_0 m ρ c
theorem wg8 : W8 m ρ c (Proc.devRef .tc main_arg4) = (m ((c : Thread nD τ).loc main_arg4)) := (Keeps.keep_arg4_8_4 m ρ c).trans (wg4 m ρ c)
theorem wg12 : W12 m ρ c (Proc.devRef .tc main_arg4) = (m ((c : Thread nD τ).loc main_arg4)) := (Keeps.keep_arg4_12_8 m ρ c).trans (wg8 m ρ c)
theorem wg16 : W16 m ρ c (Proc.devRef .tc main_arg4) = (m ((c : Thread nD τ).loc main_arg4)) := (Keeps.keep_arg4_16_12 m ρ c).trans (wg12 m ρ c)
theorem bg6 : W6 m ρ c (Proc.devRef .tc main_arg5) = (m ((c : Thread nD τ).loc main_arg5)) := Keeps.keep_arg5_6_0 m ρ c
theorem bg10 : W10 m ρ c (Proc.devRef .tc main_arg5) = (m ((c : Thread nD τ).loc main_arg5)) := (Keeps.keep_arg5_10_6 m ρ c).trans (bg6 m ρ c)
theorem bg14 : W14 m ρ c (Proc.devRef .tc main_arg5) = (m ((c : Thread nD τ).loc main_arg5)) := (Keeps.keep_arg5_14_10 m ρ c).trans (bg10 m ρ c)
theorem bg18 : W18 m ρ c (Proc.devRef .tc main_arg5) = (m ((c : Thread nD τ).loc main_arg5)) := (Keeps.keep_arg5_18_14 m ρ c).trans (bg14 m ρ c)
theorem src6 : W6 m ρ c (Proc.devRef .tc main_v3) = srcOf (m ((c : Thread nD τ).loc main_arg1)) := (Keeps.keep_v3_6_3 m ρ c).trans (src3 m ρ c)
theorem src10 : W10 m ρ c (Proc.devRef .tc main_v3) = srcOf (m ((c : Thread nD τ).loc main_arg1)) := (Keeps.keep_v3_10_6 m ρ c).trans (src6 m ρ c)
theorem src14 : W14 m ρ c (Proc.devRef .tc main_v3) = srcOf (m ((c : Thread nD τ).loc main_arg1)) := (Keeps.keep_v3_14_10 m ρ c).trans (src10 m ρ c)
theorem src18 : W18 m ρ c (Proc.devRef .tc main_v3) = srcOf (m ((c : Thread nD τ).loc main_arg1)) := (Keeps.keep_v3_18_14 m ρ c).trans (src14 m ρ c)
theorem dst6 : W6 m ρ c (Proc.devRef .tc main_v6) = dstOf (m ((c : Thread nD τ).loc main_arg1)) := (Keeps.keep_v6_6_3 m ρ c).trans (dst3 m ρ c)
theorem dst10 : W10 m ρ c (Proc.devRef .tc main_v6) = dstOf (m ((c : Thread nD τ).loc main_arg1)) := (Keeps.keep_v6_10_6 m ρ c).trans (dst6 m ρ c)
theorem dst14 : W14 m ρ c (Proc.devRef .tc main_v6) = dstOf (m ((c : Thread nD τ).loc main_arg1)) := (Keeps.keep_v6_14_10 m ρ c).trans (dst10 m ρ c)
theorem dst18 : W18 m ρ c (Proc.devRef .tc main_v6) = dstOf (m ((c : Thread nD τ).loc main_arg1)) := (Keeps.keep_v6_18_14 m ρ c).trans (dst14 m ρ c)
theorem coef6 : W6 m ρ c (Proc.devRef .tc main_v31) = coef (m ((c : Thread nD τ).loc main_arg1)) := (Keeps.keep_v31_6_3 m ρ c).trans (coef3 m ρ c)
theorem coef10 : W10 m ρ c (Proc.devRef .tc main_v31) = coef (m ((c : Thread nD τ).loc main_arg1)) := (Keeps.keep_v31_10_6 m ρ c).trans (coef6 m ρ c)
theorem coef14 : W14 m ρ c (Proc.devRef .tc main_v31) = coef (m ((c : Thread nD τ).loc main_arg1)) := (Keeps.keep_v31_14_10 m ρ c).trans (coef10 m ρ c)
theorem coef18 : W18 m ρ c (Proc.devRef .tc main_v31) = coef (m ((c : Thread nD τ).loc main_arg1)) := (Keeps.keep_v31_18_14 m ρ c).trans (coef14 m ρ c)

/-! ### The four layers -/

/-- Layer 0: regions 1 and 2 and the stretches before them. -/
theorem layer0 : W8 m ρ c (Proc.devRef .tc main_v53) = (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) := by
  have hH := enc4 m ρ c
  have h5 : W5 m ρ c (Proc.devRef .tc main_v33) = (h0 (m ((c : Thread nD τ).loc main_arg0)) (m ((c : Thread nD τ).loc main_arg2)) (m ((c : Thread nD τ).loc main_arg3))) := (Keeps.keep_v33_5_4 m ρ c).trans hH
  have w5 : W5 m ρ c (Proc.devRef .tc main_v35) = wg0 (m ((c : Thread nD τ).loc main_arg4)) :=
    (Stretch.weights0 (W4 m ρ c)).trans (congrArg wg0 (wg4 m ρ c))
  have p6 := region1 m ρ c h5 w5
  have a7 : W7 m ρ c (Proc.devRef .tc main_v49) = conv (m ((c : Thread nD τ).loc main_arg1)) (h0 (m ((c : Thread nD τ).loc main_arg0)) (m ((c : Thread nD τ).loc main_arg2)) (m ((c : Thread nD τ).loc main_arg3))) (wg0 (m ((c : Thread nD τ).loc main_arg4))) :=
    (Stretch.agg0 (W6 m ρ c)).trans (aggOf_congr p6 (src6 m ρ c) (dst6 m ρ c) (coef6 m ρ c))
  have b7 : W7 m ρ c (Proc.devRef .tc main_v52) = row64 (bg0 (m ((c : Thread nD τ).loc main_arg5))) :=
    (Stretch.bias0 (W6 m ρ c)).trans (congrArg (fun z => row64 (bg0 z)) (bg6 m ρ c))
  have r7 : W7 m ρ c (Proc.devRef .tc main_v33) = (h0 (m ((c : Thread nD τ).loc main_arg0)) (m ((c : Thread nD τ).loc main_arg2)) (m ((c : Thread nD τ).loc main_arg3))) := (Keeps.keep_v33_7_4 m ρ c).trans hH
  exact region2 m ρ c a7 b7 r7

/-- Layer 1: regions 3 and 4. -/
theorem layer1 : W12 m ρ c (Proc.devRef .tc main_v73) = (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) := by
  have hH := layer0 m ρ c
  have h9 : W9 m ρ c (Proc.devRef .tc main_v53) = (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) := (Keeps.keep_v53_9_8 m ρ c).trans hH
  have w9 : W9 m ρ c (Proc.devRef .tc main_v55) = wg1 (m ((c : Thread nD τ).loc main_arg4)) :=
    (Stretch.weights1 (W8 m ρ c)).trans (congrArg wg1 (wg8 m ρ c))
  have p10 := region3 m ρ c h9 w9
  have a11 : W11 m ρ c (Proc.devRef .tc main_v69) = conv (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) :=
    (Stretch.agg1 (W10 m ρ c)).trans (aggOf_congr p10 (src10 m ρ c) (dst10 m ρ c) (coef10 m ρ c))
  have b11 : W11 m ρ c (Proc.devRef .tc main_v72) = row64 (bg1 (m ((c : Thread nD τ).loc main_arg5))) :=
    (Stretch.bias1 (W10 m ρ c)).trans (congrArg (fun z => row64 (bg1 z)) (bg10 m ρ c))
  have r11 : W11 m ρ c (Proc.devRef .tc main_v53) = (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) := (Keeps.keep_v53_11_8 m ρ c).trans hH
  exact region4 m ρ c a11 b11 r11

/-- Layer 2: regions 5 and 6. -/
theorem layer2 : W16 m ρ c (Proc.devRef .tc main_v93) = (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) := by
  have hH := layer1 m ρ c
  have h13 : W13 m ρ c (Proc.devRef .tc main_v73) = (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) := (Keeps.keep_v73_13_12 m ρ c).trans hH
  have w13 : W13 m ρ c (Proc.devRef .tc main_v75) = wg2 (m ((c : Thread nD τ).loc main_arg4)) :=
    (Stretch.weights2 (W12 m ρ c)).trans (congrArg wg2 (wg12 m ρ c))
  have p14 := region5 m ρ c h13 w13
  have a15 : W15 m ρ c (Proc.devRef .tc main_v89) = conv (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) :=
    (Stretch.agg2 (W14 m ρ c)).trans (aggOf_congr p14 (src14 m ρ c) (dst14 m ρ c) (coef14 m ρ c))
  have b15 : W15 m ρ c (Proc.devRef .tc main_v92) = row64 (bg2 (m ((c : Thread nD τ).loc main_arg5))) :=
    (Stretch.bias2 (W14 m ρ c)).trans (congrArg (fun z => row64 (bg2 z)) (bg14 m ρ c))
  have r15 : W15 m ρ c (Proc.devRef .tc main_v73) = (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) := (Keeps.keep_v73_15_12 m ρ c).trans hH
  exact region6 m ρ c a15 b15 r15

/-- Layer 3, not rectified: regions 7 and 8. -/
theorem layer3 : W20 m ρ c (Proc.devRef .tc main_v113) = (lastLayer (m ((c : Thread nD τ).loc main_arg1)) (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) (wg3 (m ((c : Thread nD τ).loc main_arg4))) (bg3 (m ((c : Thread nD τ).loc main_arg5)))) := by
  have hH := layer2 m ρ c
  have h17 : W17 m ρ c (Proc.devRef .tc main_v93) = (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) := (Keeps.keep_v93_17_16 m ρ c).trans hH
  have w17 : W17 m ρ c (Proc.devRef .tc main_v95) = wg3 (m ((c : Thread nD τ).loc main_arg4)) :=
    (Stretch.weights3 (W16 m ρ c)).trans (congrArg wg3 (wg16 m ρ c))
  have p18 := region7 m ρ c h17 w17
  have a19 : W19 m ρ c (Proc.devRef .tc main_v109) = conv (m ((c : Thread nD τ).loc main_arg1)) (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) (wg3 (m ((c : Thread nD τ).loc main_arg4))) :=
    (Stretch.agg3 (W18 m ρ c)).trans (aggOf_congr p18 (src18 m ρ c) (dst18 m ρ c) (coef18 m ρ c))
  have b19 : W19 m ρ c (Proc.devRef .tc main_v112) = row64 (bg3 (m ((c : Thread nD τ).loc main_arg5))) :=
    (Stretch.bias3 (W18 m ρ c)).trans (congrArg (fun z => row64 (bg3 z)) (bg18 m ρ c))
  have r19 : W19 m ρ c (Proc.devRef .tc main_v93) = (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) := (Keeps.keep_v93_19_16 m ρ c).trans hH
  exact region8 m ρ c a19 b19 r19

/-! ### The readout -/

/-- The result buffer at the last boundary is the network's output of the launch arguments. -/
theorem result : W22 m ρ c (Proc.devRef .tc main_v117)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h21 : W21 m ρ c (Proc.devRef .tc main_v113) = (lastLayer (m ((c : Thread nD τ).loc main_arg1)) (layer (m ((c : Thread nD τ).loc main_arg1)) (layer (m ((c : Thread nD τ).loc main_arg1)) (layer (m ((c : Thread nD τ).loc main_arg1)) (h0 (m ((c : Thread nD τ).loc main_arg0)) (m ((c : Thread nD τ).loc main_arg2)) (m ((c : Thread nD τ).loc main_arg3))) (wg0 (m ((c : Thread nD τ).loc main_arg4))) (bg0 (m ((c : Thread nD τ).loc main_arg5)))) (wg1 (m ((c : Thread nD τ).loc main_arg4))) (bg1 (m ((c : Thread nD τ).loc main_arg5)))) (wg2 (m ((c : Thread nD τ).loc main_arg4))) (bg2 (m ((c : Thread nD τ).loc main_arg5)))) (wg3 (m ((c : Thread nD τ).loc main_arg4))) (bg3 (m ((c : Thread nD τ).loc main_arg5)))) := (Keeps.keep_v113_21_20 m ρ c).trans (layer3 m ρ c)
  have w0 : W21 m ρ c (Proc.devRef .tc main_arg6) = (m ((c : Thread nD τ).loc main_arg6)) := (Keeps.keep_arg6_22_21 m ρ c).symm.trans (W22_main_arg6 m ρ c)
  have w1 : W21 m ρ c (Proc.devRef .tc main_arg8) = (m ((c : Thread nD τ).loc main_arg8)) := (Keeps.keep_arg8_22_21 m ρ c).symm.trans (W22_main_arg8 m ρ c)
  have w2 : W21 m ρ c (Proc.devRef .tc main_arg10) = (m ((c : Thread nD τ).loc main_arg10)) := (Keeps.keep_arg10_22_21 m ρ c).symm.trans (W22_main_arg10 m ρ c)
  have b0 : W21 m ρ c (Proc.devRef .tc main_v114) = shapeCast _ (m ((c : Thread nD τ).loc main_arg7)) Facts₀.shapeCasts_S32_S1x32 :=
    (Stretch.readoutBias0 (W20 m ρ c)).trans (congrArg (fun z => shapeCast _ z Facts₀.shapeCasts_S32_S1x32)
      ((Keeps.keep_arg7_22_20 m ρ c).symm.trans (W22_main_arg7 m ρ c)))
  have b1 : W21 m ρ c (Proc.devRef .tc main_v115) = shapeCast _ (m ((c : Thread nD τ).loc main_arg9)) Facts₀.shapeCasts_S16_S1x16 :=
    (Stretch.readoutBias1 (W20 m ρ c)).trans (congrArg (fun z => shapeCast _ z Facts₀.shapeCasts_S16_S1x16)
      ((Keeps.keep_arg9_22_20 m ρ c).symm.trans (W22_main_arg9 m ρ c)))
  have b2 : W21 m ρ c (Proc.devRef .tc main_v116) = shapeCast _ (m ((c : Thread nD τ).loc main_arg11)) Facts₀.shapeCasts_S1_S1x1 :=
    (Stretch.readoutBias2 (W20 m ρ c)).trans (congrArg (fun z => shapeCast _ z Facts₀.shapeCasts_S1_S1x1)
      ((Keeps.keep_arg11_22_20 m ρ c).symm.trans (W22_main_arg11 m ρ c)))
  exact region9 m ρ c h21 w0 b0 w1 b1 w2 b2

end Cert.KernelIdeal.Walk

end
-- ==== Proof.RefNet.lean ====
/-
  The host program's result as the network function of its twelve arrays, at exact (extended real) values.

  The program is read one stage at a time. The edge lists with self-loops, the edges' coefficients, the layers' weight
  matrices and bias vectors are, operation for operation, the shared chains. A dot product is the matrix product; a
  bias vector broadcast to one row and down the rows, added, is the bias laid along every row; a maximum with a
  broadcast zero is the rectifier. Each layer's aggregation stretch (index wrap, gather, coefficient broadcasts,
  product, scatter-add into zeros) is the shared aggregation chain of the transformed features. The stages chain to
  the network: encoder, three rectified residual layers, one unrectified, and the three-layer readout.
-/
import proofs.«122742_j46179488367199_1_alg».proof.Proof.RefRead
import proofs.«122742_j46179488367199_1_alg».proof.Proof.Net
import proofs.«122742_j46179488367199_1_alg».proof.Proof.LibDenseRows

noncomputable section

namespace Cert.ReferenceIdeal.RefValue

open Cert.ReferenceIdeal Cert.ReferenceIdeal.ReadP Idealize.ShloMosaic Idealize.ShloMosaic.ValueIdx

/-! ## Dense stages of a host program as whole-array functions -/

/-- Two functions on a matrix's indices agree when they agree at every (row, column). -/
theorem matExt {M K : Nat} {α : Type} (f g : (⟨2, ![M, K]⟩ : Shape).Idx → α)
    (h : ∀ (p : Fin M) (q : Fin K), f (ix2 p q) = g (ix2 p q)) : f = g :=
  funext fun j => by rw [eq_ix2 j]; exact h _ _

/-- A host dot product of two matrices is the matrix product. -/
theorem hostMm (M K C : Nat) (x : FVec Ideal ⟨2, ![M, K]⟩ .f32) (w : FVec Ideal ⟨2, ![K, C]⟩ .f32) :
    Host.dotGeneral (DotDims.plain M K C) none x w = Cert.Dense.mm x w :=
  matExt _ _ fun p q => (Cert.Dense.hostProduct_apply M K C none x w p q).trans (Cert.Dense.mm_apply x w p q).symm

/-- A dot product plus a bias vector broadcast to one row and down the rows: the product with the bias along every row. -/
theorem hostDense (M K C : Nat) (h1 : (⟨1, ![C]⟩ : Shape).BroadcastsInDim ⟨2, ![1, C]⟩ ![1])
    (h2 : (⟨2, ![1, C]⟩ : Shape).BroadcastsInDim ⟨2, ![M, C]⟩ ![0, 1])
    (x : FVec Ideal ⟨2, ![M, K]⟩ .f32) (w : FVec Ideal ⟨2, ![K, C]⟩ .f32) (b : FVec Ideal ⟨1, ![C]⟩ .f32) :
    addf (Host.dotGeneral (DotDims.plain M K C) none x w)
        (broadcastInDim ⟨2, ![M, C]⟩ ![0, 1] h2 (broadcastInDim ⟨2, ![1, C]⟩ ![1] h1 b))
      = Cert.Dense.addRow (Cert.Dense.mm x w) b := by
  rw [hostMm]
  exact matExt _ _ fun p q =>
    (Cert.Dense.hostAddRow_apply M C h1 h2 _ b p q).trans (Cert.Dense.addRow_apply _ b p q).symm

/-- The same, rectified against a rank-0 zero broadcast over the array. -/
theorem hostDenseAct (M K C : Nat) (h1 : (⟨1, ![C]⟩ : Shape).BroadcastsInDim ⟨2, ![1, C]⟩ ![1])
    (h2 : (⟨2, ![1, C]⟩ : Shape).BroadcastsInDim ⟨2, ![M, C]⟩ ![0, 1])
    (h0 : (⟨0, ![]⟩ : Shape).BroadcastsInDim ⟨2, ![M, C]⟩ ![])
    (x : FVec Ideal ⟨2, ![M, K]⟩ .f32) (w : FVec Ideal ⟨2, ![K, C]⟩ .f32) (b : FVec Ideal ⟨1, ![C]⟩ .f32) :
    maximumf (addf (Host.dotGeneral (DotDims.plain M K C) none x w)
          (broadcastInDim ⟨2, ![M, C]⟩ ![0, 1] h2 (broadcastInDim ⟨2, ![1, C]⟩ ![1] h1 b)))
        (broadcastInDim ⟨2, ![M, C]⟩ ![] h0 (constant (F := Ideal) ⟨0, ![]⟩ .f32 0x00000000#32))
      = Cert.Dense.act (Cert.Dense.mm x w) b := by
  rw [hostDense]
  exact funext fun i => Cert.Dense.hostRelu_apply M C h0 _ i

/-- Messages plus a bias vector along every row plus the residual, rectified: the rectified residual stage with the
    bias as a one-row matrix. -/
theorem hostResAct (M K : Nat) (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (hc : (⟨1, ![K]⟩ : Shape).ShapeCasts ⟨2, ![1, K]⟩)
    (A R : FVec Ideal ⟨2, ![M, K]⟩ .f32) (b : FVec Ideal ⟨1, ![K]⟩ .f32) :
    maximumf (addf (addf A (broadcastInDim ⟨2, ![M, K]⟩ ![0, 1] h2 (broadcastInDim ⟨2, ![1, K]⟩ ![1] h1 b))) R)
        (broadcastInDim ⟨2, ![M, K]⟩ ![] h0 (constant (F := Ideal) ⟨0, ![]⟩ .f32 0x00000000#32))
      = Cert.Gcn.resAct A (shapeCast ⟨2, ![1, K]⟩ b hc) R :=
  matExt _ _ fun p q => by
    refine (Cert.Dense.hostRelu_apply M K h0 _ _).trans ?_
    rw [Cert.Gcn.resAct_apply, Cert.LibLreluRows.rowCast_apply]
    show max (addf A (broadcastInDim ⟨2, ![M, K]⟩ ![0, 1] h2 (broadcastInDim ⟨2, ![1, K]⟩ ![1] h1 b)) (ix2 p q)
      + R (ix2 p q)) 0 = _
    rw [Cert.Dense.hostAddRow_apply]

/-- The same without the rectifier. -/
theorem hostResAdd (M K : Nat) (h1 : (⟨1, ![K]⟩ : Shape).BroadcastsInDim ⟨2, ![1, K]⟩ ![1])
    (h2 : (⟨2, ![1, K]⟩ : Shape).BroadcastsInDim ⟨2, ![M, K]⟩ ![0, 1])
    (hc : (⟨1, ![K]⟩ : Shape).ShapeCasts ⟨2, ![1, K]⟩)
    (A R : FVec Ideal ⟨2, ![M, K]⟩ .f32) (b : FVec Ideal ⟨1, ![K]⟩ .f32) :
    addf (addf A (broadcastInDim ⟨2, ![M, K]⟩ ![0, 1] h2 (broadcastInDim ⟨2, ![1, K]⟩ ![1] h1 b))) R
      = Cert.Gcn.resAdd A (shapeCast ⟨2, ![1, K]⟩ b hc) R :=
  matExt _ _ fun p q => by
    rw [Cert.Gcn.resAdd_apply, Cert.LibLreluRows.rowCast_apply]
    show addf A (broadcastInDim ⟨2, ![M, K]⟩ ![0, 1] h2 (broadcastInDim ⟨2, ![1, K]⟩ ![1] h1 b)) (ix2 p q)
      + R (ix2 p q) = _
    rw [Cert.Dense.hostAddRow_apply]

/-! ## The shared chains -/

/-- The edges' sources, destinations and coefficients are the shared chains of the edge list. -/
theorem sources (x1 : (⟨S2x1600000, .i32⟩ : BufTy).Contents (Elt Ideal)) : val_main_v3 (F := Ideal) x1 = Cert.Gcn.Chains.srcOf x1 := rfl
theorem destinations (x1 : (⟨S2x1600000, .i32⟩ : BufTy).Contents (Elt Ideal)) : val_main_v6 (F := Ideal) x1 = Cert.Gcn.Chains.dstOf x1 := rfl
theorem coefficients (x1 : (⟨S2x1600000, .i32⟩ : BufTy).Contents (Elt Ideal)) : val_main_v31 (F := Ideal) x1 = Cert.Gcn.coef x1 := rfl

/-- The layers' weight matrices and bias vectors are the slices of the stacked arrays. -/
theorem weight0 (x4 : (⟨S4x64x64, .f32⟩ : BufTy).Contents (Elt Ideal)) : val_main_v37 (F := Ideal) x4 = Cert.Gcn.wg0 x4 := rfl
theorem weight1 (x4 : (⟨S4x64x64, .f32⟩ : BufTy).Contents (Elt Ideal)) : val_main_v60 (F := Ideal) x4 = Cert.Gcn.wg1 x4 := rfl
theorem weight2 (x4 : (⟨S4x64x64, .f32⟩ : BufTy).Contents (Elt Ideal)) : val_main_v83 (F := Ideal) x4 = Cert.Gcn.wg2 x4 := rfl
theorem weight3 (x4 : (⟨S4x64x64, .f32⟩ : BufTy).Contents (Elt Ideal)) : val_main_v106 (F := Ideal) x4 = Cert.Gcn.wg3 x4 := rfl
theorem bias0 (x5 : (⟨S4x64, .f32⟩ : BufTy).Contents (Elt Ideal)) : val_main_v53 (F := Ideal) x5 = Cert.Gcn.bg0 x5 := rfl
theorem bias1 (x5 : (⟨S4x64, .f32⟩ : BufTy).Contents (Elt Ideal)) : val_main_v76 (F := Ideal) x5 = Cert.Gcn.bg1 x5 := rfl
theorem bias2 (x5 : (⟨S4x64, .f32⟩ : BufTy).Contents (Elt Ideal)) : val_main_v99 (F := Ideal) x5 = Cert.Gcn.bg2 x5 := rfl
theorem bias3 (x5 : (⟨S4x64, .f32⟩ : BufTy).Contents (Elt Ideal)) : val_main_v122 (F := Ideal) x5 = Cert.Gcn.bg3 x5 := rfl

/-! ## The encoder -/

theorem encoder (x0 : (⟨S100000x64, .f32⟩ : BufTy).Contents (Elt Ideal)) (x2 : (⟨S64x64, .f32⟩ : BufTy).Contents (Elt Ideal)) (x3 : (⟨S64, .f32⟩ : BufTy).Contents (Elt Ideal)) : val_main_v35 (F := Ideal) x0 x2 x3 = Cert.Gcn.h0 x0 x2 x3 := by
  unfold val_main_v35 val_main_v34 val_main_v33 val_main_v32
  unfold Cert.Gcn.h0 Cert.Gcn.encode Cert.Gcn.row64
  exact (hostDense 100000 64 64 _ _ x0 x2 x3).trans (Cert.Dense.addRowRow_cast _ x3 _).symm

/-! ## Layer 0 -/

/-- The transformed features: the layer's input times its weight matrix. -/
theorem product0 (x0 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) :
    val_main_v38 (F := Ideal) x0 x2 x3 x4 = Cert.Dense.mm (val_main_v35 (F := Ideal) x0 x2 x3) (Cert.Gcn.wg0 x4) := by
  unfold val_main_v38
  rw [weight0]
  exact hostMm 100000 64 64 _ _

/-- The aggregation stretch is the shared chain applied to the transformed features, the edge lists and the
    coefficients: operation for operation the same term. -/
theorem gathered0 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) :
    val_main_v51 (F := Ideal) x0 x1 x2 x3 x4
      = Cert.Gcn.Chains.aggOf (val_main_v38 (F := Ideal) x0 x2 x3 x4) (val_main_v3 (F := Ideal) x1) (val_main_v6 (F := Ideal) x1) (val_main_v31 (F := Ideal) x1) := rfl

/-- The aggregated messages of the layer. -/
theorem messages0 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) :
    val_main_v51 (F := Ideal) x0 x1 x2 x3 x4 = Cert.Gcn.conv x1 (val_main_v35 (F := Ideal) x0 x2 x3) (Cert.Gcn.wg0 x4) := by
  rw [gathered0, product0, sources, destinations, coefficients]
  rfl

/-- The layer's output: messages plus bias plus the input, rectified. -/
theorem layerOut0 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v58 (F := Ideal) x0 x1 x2 x3 x4 x5
      = Cert.Gcn.layer x1 (val_main_v35 (F := Ideal) x0 x2 x3) (Cert.Gcn.wg0 x4) (Cert.Gcn.bg0 x5) := by
  unfold val_main_v58 val_main_v57 val_main_v56 val_main_v55 val_main_v54 val_main_call1_v0 val_main_call1_cst
  rw [messages0, bias0]
  unfold Cert.Gcn.layer Cert.Gcn.row64
  exact hostResAct 100000 64 _ _ _ _ _ _ _

/-! ## Layer 1 -/

/-- The transformed features: the layer's input times its weight matrix. -/
theorem product1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v61 (F := Ideal) x0 x1 x2 x3 x4 x5 = Cert.Dense.mm (val_main_v58 (F := Ideal) x0 x1 x2 x3 x4 x5) (Cert.Gcn.wg1 x4) := by
  unfold val_main_v61
  rw [weight1]
  exact hostMm 100000 64 64 _ _

/-- The aggregation stretch is the shared chain applied to the transformed features, the edge lists and the
    coefficients: operation for operation the same term. -/
theorem gathered1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v74 (F := Ideal) x0 x1 x2 x3 x4 x5
      = Cert.Gcn.Chains.aggOf (val_main_v61 (F := Ideal) x0 x1 x2 x3 x4 x5) (val_main_v3 (F := Ideal) x1) (val_main_v6 (F := Ideal) x1) (val_main_v31 (F := Ideal) x1) := rfl

/-- The aggregated messages of the layer. -/
theorem messages1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v74 (F := Ideal) x0 x1 x2 x3 x4 x5 = Cert.Gcn.conv x1 (val_main_v58 (F := Ideal) x0 x1 x2 x3 x4 x5) (Cert.Gcn.wg1 x4) := by
  rw [gathered1, product1, sources, destinations, coefficients]
  rfl

/-- The layer's output: messages plus bias plus the input, rectified. -/
theorem layerOut1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v81 (F := Ideal) x0 x1 x2 x3 x4 x5
      = Cert.Gcn.layer x1 (val_main_v58 (F := Ideal) x0 x1 x2 x3 x4 x5) (Cert.Gcn.wg1 x4) (Cert.Gcn.bg1 x5) := by
  unfold val_main_v81 val_main_v80 val_main_v79 val_main_v78 val_main_v77 val_main_call2_v0 val_main_call2_cst
  rw [messages1, bias1]
  unfold Cert.Gcn.layer Cert.Gcn.row64
  exact hostResAct 100000 64 _ _ _ _ _ _ _

/-! ## Layer 2 -/

/-- The transformed features: the layer's input times its weight matrix. -/
theorem product2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v84 (F := Ideal) x0 x1 x2 x3 x4 x5 = Cert.Dense.mm (val_main_v81 (F := Ideal) x0 x1 x2 x3 x4 x5) (Cert.Gcn.wg2 x4) := by
  unfold val_main_v84
  rw [weight2]
  exact hostMm 100000 64 64 _ _

/-- The aggregation stretch is the shared chain applied to the transformed features, the edge lists and the
    coefficients: operation for operation the same term. -/
theorem gathered2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v97 (F := Ideal) x0 x1 x2 x3 x4 x5
      = Cert.Gcn.Chains.aggOf (val_main_v84 (F := Ideal) x0 x1 x2 x3 x4 x5) (val_main_v3 (F := Ideal) x1) (val_main_v6 (F := Ideal) x1) (val_main_v31 (F := Ideal) x1) := rfl

/-- The aggregated messages of the layer. -/
theorem messages2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v97 (F := Ideal) x0 x1 x2 x3 x4 x5 = Cert.Gcn.conv x1 (val_main_v81 (F := Ideal) x0 x1 x2 x3 x4 x5) (Cert.Gcn.wg2 x4) := by
  rw [gathered2, product2, sources, destinations, coefficients]
  rfl

/-- The layer's output: messages plus bias plus the input, rectified. -/
theorem layerOut2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v104 (F := Ideal) x0 x1 x2 x3 x4 x5
      = Cert.Gcn.layer x1 (val_main_v81 (F := Ideal) x0 x1 x2 x3 x4 x5) (Cert.Gcn.wg2 x4) (Cert.Gcn.bg2 x5) := by
  unfold val_main_v104 val_main_v103 val_main_v102 val_main_v101 val_main_v100 val_main_call3_v0 val_main_call3_cst
  rw [messages2, bias2]
  unfold Cert.Gcn.layer Cert.Gcn.row64
  exact hostResAct 100000 64 _ _ _ _ _ _ _

/-! ## Layer 3 -/

/-- The transformed features: the layer's input times its weight matrix. -/
theorem product3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v107 (F := Ideal) x0 x1 x2 x3 x4 x5 = Cert.Dense.mm (val_main_v104 (F := Ideal) x0 x1 x2 x3 x4 x5) (Cert.Gcn.wg3 x4) := by
  unfold val_main_v107
  rw [weight3]
  exact hostMm 100000 64 64 _ _

/-- The aggregation stretch is the shared chain applied to the transformed features, the edge lists and the
    coefficients: operation for operation the same term. -/
theorem gathered3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v120 (F := Ideal) x0 x1 x2 x3 x4 x5
      = Cert.Gcn.Chains.aggOf (val_main_v107 (F := Ideal) x0 x1 x2 x3 x4 x5) (val_main_v3 (F := Ideal) x1) (val_main_v6 (F := Ideal) x1) (val_main_v31 (F := Ideal) x1) := rfl

/-- The aggregated messages of the layer. -/
theorem messages3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v120 (F := Ideal) x0 x1 x2 x3 x4 x5 = Cert.Gcn.conv x1 (val_main_v104 (F := Ideal) x0 x1 x2 x3 x4 x5) (Cert.Gcn.wg3 x4) := by
  rw [gathered3, product3, sources, destinations, coefficients]
  rfl

/-- The layer's output: messages plus bias plus the input. -/
theorem layerOut3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v126 (F := Ideal) x0 x1 x2 x3 x4 x5
      = Cert.Gcn.lastLayer x1 (val_main_v104 (F := Ideal) x0 x1 x2 x3 x4 x5) (Cert.Gcn.wg3 x4) (Cert.Gcn.bg3 x5) := by
  unfold val_main_v126 val_main_v125 val_main_v124 val_main_v123
  rw [messages3, bias3]
  unfold Cert.Gcn.lastLayer Cert.Gcn.row64
  exact hostResAdd 100000 64 _ _ _ _ _ _

/-! ## The four layers and the readout -/

theorem afterLayers (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) :
    val_main_v126 (F := Ideal) x0 x1 x2 x3 x4 x5 = Cert.Gcn.h4 x0 x1 x2 x3 x4 x5 := by
  rw [layerOut3, layerOut2, layerOut1, layerOut0, encoder]
  rfl

theorem readout1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) :
    val_main_v131 (F := Ideal) x0 x1 x2 x3 x4 x5 x6 x7 = Cert.Dense.act (Cert.Dense.mm (val_main_v126 (F := Ideal) x0 x1 x2 x3 x4 x5) x6) x7 := by
  unfold val_main_v131 val_main_v130 val_main_v129 val_main_v128 val_main_v127 val_main_call4_v0 val_main_call4_cst
  exact hostDenseAct 100000 64 32 _ _ _ _ x6 x7

theorem readout2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) :
    val_main_v136 (F := Ideal) x0 x1 x2 x3 x4 x5 x6 x7 x8 x9
      = Cert.Dense.act (Cert.Dense.mm (val_main_v131 (F := Ideal) x0 x1 x2 x3 x4 x5 x6 x7) x8) x9 := by
  unfold val_main_v136 val_main_v135 val_main_v134 val_main_v133 val_main_v132 val_main_call5_v0 val_main_call5_cst
  exact hostDenseAct 100000 32 16 _ _ _ _ x8 x9

theorem readout3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal)) (x11 : (⟨S1, .f32⟩ : BufTy).Contents (Elt Ideal)) :
    val_main_v140 (F := Ideal) x0 x1 x2 x3 x4 x5 x6 x7 x8 x9 x10 x11
      = Cert.Dense.addRow (Cert.Dense.mm (val_main_v136 (F := Ideal) x0 x1 x2 x3 x4 x5 x6 x7 x8 x9) x10) x11 := by
  unfold val_main_v140 val_main_v139 val_main_v138 val_main_v137
  exact hostDense 100000 16 1 _ _ _ x10 x11

/-- The host program's result is the network function of its twelve arrays. -/
theorem val_eq_net (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S64x32, .f32⟩ : BufTy).Contents (Elt Ideal)) (x7 : (⟨S32, .f32⟩ : BufTy).Contents (Elt Ideal)) (x8 : (⟨S32x16, .f32⟩ : BufTy).Contents (Elt Ideal)) (x9 : (⟨S16, .f32⟩ : BufTy).Contents (Elt Ideal)) (x10 : (⟨S16x1, .f32⟩ : BufTy).Contents (Elt Ideal)) (x11 : (⟨S1, .f32⟩ : BufTy).Contents (Elt Ideal)) :
    Cert.ReferenceIdeal.ReadP.val_main_v140 (F := Ideal) x0 x1 x2 x3 x4 x5 x6 x7 x8 x9 x10 x11
      = Cert.Gcn.net x0 x1 x2 x3 x4 x5 x6 x7 x8 x9 x10 x11 := by
  rw [readout3, readout2, readout1, afterLayers]
  unfold Cert.Gcn.net Cert.Gcn.readout
  rw [Cert.Dense.actRow_cast, Cert.Dense.actRow_cast, Cert.Dense.addRowRow_cast]

end Cert.ReferenceIdeal.RefValue

end
-- ==== Proof.lean ====
/-
  The certificate of a four-layer residual graph-convolution network with a dense readout: the tiled kernel program
  against the plain array program, at exact (extended real) values.

  Both programs compute, for features x, an edge list E, an encoder, four layers' weights and biases and a three-layer
  readout,   h0 = x·Wenc + benc,   h(l+1) = act_l(aggregate(h_l·Wg[l]) + bg[l] + h_l),   y = readout(h4),
  where aggregate gathers rows along the edges (self-loops appended), scales them by the symmetric normalisation
  coefficients and scatter-adds them at the destinations, act_l is the rectifier for l < 3 and nothing for l = 3. The
  kernel program takes every dense stage in blocks of 10000 rows, one block per grid point of ten tiled regions,
  narrowing the operands of each product to half precision first, and leaves gather, scaling and scatter-add to host
  operations; the array program takes every stage whole. At exact values narrowing changes nothing, a block of rows
  of a product or of a row-wise stage is the same function of the corresponding rows, and the host chains are the
  same operations in both programs: the two results are one function of the arguments, entry by entry, with no
  algebraic law and no finiteness needed.

  The frames of the two kernel programs are the generated frame certificates; the array program's frame is its run
  with the result dropped. The idealization rewrote no operation, so that conjunct is trivial. For the value claim the
  kernel program's run is read at the result buffer (the launch of the frame certificate, one more buffer read off
  the final state), the result buffer's contents are walked through the program's segments to the network function
  of the launch arguments, and the array program's run term is that same function, stage by stage.
-/
import proofs.«122742_j46179488367199_1_alg».proof.Defs
import proofs.«122742_j46179488367199_1_alg».proof.Proof.Gen.Kernel
import proofs.«122742_j46179488367199_1_alg».proof.Proof.Gen.Kernel.Frame
import proofs.«122742_j46179488367199_1_alg».proof.Proof.Gen.KernelIdeal
import proofs.«122742_j46179488367199_1_alg».proof.Proof.Gen.KernelIdeal.Frame
import proofs.«122742_j46179488367199_1_alg».proof.Proof.Gen.ReferenceIdeal
import proofs.«122742_j46179488367199_1_alg».proof.Proof.Gen.Pre_finite_inputs
import proofs.«122742_j46179488367199_1_alg».proof.Proof.KRun
import proofs.«122742_j46179488367199_1_alg».proof.Proof.Walk
import proofs.«122742_j46179488367199_1_alg».proof.Proof.RefRun
import proofs.«122742_j46179488367199_1_alg».proof.Proof.RefRead
import proofs.«122742_j46179488367199_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The array program's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network function of the arguments in their result buffers. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Walk.result m ρ c), (h c).2⟩)
      (Cert.KernelIdeal.ValueRun.run_result (F := Ideal) m ρ), ?_⟩
  refine (θ_run Cert.ReferenceIdeal.defs _ _).mono (fun r h c => ⟨?_, (h c).2⟩)
    (Cert.ReferenceIdeal.ValueP.run (F := Ideal) m' ρ')
  obtain ⟨e0, e1, e2, e3, e4, e5, e6, e7, e8, e9, e10, e11⟩ := hagree c
  rw [(h c).1, Cert.ReferenceIdeal.ReadP.val_main_v140_eq, Cert.ReferenceIdeal.RefValue.val_eq_net,
    e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
